-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_cst_13)) (v2 : (c : Dev Cert.KernelIdeal.nD) → Buf (Elt Ideal) ((c.tc : Thread Cert.KernelIdeal.nD Cert.KernelIdeal.τ).loc Cert.KernelIdeal.main_v116)) (v3 : (c : Dev Cert.KernelIdeal.nD) → Buf (Elt Ideal) ((c.tc : Thread Cert.KernelIdeal.nD Cert.KernelIdeal.τ).loc Cert.KernelIdeal.main_v117)) (v4 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_cst_13) = v1 c
          ∧ r.2.mem ((c.tc : Thread Cert.KernelIdeal.nD Cert.KernelIdeal.τ).loc Cert.KernelIdeal.main_v116) = v2 c
          ∧ r.2.mem ((c.tc : Thread Cert.KernelIdeal.nD Cert.KernelIdeal.τ).loc Cert.KernelIdeal.main_v117) = v3 c
          ∧ r.2.mem ((c.tc : Thread Cert.KernelIdeal.nD Cert.KernelIdeal.τ).loc Cert.KernelIdeal.main_v118) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_cst_13) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v120) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S500x64 : Shape := ⟨2, ![500, 64]⟩
abbrev S365x64 : Shape := ⟨2, ![365, 64]⟩
abbrev S256x4 : Shape := ⟨2, ![256, 4]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S365x64 : S_.BroadcastsInDim S365x64 (![] : Fin 0 → Fin S365x64.rank)
  reducesTo_S365x64_S_d0_1 : S365x64.ReducesTo [0, 1] S_

variable [Facts]

def fn_part1 {F : FTy → Type} [FloatOps F] (main_arg4 : FVec F S365x64 .f32) (main_v13 : IVec S_ 1) (main_v16 : IVec S365x64 1) : IVec S_ 1 :=
  let main_c_5 : IVec S_ 1 := constantI S_ 1 1#1
  let main_v17 : IVec S_ 1 := (fun x v => Host.reduce IntOp.andi x v reducesTo_S365x64_S_d0_1 h_S_) main_v16 main_c_5
  let main_v18 : IVec S_ 1 := andi main_v13 main_v17
  let main_v19 : FVec F S365x64 .f32 := Host.absf main_arg4
  let main_cst_6 : FVec F S_ .f32 := constant S_ .f32 0x7F800000#32
  let main_v20 : FVec F S365x64 .f32 := broadcastInDim S365x64 ![] bcast_S_S365x64 main_cst_6
  let main_v21 : IVec S365x64 1 := cmpf .olt main_v19 main_v20
  let main_c_7 : IVec S_ 1 := constantI S_ 1 1#1
  let main_v22 : IVec S_ 1 := (fun x v => Host.reduce IntOp.andi x v reducesTo_S365x64_S_d0_1 h_S_) main_v21 main_c_7
  let main_v23 : IVec S_ 1 := andi main_v18 main_v22
  main_v23

def fn {F : FTy → Type} [FloatOps F] (main_arg0 : FVec F S400000x64 .f32) (main_arg1 : FVec F S500x64 .f32) (main_arg2 : FVec F S365x64 .f32) (main_arg3 : FVec F S365x64 .f32) (main_arg4 : FVec F S365x64 .f32) (main_arg5 : IVec S256x4 32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S500x64 .f32 := Host.absf main_arg1
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S365x64 .f32 := Host.absf main_arg2
  let main_cst_2 : FVec F S_ .f32 := constant S_ .f32 0x7F800000#32
  let main_v10 : FVec F S365x64 .f32 := broadcastInDim S365x64 ![] bcast_S_S365x64 main_cst_2
  let main_v11 : IVec S365x64 1 := cmpf .olt main_v9 main_v10
  let main_c_3 : IVec S_ 1 := constantI S_ 1 1#1
  let main_v12 : IVec S_ 1 := (fun x v => Host.reduce IntOp.andi x v reducesTo_S365x64_S_d0_1 h_S_) main_v11 main_c_3
  let main_v13 : IVec S_ 1 := andi main_v8 main_v12
  let main_v14 : FVec F S365x64 .f32 := Host.absf main_arg3
  let main_cst_4 : FVec F S_ .f32 := constant S_ .f32 0x7F800000#32
  let main_v15 : FVec F S365x64 .f32 := broadcastInDim S365x64 ![] bcast_S_S365x64 main_cst_4
  let main_v16 : IVec S365x64 1 := cmpf .olt main_v14 main_v15
  fn_part1 (F := F) main_arg4 main_v13 main_v16
-- ==== Kernel.lean ====
abbrev S400000x64 : Shape := ⟨2, ![400000, 64]⟩
abbrev S500x64 : Shape := ⟨2, ![500, 64]⟩
abbrev S365x64 : Shape := ⟨2, ![365, 64]⟩
abbrev S256x4 : Shape := ⟨2, ![256, 4]⟩
abbrev S256x1 : Shape := ⟨2, ![256, 1]⟩
abbrev S256 : Shape := ⟨1, ![256]⟩
abbrev S_ : Shape := ⟨0, ![]⟩
abbrev S256x64 : Shape := ⟨2, ![256, 64]⟩
abbrev S256x32 : Shape := ⟨2, ![256, 32]⟩
abbrev S256x256 : Shape := ⟨2, ![256, 256]⟩
abbrev S256x400000 : Shape := ⟨2, ![256, 400000]⟩
abbrev S3200x64 : Shape := ⟨2, ![3200, 64]⟩
abbrev S256x3200 : Shape := ⟨2, ![256, 3200]⟩
abbrev S364x64 : Shape := ⟨2, ![364, 64]⟩

abbrev nBuf : Space → Nat
  | .hbm => 141
  | .vmem => 6
  | .smem => 0
  | _ => 0

abbrev hbmTy0_0 (i : Nat) : BufTy := match i % 128 with
  | 0 => ⟨S400000x64, .f32⟩
  | 1 => ⟨S500x64, .f32⟩
  | 2 => ⟨S365x64, .f32⟩
  | 3 => ⟨S365x64, .f32⟩
  | 4 => ⟨S365x64, .f32⟩
  | 5 => ⟨S256x4, .i32⟩
  | 6 => ⟨S256x1, .i32⟩
  | 7 => ⟨S256, .i32⟩
  | 8 => ⟨S_, .i32⟩
  | 9 => ⟨S256, .i32⟩
  | 10 => ⟨S256, .i1⟩
  | 11 => ⟨S_, .i32⟩
  | 12 => ⟨S256, .i32⟩
  | 13 => ⟨S256, .i32⟩
  | 14 => ⟨S256, .i32⟩
  | 15 => ⟨S256x1, .i32⟩
  | 16 => ⟨S256x64, .f32⟩
  | 17 => ⟨S256x1, .i32⟩
  | 18 => ⟨S256, .i32⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256x64, .f32⟩
  | 28 => ⟨S256x1, .i32⟩
  | 29 => ⟨S256, .i32⟩
  | 30 => ⟨S_, .i32⟩
  | 31 => ⟨S256, .i32⟩
  | 32 => ⟨S256, .i1⟩
  | 33 => ⟨S_, .i32⟩
  | 34 => ⟨S256, .i32⟩
  | 35 => ⟨S256, .i32⟩
  | 36 => ⟨S256, .i32⟩
  | 37 => ⟨S256x1, .i32⟩
  | 38 => ⟨S256x64, .f32⟩
  | 39 => ⟨S256x1, .i32⟩
  | 40 => ⟨S256, .i32⟩
  | 41 => ⟨S_, .i32⟩
  | 42 => ⟨S256, .i32⟩
  | 43 => ⟨S256, .i1⟩
  | 44 => ⟨S_, .i32⟩
  | 45 => ⟨S256, .i32⟩
  | 46 => ⟨S256, .i32⟩
  | 47 => ⟨S256, .i32⟩
  | 48 => ⟨S256x1, .i32⟩
  | 49 => ⟨S256x64, .f32⟩
  | 50 => ⟨S256x1, .i32⟩
  | 51 => ⟨S256, .i32⟩
  | 52 => ⟨S_, .i32⟩
  | 53 => ⟨S256, .i32⟩
  | 54 => ⟨S256, .i1⟩
  | 55 => ⟨S_, .i32⟩
  | 56 => ⟨S256, .i32⟩
  | 57 => ⟨S256, .i32⟩
  | 58 => ⟨S256, .i32⟩
  | 59 => ⟨S256x1, .i32⟩
  | 60 => ⟨S256x64, .f32⟩
  | 61 => ⟨S256x32, .f32⟩
  | 62 => ⟨S256x32, .f32⟩
  | 63 => ⟨S256x32, .f32⟩
  | 64 => ⟨S256x32, .f32⟩
  | 65 => ⟨S256x32, .f32⟩
  | 66 => ⟨S256x32, .f32⟩
  | 67 => ⟨S256x32, .f32⟩
  | 68 => ⟨S256x32, .f32⟩
  | 69 => ⟨S256x32, .f32⟩
  | 70 => ⟨S256x32, .f32⟩
  | 71 => ⟨S256x64, .f32⟩
  | 72 => ⟨S256x64, .f32⟩
  | 73 => ⟨S_, .f32⟩
  | 74 => ⟨S256x64, .f32⟩
  | 75 => ⟨S256x256, .f32⟩
  | 76 => ⟨S256x256, .f32⟩
  | 77 => ⟨S256x64, .f32⟩
  | 78 => ⟨S256x64, .f32⟩
  | 79 => ⟨S256x64, .f32⟩
  | 80 => ⟨S256x64, .f32⟩
  | 81 => ⟨S256x64, .f32⟩
  | 82 => ⟨S256x64, .f32⟩
  | 83 => ⟨S256x64, .f32⟩
  | 84 => ⟨S256x64, .f32⟩
  | 85 => ⟨S256x64, .f32⟩
  | 86 => ⟨S256x64, .f32⟩
  | 87 => ⟨S256x64, .f32⟩
  | 88 => ⟨S256x64, .f32⟩
  | 89 => ⟨S256x64, .f32⟩
  | 90 => ⟨S256x64, .f32⟩
  | 91 => ⟨S256x64, .f32⟩
  | 92 => ⟨S256x64, .f32⟩
  | 93 => ⟨S256x64, .f32⟩
  | 94 => ⟨S256x64, .f32⟩
  | 95 => ⟨S256x64, .f32⟩
  | 96 => ⟨S256x64, .f32⟩
  | 97 => ⟨S256x64, .f32⟩
  | 98 => ⟨S256x64, .f32⟩
  | 99 => ⟨S256x64, .f32⟩
  | 100 => ⟨S256x64, .f32⟩
  | 101 => ⟨S256x64, .f32⟩
  | 102 => ⟨S256x64, .f32⟩
  | 103 => ⟨S256x64, .f32⟩
  | 104 => ⟨S256x64, .f32⟩
  | 105 => ⟨S256x64, .f32⟩
  | 106 => ⟨S256x64, .f32⟩
  | 107 => ⟨S256x64, .f32⟩
  | 108 => ⟨S256x64, .f32⟩
  | 109 => ⟨S256x64, .f32⟩
  | 110 => ⟨S256x64, .f32⟩
  | 111 => ⟨S256x64, .f32⟩
  | 112 => ⟨S256x64, .f32⟩
  | 113 => ⟨S256x256, .f32⟩
  | 114 => ⟨S256x64, .f32⟩
  | 115 => ⟨S256x64, .f32⟩
  | 116 => ⟨S256x64, .f32⟩
  | 117 => ⟨S256x64, .f32⟩
  | 118 => ⟨S256x64, .f32⟩
  | 119 => ⟨S_, .f32⟩
  | 120 => ⟨S256, .f32⟩
  | 121 => ⟨S256x64, .f32⟩
  | 122 => ⟨S_, .f32⟩
  | 123 => ⟨S256, .f32⟩
  | 124 => ⟨S256, .f32⟩
  | 125 => ⟨S256x64, .f32⟩
  | 126 => ⟨S_, .f32⟩
  | 127 => ⟨S256, .f32⟩
  | _ => ⟨S400000x64, .f32⟩

abbrev hbmTy0_1 (i : Nat) : BufTy := match i % 128 with
  | 0 => ⟨S256, .f32⟩
  | 1 => ⟨S256x64, .f32⟩
  | 2 => ⟨S_, .f32⟩
  | 3 => ⟨S256, .f32⟩
  | 4 => ⟨S256, .f32⟩
  | 5 => ⟨S256x64, .f32⟩
  | 6 => ⟨S256x64, .bf16⟩
  | 7 => ⟨S256x1, .f32⟩
  | 8 => ⟨S256x400000, .f32⟩
  | 9 => ⟨S364x64, .f32⟩
  | 10 => ⟨S364x64, .f32⟩
  | 11 => ⟨S364x64, .f32⟩
  | 12 => ⟨S_, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | .local _ .vmem, ⟨0, _⟩ => ⟨S256x64, .bf16⟩
  | .local _ .vmem, ⟨1, _⟩ => ⟨S3200x64, .f32⟩
  | .local _ .vmem, ⟨2, _⟩ => ⟨S3200x64, .f32⟩
  | .local _ .vmem, ⟨3, _⟩ => ⟨S256x1, .f32⟩
  | .local _ .vmem, ⟨4, _⟩ => ⟨S256x3200, .f32⟩
  | .local _ .vmem, ⟨5, _⟩ => ⟨S256x3200, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_9 : Ref sig .tc := ⟨.hbm, 119, rfl⟩
abbrev main_v102 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_11 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_13 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S256x4_S256x1_0_0 : S256x4.Slices ![0, 0] S256x1
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  slices_S256x4_S256x1_0_1 : S256x4.Slices ![0, 1] S256x1
  slices_S256x4_S256x1_0_3 : S256x4.Slices ![0, 3] S256x1
  slices_S256x64_S256x32_0_0 : S256x64.Slices ![0, 0] S256x32
  slices_S256x64_S256x32_0_32 : S256x64.Slices ![0, 32] S256x32
  concatenates_S256x32_S256x32_S256x64_d1 : Shape.Concatenates [S256x32, S256x32] S256x64 1
  bcast_S_S256x64 : S_.BroadcastsInDim S256x64 (![] : Fin 0 → Fin S256x64.rank)
  concatenates_S256x64_S256x64_S256x64_S256x64_S256x256_d1 : Shape.Concatenates [S256x64, S256x64, S256x64, S256x64] S256x256 1
  slices_S256x256_S256x64_0_0 : S256x256.Slices ![0, 0] S256x64
  slices_S256x256_S256x64_0_64 : S256x256.Slices ![0, 64] S256x64
  slices_S256x256_S256x64_0_128 : S256x256.Slices ![0, 128] S256x64
  slices_S256x256_S256x64_0_192 : S256x256.Slices ![0, 192] S256x64
  reducesTo_S256x64_S256_d1 : S256x64.ReducesTo [1] S256
  h_S_ : 0 < S_.numel
  bitsLt_bf16_f32 : FTy.bits .bf16 < FTy.bits .f32
  shapeCasts_S256_S256x1 : S256.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S3200x64_S3200x64_0_0 : ∀ a, (![0, 0] : Fin 2 → Nat) a + S3200x64.size a ≤ S3200x64.size a
  h_S3200x64 : 0 < S3200x64.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3200 : S256x1.Broadcasts S256x3200
  inb_S256x3200_S256x3200_0_0 : ∀ a, (![0, 0] : Fin 2 → Nat) a + S256x3200.size a ≤ S256x3200.size a
  h_S256x3200 : 0 < S256x3200.numel
  slices_S365x64_S364x64_0_0 : S365x64.Slices ![0, 0] S364x64
  gather_S400000x64_S256x1_S256x64_1_0_n_n_0_1_164_wf : GatherDims.WF S400000x64 S256x1 S256x64 [1] [0] [] [0] [] 1 ![1, 64]
  gather_S500x64_S256x1_S256x64_1_0_n_n_0_1_164_wf : GatherDims.WF S500x64 S256x1 S256x64 [1] [0] [] [0] [] 1 ![1, 64]
  gather_S365x64_S256x1_S256x64_1_0_n_n_0_1_164_wf : GatherDims.WF S365x64 S256x1 S256x64 [1] [0] [] [0] [] 1 ![1, 64]
  dot_S256x64_S3200x64_S256x3200_1_1_0_0_n_n_wf : DotDims.WF S256x64 S3200x64 S256x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .bf16 = 32 ∨ (Rect.block (s := S256x64) S256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S400000x64.size a
  hwx0_1 : ∀ i : grid0.Coords, EltTy.bits .f32 = 32 ∨ (Rect.block (s := S400000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3200.size a ≤ S256x400000.size a
  hwx0_3 : ∀ i : grid0.Coords, EltTy.bits .f32 = 32 ∨ (Rect.block (s := S256x400000) S256x3200.size (cc0_transform_3 i) (hinb0_3 i)).WholeWords (EltTy.packing .f32)

variable [Facts₀]

def gather_S400000x64_S256x1_S256x64_1_0_n_n_0_1_164 : GatherDims S400000x64 S256x1 S256x64 where
  offsetDims := [1]
  collapsedSliceDims := [0]
  operandBatchingDims := []
  startIndicesBatchingDims := []
  startIndexMap := [0]
  indexVectorDim := 1
  sliceSizes := ![1, 64]
  wf := gather_S400000x64_S256x1_S256x64_1_0_n_n_0_1_164_wf
def gather_S500x64_S256x1_S256x64_1_0_n_n_0_1_164 : GatherDims S500x64 S256x1 S256x64 where
  offsetDims := [1]
  collapsedSliceDims := [0]
  operandBatchingDims := []
  startIndicesBatchingDims := []
  startIndexMap := [0]
  indexVectorDim := 1
  sliceSizes := ![1, 64]
  wf := gather_S500x64_S256x1_S256x64_1_0_n_n_0_1_164_wf
def gather_S365x64_S256x1_S256x64_1_0_n_n_0_1_164 : GatherDims S365x64 S256x1 S256x64 where
  offsetDims := [1]
  collapsedSliceDims := [0]
  operandBatchingDims := []
  startIndicesBatchingDims := []
  startIndexMap := [0]
  indexVectorDim := 1
  sliceSizes := ![1, 64]
  wf := gather_S365x64_S256x1_S256x64_1_0_n_n_0_1_164_wf
def dot_S256x64_S3200x64_S256x3200_1_1_0_0_n_n : DotDims S256x64 S3200x64 S256x3200 where
  lhsContracting := [1]
  rhsContracting := [1]
  lhsNonContracting := [0]
  rhsNonContracting := [0]
  lhsBatch := []
  rhsBatch := []
  wf := dot_S256x64_S3200x64_S256x3200_1_1_0_0_n_n_wf

abbrev win0_0 : Pipeline.Window sig grid0 :=
  Pipeline.Window.ofSpec (Memref.whole main_v113) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v114) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v115) S256x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S400000x64 : Shape := ⟨2, ![400000, 64]⟩
abbrev S500x64 : Shape := ⟨2, ![500, 64]⟩
abbrev S365x64 : Shape := ⟨2, ![365, 64]⟩
abbrev S256x4 : Shape := ⟨2, ![256, 4]⟩
abbrev S256x1 : Shape := ⟨2, ![256, 1]⟩
abbrev S256 : Shape := ⟨1, ![256]⟩
abbrev S_ : Shape := ⟨0, ![]⟩
abbrev S256x64 : Shape := ⟨2, ![256, 64]⟩
abbrev S256x32 : Shape := ⟨2, ![256, 32]⟩
abbrev S256x256 : Shape := ⟨2, ![256, 256]⟩
abbrev S64x400000 : Shape := ⟨2, ![64, 400000]⟩
abbrev S256x400000 : Shape := ⟨2, ![256, 400000]⟩
abbrev S364x64 : Shape := ⟨2, ![364, 64]⟩

abbrev nBuf : Space → Nat
  | .hbm => 143
  | .vmem => 0
  | .smem => 0
  | _ => 0

abbrev hbmTy0_0 (i : Nat) : BufTy := match i % 128 with
  | 0 => ⟨S400000x64, .f32⟩
  | 1 => ⟨S500x64, .f32⟩
  | 2 => ⟨S365x64, .f32⟩
  | 3 => ⟨S365x64, .f32⟩
  | 4 => ⟨S365x64, .f32⟩
  | 5 => ⟨S256x4, .i32⟩
  | 6 => ⟨S256x1, .i32⟩
  | 7 => ⟨S256, .i32⟩
  | 8 => ⟨S_, .i32⟩
  | 9 => ⟨S256, .i32⟩
  | 10 => ⟨S256, .i1⟩
  | 11 => ⟨S_, .i32⟩
  | 12 => ⟨S256, .i32⟩
  | 13 => ⟨S256, .i32⟩
  | 14 => ⟨S256, .i32⟩
  | 15 => ⟨S256x1, .i32⟩
  | 16 => ⟨S256x64, .f32⟩
  | 17 => ⟨S256x1, .i32⟩
  | 18 => ⟨S256, .i32⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256x64, .f32⟩
  | 28 => ⟨S256x1, .i32⟩
  | 29 => ⟨S256, .i32⟩
  | 30 => ⟨S_, .i32⟩
  | 31 => ⟨S256, .i32⟩
  | 32 => ⟨S256, .i1⟩
  | 33 => ⟨S_, .i32⟩
  | 34 => ⟨S256, .i32⟩
  | 35 => ⟨S256, .i32⟩
  | 36 => ⟨S256, .i32⟩
  | 37 => ⟨S256x1, .i32⟩
  | 38 => ⟨S256x64, .f32⟩
  | 39 => ⟨S256x1, .i32⟩
  | 40 => ⟨S256, .i32⟩
  | 41 => ⟨S_, .i32⟩
  | 42 => ⟨S256, .i32⟩
  | 43 => ⟨S256, .i1⟩
  | 44 => ⟨S_, .i32⟩
  | 45 => ⟨S256, .i32⟩
  | 46 => ⟨S256, .i32⟩
  | 47 => ⟨S256, .i32⟩
  | 48 => ⟨S256x1, .i32⟩
  | 49 => ⟨S256x64, .f32⟩
  | 50 => ⟨S256x1, .i32⟩
  | 51 => ⟨S256, .i32⟩
  | 52 => ⟨S_, .i32⟩
  | 53 => ⟨S256, .i32⟩
  | 54 => ⟨S256, .i1⟩
  | 55 => ⟨S_, .i32⟩
  | 56 => ⟨S256, .i32⟩
  | 57 => ⟨S256, .i32⟩
  | 58 => ⟨S256, .i32⟩
  | 59 => ⟨S256x1, .i32⟩
  | 60 => ⟨S256x64, .f32⟩
  | 61 => ⟨S256x32, .f32⟩
  | 62 => ⟨S256x32, .f32⟩
  | 63 => ⟨S256x32, .f32⟩
  | 64 => ⟨S256x32, .f32⟩
  | 65 => ⟨S256x32, .f32⟩
  | 66 => ⟨S256x32, .f32⟩
  | 67 => ⟨S256x32, .f32⟩
  | 68 => ⟨S256x32, .f32⟩
  | 69 => ⟨S256x32, .f32⟩
  | 70 => ⟨S256x32, .f32⟩
  | 71 => ⟨S256x64, .f32⟩
  | 72 => ⟨S256x64, .f32⟩
  | 73 => ⟨S_, .f32⟩
  | 74 => ⟨S256x64, .f32⟩
  | 75 => ⟨S256x256, .f32⟩
  | 76 => ⟨S256x256, .f32⟩
  | 77 => ⟨S256x64, .f32⟩
  | 78 => ⟨S256x64, .f32⟩
  | 79 => ⟨S256x64, .f32⟩
  | 80 => ⟨S256x64, .f32⟩
  | 81 => ⟨S256x64, .f32⟩
  | 82 => ⟨S256x64, .f32⟩
  | 83 => ⟨S256x64, .f32⟩
  | 84 => ⟨S256x64, .f32⟩
  | 85 => ⟨S256x64, .f32⟩
  | 86 => ⟨S256x64, .f32⟩
  | 87 => ⟨S256x64, .f32⟩
  | 88 => ⟨S256x64, .f32⟩
  | 89 => ⟨S256x64, .f32⟩
  | 90 => ⟨S256x64, .f32⟩
  | 91 => ⟨S256x64, .f32⟩
  | 92 => ⟨S256x64, .f32⟩
  | 93 => ⟨S256x64, .f32⟩
  | 94 => ⟨S256x64, .f32⟩
  | 95 => ⟨S256x64, .f32⟩
  | 96 => ⟨S256x64, .f32⟩
  | 97 => ⟨S256x64, .f32⟩
  | 98 => ⟨S256x64, .f32⟩
  | 99 => ⟨S256x64, .f32⟩
  | 100 => ⟨S256x64, .f32⟩
  | 101 => ⟨S256x64, .f32⟩
  | 102 => ⟨S256x64, .f32⟩
  | 103 => ⟨S256x64, .f32⟩
  | 104 => ⟨S256x64, .f32⟩
  | 105 => ⟨S256x64, .f32⟩
  | 106 => ⟨S256x64, .f32⟩
  | 107 => ⟨S256x64, .f32⟩
  | 108 => ⟨S256x64, .f32⟩
  | 109 => ⟨S256x64, .f32⟩
  | 110 => ⟨S256x64, .f32⟩
  | 111 => ⟨S256x64, .f32⟩
  | 112 => ⟨S256x64, .f32⟩
  | 113 => ⟨S256x256, .f32⟩
  | 114 => ⟨S256x64, .f32⟩
  | 115 => ⟨S256x64, .f32⟩
  | 116 => ⟨S256x64, .f32⟩
  | 117 => ⟨S256x64, .f32⟩
  | 118 => ⟨S256x64, .f32⟩
  | 119 => ⟨S_, .f32⟩
  | 120 => ⟨S256, .f32⟩
  | 121 => ⟨S256x64, .f32⟩
  | 122 => ⟨S_, .f32⟩
  | 123 => ⟨S256, .f32⟩
  | 124 => ⟨S256, .f32⟩
  | 125 => ⟨S256x64, .f32⟩
  | 126 => ⟨S_, .f32⟩
  | 127 => ⟨S256, .f32⟩
  | _ => ⟨S400000x64, .f32⟩

abbrev hbmTy0_1 (i : Nat) : BufTy := match i % 128 with
  | 0 => ⟨S256, .f32⟩
  | 1 => ⟨S256x64, .f32⟩
  | 2 => ⟨S_, .f32⟩
  | 3 => ⟨S256, .f32⟩
  | 4 => ⟨S256, .f32⟩
  | 5 => ⟨S256x64, .f32⟩
  | 6 => ⟨S64x400000, .f32⟩
  | 7 => ⟨S256x400000, .f32⟩
  | 8 => ⟨S256x1, .f32⟩
  | 9 => ⟨S256x400000, .f32⟩
  | 10 => ⟨S256x400000, .f32⟩
  | 11 => ⟨S364x64, .f32⟩
  | 12 => ⟨S364x64, .f32⟩
  | 13 => ⟨S364x64, .f32⟩
  | 14 => ⟨S_, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_9 : Ref sig .tc := ⟨.hbm, 119, rfl⟩
abbrev main_v102 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_11 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_13 : Ref sig .tc := ⟨.hbm, 142, rfl⟩

abbrev nD : Nat := 1
abbrev τ : Topo := Topo.v7x

variable {F : FTy → Type} [FloatOps F]

class Facts₀ : Prop where
  slices_S256x4_S256x1_0_0 : S256x4.Slices ![0, 0] S256x1
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  slices_S256x4_S256x1_0_1 : S256x4.Slices ![0, 1] S256x1
  slices_S256x4_S256x1_0_3 : S256x4.Slices ![0, 3] S256x1
  slices_S256x64_S256x32_0_0 : S256x64.Slices ![0, 0] S256x32
  slices_S256x64_S256x32_0_32 : S256x64.Slices ![0, 32] S256x32
  concatenates_S256x32_S256x32_S256x64_d1 : Shape.Concatenates [S256x32, S256x32] S256x64 1
  bcast_S_S256x64 : S_.BroadcastsInDim S256x64 (![] : Fin 0 → Fin S256x64.rank)
  concatenates_S256x64_S256x64_S256x64_S256x64_S256x256_d1 : Shape.Concatenates [S256x64, S256x64, S256x64, S256x64] S256x256 1
  slices_S256x256_S256x64_0_0 : S256x256.Slices ![0, 0] S256x64
  slices_S256x256_S256x64_0_64 : S256x256.Slices ![0, 64] S256x64
  slices_S256x256_S256x64_0_128 : S256x256.Slices ![0, 128] S256x64
  slices_S256x256_S256x64_0_192 : S256x256.Slices ![0, 192] S256x64
  reducesTo_S256x64_S256_d1 : S256x64.ReducesTo [1] S256
  h_S_ : 0 < S_.numel
  transposes_S400000x64_S64x400000_1_0 : S400000x64.Transposes [1, 0] S64x400000
  bcast_S256x1_S256x400000_0_1 : S256x1.BroadcastsInDim S256x400000 (![0, 1] : Fin 2 → Fin S256x400000.rank)
  slices_S365x64_S364x64_0_0 : S365x64.Slices ![0, 0] S364x64
  gather_S400000x64_S256x1_S256x64_1_0_n_n_0_1_164_wf : GatherDims.WF S400000x64 S256x1 S256x64 [1] [0] [] [0] [] 1 ![1, 64]
  gather_S500x64_S256x1_S256x64_1_0_n_n_0_1_164_wf : GatherDims.WF S500x64 S256x1 S256x64 [1] [0] [] [0] [] 1 ![1, 64]
  gather_S365x64_S256x1_S256x64_1_0_n_n_0_1_164_wf : GatherDims.WF S365x64 S256x1 S256x64 [1] [0] [] [0] [] 1 ![1, 64]
  dot_S256x64_S64x400000_S256x400000_1_0_0_1_n_n_wf : DotDims.WF S256x64 S64x400000 S256x400000 [1] [0] [0] [1] [] []

variable [Facts₀]

def gather_S400000x64_S256x1_S256x64_1_0_n_n_0_1_164 : GatherDims S400000x64 S256x1 S256x64 where
  offsetDims := [1]
  collapsedSliceDims := [0]
  operandBatchingDims := []
  startIndicesBatchingDims := []
  startIndexMap := [0]
  indexVectorDim := 1
  sliceSizes := ![1, 64]
  wf := gather_S400000x64_S256x1_S256x64_1_0_n_n_0_1_164_wf
def gather_S500x64_S256x1_S256x64_1_0_n_n_0_1_164 : GatherDims S500x64 S256x1 S256x64 where
  offsetDims := [1]
  collapsedSliceDims := [0]
  operandBatchingDims := []
  startIndicesBatchingDims := []
  startIndexMap := [0]
  indexVectorDim := 1
  sliceSizes := ![1, 64]
  wf := gather_S500x64_S256x1_S256x64_1_0_n_n_0_1_164_wf
def gather_S365x64_S256x1_S256x64_1_0_n_n_0_1_164 : GatherDims S365x64 S256x1 S256x64 where
  offsetDims := [1]
  collapsedSliceDims := [0]
  operandBatchingDims := []
  startIndicesBatchingDims := []
  startIndexMap := [0]
  indexVectorDim := 1
  sliceSizes := ![1, 64]
  wf := gather_S365x64_S256x1_S256x64_1_0_n_n_0_1_164_wf
def dot_S256x64_S64x400000_S256x400000_1_0_0_1_n_n : DotDims S256x64 S64x400000 S256x400000 where
  lhsContracting := [1]
  rhsContracting := [0]
  lhsNonContracting := [0]
  rhsNonContracting := [1]
  lhsBatch := []
  rhsBatch := []
  wf := dot_S256x64_S64x400000_S256x400000_1_0_0_1_n_n_wf

class Facts : Prop extends Facts₀ where

variable [Facts]
-- ==== Proof.AroundKernel.lean ====
/-
  The run of the scoring program around its one tiled launch, at any float instance.

  The program first computes, by host operations, a left factor [256, 64] and a column of row biases [256, 1];
  the launch then walks 125 tiles of 3200 entity rows, and at tile t stores into columns 3200 t … 3200 t + 3199 of
  the [256, 400000] result the product of the left factor with the tile's rows, contracted over the 64 features,
  plus the row's bias; four host operations follow the launch.

  Here: what each buffer holds when the launch starts (`V`), what a tile's step leaves in the result's staging
  block as a function of the three input blocks (`outBlock`), the step's specification, and from these the run of
  the whole program: it terminates, every array the launch walks ends at what the steps wrote, every other buffer at
  what the four closing operations make of the launch-time contents; in particular the six argument arrays end
  unchanged.
-/
import proofs.«136334_j55559696941650_2_alg».proof.Proof.Gen.Kernel.Launch
import proofs.«136334_j55559696941650_2_alg».proof.Proof.Gen.Kernel.Skeleton
import proofs.«136334_j55559696941650_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch starts -/

/-- Every buffer of core `c` after the 130 host operations that precede the launch. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the 130 operations, the launch, the 4 operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing operations touch only buffers that outlive the launch, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the four arrays the launch walks. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, Finset.mem_singleton] <;> exact StableHlo.devRef_ne_of_ne (by decide)

/-- No operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation after the launch writes argument 1: it ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation after the launch writes argument 2: it ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the launch writes argument 3: it ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the launch writes argument 4: it ends as it started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the launch writes argument 5: it ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The blocks -/

/-- The block of array `w` that tile `t` works on, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its block at every tile, whether the tile fetched it or an earlier one did. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's staging buffer holds its block at every tile, whether the tile fetched it or an earlier one did. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's staging buffer holds its block at every tile, whether the tile fetched it or an earlier one did. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## One tile's step -/

abbrev rLeft : Rect S256x64 := Rect.unit (s := S256x64) ![0, 0] S256x64.size inb_S256x64_S256x64_0_0
abbrev rRows : Rect S3200x64 := Rect.unit (s := S3200x64) ![0, 0] S3200x64.size inb_S3200x64_S3200x64_0_0
abbrev rBias : Rect S256x1 := Rect.unit (s := S256x1) ![0, 0] S256x1.size inb_S256x1_S256x1_0_0
abbrev rOut : Rect S256x3200 := Rect.unit (s := S256x3200) ![0, 0] S256x3200.size inb_S256x3200_S256x3200_0_0

/-- The result's staging block after a step: the one store, of the product-plus-bias of the three input blocks. -/
def outBlock (x0 : Vec F S256x64 .bf16) (x1 : Vec F S3200x64 .f32) (x2 : Vec F S256x1 .f32) : Vec F S256x3200 .f32 :=
  View.canon [⟨rOut, k0_pay1 (View.ld x0 rLeft) (View.ld x1 rRows) (View.ld x2 rBias)⟩]

/-- The one store covers the whole block. -/
theorem cover_out (p0 : Vec F S256x3200 .f32) (y : S256x3200.Idx) :
    ∃ pc ∈ ([⟨rOut, p0⟩] : List (View.Piece (Elt F) S256x3200 .f32)), y ∈ pc.1.set :=
  View.cover_of_tiled [⟨rOut, p0⟩] S256x3200.size (by rfl) y

set_option maxHeartbeats 1000000 in
/-- A step on whole staging buffers, the inputs' holding `x0 x1 x2` and the result's anything, ends with the inputs'
    as they were and the result's at `outBlock x0 x1 x2`. -/
theorem sound_kernel (c : Dev nD) (E : Set ℕ) (i : grid0.Coords) (arg1 : Memref sig .tc .vmem S256x64 .bf16) (harg1 : arg1.IsWhole) (arg2 : Memref sig .tc .vmem S3200x64 .f32) (harg2 : arg2.IsWhole) (arg3 : Memref sig .tc .vmem S256x1 .f32) (harg3 : arg3.IsWhole) (arg4 : Memref sig .tc .vmem S256x3200 .f32) (harg4 : arg4.IsWhole)
    (x0 : Vec F S256x64 .bf16) (x1 : Vec F S3200x64 .f32) (x2 : Vec F S256x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__score_kernel i arg1 harg1 arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's bookkeeping -/

/-- Per core: the arrays as the launch finds them; after tile `t` each input's staging buffer at its block and the
    result's at `outBlock` of the three blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-- What a step is handed at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; each array the launch walks ends at what the bookkeeping
    computes, every other surviving buffer at what the four closing operations make of the launch-time contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end unchanged: the entity table is an input the launch walks, the other five bypass it and
    no closing operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 1).trans ((((dats m) 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.Kernel.Around

end
-- ==== Proof.AroundKernelIdeal.lean ====
/-
  The run of the scoring program around its one tiled launch, at any float instance.

  The program first computes, by host operations, a left factor [256, 64] and a column of row biases [256, 1];
  the launch then walks 125 tiles of 3200 entity rows, and at tile t stores into columns 3200 t … 3200 t + 3199 of
  the [256, 400000] result the product of the left factor with the tile's rows, contracted over the 64 features,
  plus the row's bias; four host operations follow the launch.

  Here: what each buffer holds when the launch starts (`V`), what a tile's step leaves in the result's staging
  block as a function of the three input blocks (`outBlock`), the step's specification, and from these the run of
  the whole program: it terminates, every array the launch walks ends at what the steps wrote, every other buffer at
  what the four closing operations make of the launch-time contents; in particular the six argument arrays end
  unchanged.
-/
import proofs.«136334_j55559696941650_2_alg».proof.Proof.Gen.KernelIdeal.Launch
import proofs.«136334_j55559696941650_2_alg».proof.Proof.Gen.KernelIdeal.Skeleton
import proofs.«136334_j55559696941650_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch starts -/

/-- Every buffer of core `c` after the 130 host operations that precede the launch. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the 130 operations, the launch, the 4 operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing operations touch only buffers that outlive the launch, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the four arrays the launch walks. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, Finset.mem_singleton] <;> exact StableHlo.devRef_ne_of_ne (by decide)

/-- No operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation after the launch writes argument 1: it ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation after the launch writes argument 2: it ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the launch writes argument 3: it ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the launch writes argument 4: it ends as it started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the launch writes argument 5: it ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The blocks -/

/-- The block of array `w` that tile `t` works on, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's staging buffer holds its block at every tile, whether the tile fetched it or an earlier one did. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's staging buffer holds its block at every tile, whether the tile fetched it or an earlier one did. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's staging buffer holds its block at every tile, whether the tile fetched it or an earlier one did. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## One tile's step -/

abbrev rLeft : Rect S256x64 := Rect.unit (s := S256x64) ![0, 0] S256x64.size inb_S256x64_S256x64_0_0
abbrev rRows : Rect S3200x64 := Rect.unit (s := S3200x64) ![0, 0] S3200x64.size inb_S3200x64_S3200x64_0_0
abbrev rBias : Rect S256x1 := Rect.unit (s := S256x1) ![0, 0] S256x1.size inb_S256x1_S256x1_0_0
abbrev rOut : Rect S256x3200 := Rect.unit (s := S256x3200) ![0, 0] S256x3200.size inb_S256x3200_S256x3200_0_0

/-- The result's staging block after a step: the one store, of the product-plus-bias of the three input blocks. -/
def outBlock (x0 : Vec F S256x64 .bf16) (x1 : Vec F S3200x64 .f32) (x2 : Vec F S256x1 .f32) : Vec F S256x3200 .f32 :=
  View.canon [⟨rOut, k0_pay1 (View.ld x0 rLeft) (View.ld x1 rRows) (View.ld x2 rBias)⟩]

/-- The one store covers the whole block. -/
theorem cover_out (p0 : Vec F S256x3200 .f32) (y : S256x3200.Idx) :
    ∃ pc ∈ ([⟨rOut, p0⟩] : List (View.Piece (Elt F) S256x3200 .f32)), y ∈ pc.1.set :=
  View.cover_of_tiled [⟨rOut, p0⟩] S256x3200.size (by rfl) y

set_option maxHeartbeats 1000000 in
/-- A step on whole staging buffers, the inputs' holding `x0 x1 x2` and the result's anything, ends with the inputs'
    as they were and the result's at `outBlock x0 x1 x2`. -/
theorem sound_kernel (c : Dev nD) (E : Set ℕ) (i : grid0.Coords) (arg1 : Memref sig .tc .vmem S256x64 .bf16) (harg1 : arg1.IsWhole) (arg2 : Memref sig .tc .vmem S3200x64 .f32) (harg2 : arg2.IsWhole) (arg3 : Memref sig .tc .vmem S256x1 .f32) (harg3 : arg3.IsWhole) (arg4 : Memref sig .tc .vmem S256x3200 .f32) (harg4 : arg4.IsWhole)
    (x0 : Vec F S256x64 .bf16) (x1 : Vec F S3200x64 .f32) (x2 : Vec F S256x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__score_kernel i arg1 harg1 arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's bookkeeping -/

/-- Per core: the arrays as the launch finds them; after tile `t` each input's staging buffer at its block and the
    result's at `outBlock` of the three blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-- What a step is handed at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; each array the launch walks ends at what the bookkeeping
    computes, every other surviving buffer at what the four closing operations make of the launch-time contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end unchanged: the entity table is an input the launch walks, the other five bypass it and
    no closing operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 1).trans ((((dats m) 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Around

end
-- ==== Proof.Prefix.lean ====
/-
  The values the host operations before the launch compute, one definition per buffer, each the operation's function
  of the values of its operands — so that a value used many times (the gathered rows, the two concatenations, the
  quaternion product) is named once and never copied out.

  From the index array x : [256, 4] the rows x[:,0] of the entity table, x[:,1] of the relation table and x[:,3] of
  the three time tables are gathered (a negative index wraps once); rel' = rel + cmul(rel, comp_time); the
  quaternion product of [lhs, lhs, t_ent, t_ent] with [rel', rel', t_rel, t_rel] gives four [256, 64] parts a, b,
  c, d. The left factor of the scoring product is a + b (`x_v112`), and the row bias (`x_v111`) is
  Σ c·0 + Σ d·t_ent + Σ d·0 + Σ c·t_ent, each sum over the 64 features.
-/
import proofs.«136334_j55559696941650_2_alg».proof.Proof.Gen.KernelIdeal

set_option maxRecDepth 8192

noncomputable section

namespace Cert.KernelIdeal.Prefix

open Cert.KernelIdeal Cert.KernelIdeal.Gen Idealize.ShloMosaic Idealize.SL.Sem

variable {F : FTy → Type} [FloatOps F]

/-- The six argument arrays. -/
structure Args (F : FTy → Type) [FloatOps F] where
  arg0 : (⟨S400000x64, .f32⟩ : BufTy).Contents (Elt F)
  arg1 : (⟨S500x64, .f32⟩ : BufTy).Contents (Elt F)
  arg2 : (⟨S365x64, .f32⟩ : BufTy).Contents (Elt F)
  arg3 : (⟨S365x64, .f32⟩ : BufTy).Contents (Elt F)
  arg4 : (⟨S365x64, .f32⟩ : BufTy).Contents (Elt F)
  arg5 : (⟨S256x4, .i32⟩ : BufTy).Contents (Elt F)

def x_v0 (A : Args F) : (⟨S256x1, .i32⟩ : BufTy).Contents (Elt F) :=
  ((extractStridedSlice S256x1 ![0, 0] · slices_S256x4_S256x1_0_0) : (⟨S256x4, .i32⟩ : BufTy).Contents (Elt F) → (⟨S256x1, .i32⟩ : BufTy).Contents (Elt F)) (A.arg5)
def x_v1 (A : Args F) : (⟨S256, .i32⟩ : BufTy).Contents (Elt F) :=
  shapeCast _ (x_v0 A) shapeCasts_S256x1_S256
def x_c (A : Args F) : (⟨S_, .i32⟩ : BufTy).Contents (Elt F) :=
  (constantI S_ 32 0#32)
def x_v2 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c A)
def x_v3 (A : Args F) : (⟨S256, .i1⟩ : BufTy).Contents (Elt F) :=
  (cmpi .slt : (⟨S256, .i32⟩ : BufTy).Contents (Elt F) → (⟨S256, .i32⟩ : BufTy).Contents (Elt F) → (⟨S256, .i1⟩ : BufTy).Contents (Elt F)) (x_v1 A) (x_v2 A)
def x_c_0 (A : Args F) : (⟨S_, .i32⟩ : BufTy).Contents (Elt F) :=
  (constantI S_ 32 400000#32)
def x_v4 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_0 A)
def x_v5 (A : Args F) : (⟨S256, .i32⟩ : BufTy).Contents (Elt F) :=
  (addi : (⟨S256, .i32⟩ : BufTy).Contents (Elt F) → (⟨S256, .i32⟩ : BufTy).Contents (Elt F) → (⟨S256, .i32⟩ : BufTy).Contents (Elt F)) (x_v1 A) (x_v4 A)
def x_v6 (A : Args F) : (⟨S256, .i32⟩ : BufTy).Contents (Elt F) :=
  (select : (⟨S256, .i1⟩ : BufTy).Contents (Elt F) → (⟨S256, .i32⟩ : BufTy).Contents (Elt F) → (⟨S256, .i32⟩ : BufTy).Contents (Elt F) → (⟨S256, .i32⟩ : BufTy).Contents (Elt F)) (x_v3 A) (x_v5 A) (x_v1 A)
def x_v7 (A : Args F) : (⟨S256x1, .i32⟩ : BufTy).Contents (Elt F) :=
  (broadcastInDim S256x1 ![0] bcast_S256_S256x1_0 : (⟨S256, .i32⟩ : BufTy).Contents (Elt F) → (⟨S256x1, .i32⟩ : BufTy).Contents (Elt F)) (x_v6 A)
def x_v8 (A : Args F) : (⟨S256x64, .f32⟩ : BufTy).Contents (Elt F) :=
  ((fun x i => Host.gather gather_S400000x64_S256x1_S256x64_1_0_n_n_0_1_164 x i) : (⟨S400000x64, .f32⟩ : BufTy).Contents (Elt F) → (⟨S256x1, .i32⟩ : BufTy).Contents (Elt F) → (⟨S256x64, .f32⟩ : BufTy).Contents (Elt F)) (A.arg0) (x_v7 A)
def x_v9 (A : Args F) : (⟨S256x1, .i32⟩ : BufTy).Contents (Elt F) :=
  ((extractStridedSlice S256x1 ![0, 1] · slices_S256x4_S256x1_0_1) : (⟨S256x4, .i32⟩ : BufTy).Contents (Elt F) → (⟨S256x1, .i32⟩ : BufTy).Contents (Elt F)) (A.arg5)
def x_v10 (A : Args F) : (⟨S256, .i32⟩ : BufTy).Contents (Elt F) :=
  shapeCast _ (x_v9 A) shapeCasts_S256x1_S256
def x_c_1 (A : Args F) : (⟨S_, .i32⟩ : BufTy).Contents (Elt F) :=
  (constantI S_ 32 0#32)
def x_v11 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_1 A)
def x_v12 (A : Args F) : (⟨S256, .i1⟩ : BufTy).Contents (Elt F) :=
  (cmpi .slt : (⟨S256, .i32⟩ : BufTy).Contents (Elt F) → (⟨S256, .i32⟩ : BufTy).Contents (Elt F) → (⟨S256, .i1⟩ : BufTy).Contents (Elt F)) (x_v10 A) (x_v11 A)
def x_c_2 (A : Args F) : (⟨S_, .i32⟩ : BufTy).Contents (Elt F) :=
  (constantI S_ 32 500#32)
def x_v13 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_2 A)
def x_v14 (A : Args F) : (⟨S256, .i32⟩ : BufTy).Contents (Elt F) :=
  (addi : (⟨S256, .i32⟩ : BufTy).Contents (Elt F) → (⟨S256, .i32⟩ : BufTy).Contents (Elt F) → (⟨S256, .i32⟩ : BufTy).Contents (Elt F)) (x_v10 A) (x_v13 A)
def x_v15 (A : Args F) : (⟨S256, .i32⟩ : BufTy).Contents (Elt F) :=
  (select : (⟨S256, .i1⟩ : BufTy).Contents (Elt F) → (⟨S256, .i32⟩ : BufTy).Contents (Elt F) → (⟨S256, .i32⟩ : BufTy).Contents (Elt F) → (⟨S256, .i32⟩ : BufTy).Contents (Elt F)) (x_v12 A) (x_v14 A) (x_v10 A)
def x_v16 (A : Args F) : (⟨S256x1, .i32⟩ : BufTy).Contents (Elt F) :=
  (broadcastInDim S256x1 ![0] bcast_S256_S256x1_0 : (⟨S256, .i32⟩ : BufTy).Contents (Elt F) → (⟨S256x1, .i32⟩ : BufTy).Contents (Elt F)) (x_v15 A)
def x_v17 (A : Args F) : (⟨S256x64, .f32⟩ : BufTy).Contents (Elt F) :=
  ((fun x i => Host.gather gather_S500x64_S256x1_S256x64_1_0_n_n_0_1_164 x i) : (⟨S500x64, .f32⟩ : BufTy).Contents (Elt F) → (⟨S256x1, .i32⟩ : BufTy).Contents (Elt F) → (⟨S256x64, .f32⟩ : BufTy).Contents (Elt F)) (A.arg1) (x_v16 A)
def x_v18 (A : Args F) : (⟨S256x1, .i32⟩ : BufTy).Contents (Elt F) :=
  ((extractStridedSlice S256x1 ![0, 3] · slices_S256x4_S256x1_0_3) : (⟨S256x4, .i32⟩ : BufTy).Contents (Elt F) → (⟨S256x1, .i32⟩ : BufTy).Contents (Elt F)) (A.arg5)
def x_v19 (A : Args F) : (⟨S256, .i32⟩ : BufTy).Contents (Elt F) :=
  shapeCast _ (x_v18 A) shapeCasts_S256x1_S256
def x_c_3 (A : Args F) : (⟨S_, .i32⟩ : BufTy).Contents (Elt F) :=
  (constantI S_ 32 0#32)
def x_v20 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_3 A)
def x_v21 (A : Args F) : (⟨S256, .i1⟩ : BufTy).Contents (Elt F) :=
  (cmpi .slt : (⟨S256, .i32⟩ : BufTy).Contents (Elt F) → (⟨S256, .i32⟩ : BufTy).Contents (Elt F) → (⟨S256, .i1⟩ : BufTy).Contents (Elt F)) (x_v19 A) (x_v20 A)
def x_c_4 (A : Args F) : (⟨S_, .i32⟩ : BufTy).Contents (Elt F) :=
  (constantI S_ 32 365#32)
def x_v22 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_4 A)
def x_v23 (A : Args F) : (⟨S256, .i32⟩ : BufTy).Contents (Elt F) :=
  (addi : (⟨S256, .i32⟩ : BufTy).Contents (Elt F) → (⟨S256, .i32⟩ : BufTy).Contents (Elt F) → (⟨S256, .i32⟩ : BufTy).Contents (Elt F)) (x_v19 A) (x_v22 A)
def x_v24 (A : Args F) : (⟨S256, .i32⟩ : BufTy).Contents (Elt F) :=
  (select : (⟨S256, .i1⟩ : BufTy).Contents (Elt F) → (⟨S256, .i32⟩ : BufTy).Contents (Elt F) → (⟨S256, .i32⟩ : BufTy).Contents (Elt F) → (⟨S256, .i32⟩ : BufTy).Contents (Elt F)) (x_v21 A) (x_v23 A) (x_v19 A)
def x_v25 (A : Args F) : (⟨S256x1, .i32⟩ : BufTy).Contents (Elt F) :=
  (broadcastInDim S256x1 ![0] bcast_S256_S256x1_0 : (⟨S256, .i32⟩ : BufTy).Contents (Elt F) → (⟨S256x1, .i32⟩ : BufTy).Contents (Elt F)) (x_v24 A)
def x_v26 (A : Args F) : (⟨S256x64, .f32⟩ : BufTy).Contents (Elt F) :=
  ((fun x i => Host.gather gather_S365x64_S256x1_S256x64_1_0_n_n_0_1_164 x i) : (⟨S365x64, .f32⟩ : BufTy).Contents (Elt F) → (⟨S256x1, .i32⟩ : BufTy).Contents (Elt F) → (⟨S256x64, .f32⟩ : BufTy).Contents (Elt F)) (A.arg2) (x_v25 A)
def x_v27 (A : Args F) : (⟨S256x1, .i32⟩ : BufTy).Contents (Elt F) :=
  ((extractStridedSlice S256x1 ![0, 3] · slices_S256x4_S256x1_0_3) : (⟨S256x4, .i32⟩ : BufTy).Contents (Elt F) → (⟨S256x1, .i32⟩ : BufTy).Contents (Elt F)) (A.arg5)
def x_v28 (A : Args F) : (⟨S256, .i32⟩ : BufTy).Contents (Elt F) :=
  shapeCast _ (x_v27 A) shapeCasts_S256x1_S256
def x_c_5 (A : Args F) : (⟨S_, .i32⟩ : BufTy).Contents (Elt F) :=
  (constantI S_ 32 0#32)
def x_v29 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_5 A)
def x_v30 (A : Args F) : (⟨S256, .i1⟩ : BufTy).Contents (Elt F) :=
  (cmpi .slt : (⟨S256, .i32⟩ : BufTy).Contents (Elt F) → (⟨S256, .i32⟩ : BufTy).Contents (Elt F) → (⟨S256, .i1⟩ : BufTy).Contents (Elt F)) (x_v28 A) (x_v29 A)
def x_c_6 (A : Args F) : (⟨S_, .i32⟩ : BufTy).Contents (Elt F) :=
  (constantI S_ 32 365#32)
def x_v31 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_6 A)
def x_v32 (A : Args F) : (⟨S256, .i32⟩ : BufTy).Contents (Elt F) :=
  (addi : (⟨S256, .i32⟩ : BufTy).Contents (Elt F) → (⟨S256, .i32⟩ : BufTy).Contents (Elt F) → (⟨S256, .i32⟩ : BufTy).Contents (Elt F)) (x_v28 A) (x_v31 A)
def x_v33 (A : Args F) : (⟨S256, .i32⟩ : BufTy).Contents (Elt F) :=
  (select : (⟨S256, .i1⟩ : BufTy).Contents (Elt F) → (⟨S256, .i32⟩ : BufTy).Contents (Elt F) → (⟨S256, .i32⟩ : BufTy).Contents (Elt F) → (⟨S256, .i32⟩ : BufTy).Contents (Elt F)) (x_v30 A) (x_v32 A) (x_v28 A)
def x_v34 (A : Args F) : (⟨S256x1, .i32⟩ : BufTy).Contents (Elt F) :=
  (broadcastInDim S256x1 ![0] bcast_S256_S256x1_0 : (⟨S256, .i32⟩ : BufTy).Contents (Elt F) → (⟨S256x1, .i32⟩ : BufTy).Contents (Elt F)) (x_v33 A)
def x_v35 (A : Args F) : (⟨S256x64, .f32⟩ : BufTy).Contents (Elt F) :=
  ((fun x i => Host.gather gather_S365x64_S256x1_S256x64_1_0_n_n_0_1_164 x i) : (⟨S365x64, .f32⟩ : BufTy).Contents (Elt F) → (⟨S256x1, .i32⟩ : BufTy).Contents (Elt F) → (⟨S256x64, .f32⟩ : BufTy).Contents (Elt F)) (A.arg3) (x_v34 A)
def x_v36 (A : Args F) : (⟨S256x1, .i32⟩ : BufTy).Contents (Elt F) :=
  ((extractStridedSlice S256x1 ![0, 3] · slices_S256x4_S256x1_0_3) : (⟨S256x4, .i32⟩ : BufTy).Contents (Elt F) → (⟨S256x1, .i32⟩ : BufTy).Contents (Elt F)) (A.arg5)
def x_v37 (A : Args F) : (⟨S256, .i32⟩ : BufTy).Contents (Elt F) :=
  shapeCast _ (x_v36 A) shapeCasts_S256x1_S256
def x_c_7 (A : Args F) : (⟨S_, .i32⟩ : BufTy).Contents (Elt F) :=
  (constantI S_ 32 0#32)
def x_v38 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_7 A)
def x_v39 (A : Args F) : (⟨S256, .i1⟩ : BufTy).Contents (Elt F) :=
  (cmpi .slt : (⟨S256, .i32⟩ : BufTy).Contents (Elt F) → (⟨S256, .i32⟩ : BufTy).Contents (Elt F) → (⟨S256, .i1⟩ : BufTy).Contents (Elt F)) (x_v37 A) (x_v38 A)
def x_c_8 (A : Args F) : (⟨S_, .i32⟩ : BufTy).Contents (Elt F) :=
  (constantI S_ 32 365#32)
def x_v40 (A : Args F) : (⟨S256, .i32⟩ : BufTy).Contents (Elt F) :=
  (broadcastInDim S256 ![] bcast_S_S256 : (⟨S_, .i32⟩ : BufTy).Contents (Elt F) → (⟨S256, .i32⟩ : BufTy).Contents (Elt F)) (x_c_8 A)
def x_v41 (A : Args F) : (⟨S256, .i32⟩ : BufTy).Contents (Elt F) :=
  (addi : (⟨S256, .i32⟩ : BufTy).Contents (Elt F) → (⟨S256, .i32⟩ : BufTy).Contents (Elt F) → (⟨S256, .i32⟩ : BufTy).Contents (Elt F)) (x_v37 A) (x_v40 A)
def x_v42 (A : Args F) : (⟨S256, .i32⟩ : BufTy).Contents (Elt F) :=
  (select : (⟨S256, .i1⟩ : BufTy).Contents (Elt F) → (⟨S256, .i32⟩ : BufTy).Contents (Elt F) → (⟨S256, .i32⟩ : BufTy).Contents (Elt F) → (⟨S256, .i32⟩ : BufTy).Contents (Elt F)) (x_v39 A) (x_v41 A) (x_v37 A)
def x_v43 (A : Args F) : (⟨S256x1, .i32⟩ : BufTy).Contents (Elt F) :=
  (broadcastInDim S256x1 ![0] bcast_S256_S256x1_0 : (⟨S256, .i32⟩ : BufTy).Contents (Elt F) → (⟨S256x1, .i32⟩ : BufTy).Contents (Elt F)) (x_v42 A)
def x_v44 (A : Args F) : (⟨S256x64, .f32⟩ : BufTy).Contents (Elt F) :=
  ((fun x i => Host.gather gather_S365x64_S256x1_S256x64_1_0_n_n_0_1_164 x i) : (⟨S365x64, .f32⟩ : BufTy).Contents (Elt F) → (⟨S256x1, .i32⟩ : BufTy).Contents (Elt F) → (⟨S256x64, .f32⟩ : BufTy).Contents (Elt F)) (A.arg4) (x_v43 A)
def x_v45 (A : Args F) : (⟨S256x32, .f32⟩ : BufTy).Contents (Elt F) :=
  ((extractStridedSlice S256x32 ![0, 0] · slices_S256x64_S256x32_0_0) : (⟨S256x64, .f32⟩ : BufTy).Contents (Elt F) → (⟨S256x32, .f32⟩ : BufTy).Contents (Elt F)) (x_v17 A)
def x_v46 (A : Args F) : (⟨S256x32, .f32⟩ : BufTy).Contents (Elt F) :=
  ((extractStridedSlice S256x32 ![0, 32] · slices_S256x64_S256x32_0_32) : (⟨S256x64, .f32⟩ : BufTy).Contents (Elt F) → (⟨S256x32, .f32⟩ : BufTy).Contents (Elt F)) (x_v17 A)
def x_v47 (A : Args F) : (⟨S256x32, .f32⟩ : BufTy).Contents (Elt F) :=
  ((extractStridedSlice S256x32 ![0, 0] · slices_S256x64_S256x32_0_0) : (⟨S256x64, .f32⟩ : BufTy).Contents (Elt F) → (⟨S256x32, .f32⟩ : BufTy).Contents (Elt F)) (x_v44 A)
def x_v48 (A : Args F) : (⟨S256x32, .f32⟩ : BufTy).Contents (Elt F) :=
  ((extractStridedSlice S256x32 ![0, 32] · slices_S256x64_S256x32_0_32) : (⟨S256x64, .f32⟩ : BufTy).Contents (Elt F) → (⟨S256x32, .f32⟩ : BufTy).Contents (Elt F)) (x_v44 A)
def x_v49 (A : Args F) : (⟨S256x32, .f32⟩ : BufTy).Contents (Elt F) :=
  (mulf : (⟨S256x32, .f32⟩ : BufTy).Contents (Elt F) → (⟨S256x32, .f32⟩ : BufTy).Contents (Elt F) → (⟨S256x32, .f32⟩ : BufTy).Contents (Elt F)) (x_v45 A) (x_v47 A)
def x_v50 (A : Args F) : (⟨S256x32, .f32⟩ : BufTy).Contents (Elt F) :=
  (mulf : (⟨S256x32, .f32⟩ : BufTy).Contents (Elt F) → (⟨S256x32, .f32⟩ : BufTy).Contents (Elt F) → (⟨S256x32, .f32⟩ : BufTy).Contents (Elt F)) (x_v46 A) (x_v48 A)
def x_v51 (A : Args F) : (⟨S256x32, .f32⟩ : BufTy).Contents (Elt F) :=
  (addf : (⟨S256x32, .f32⟩ : BufTy).Contents (Elt F) → (⟨S256x32, .f32⟩ : BufTy).Contents (Elt F) → (⟨S256x32, .f32⟩ : BufTy).Contents (Elt F)) (x_v49 A) (x_v50 A)
def x_v52 (A : Args F) : (⟨S256x32, .f32⟩ : BufTy).Contents (Elt F) :=
  (mulf : (⟨S256x32, .f32⟩ : BufTy).Contents (Elt F) → (⟨S256x32, .f32⟩ : BufTy).Contents (Elt F) → (⟨S256x32, .f32⟩ : BufTy).Contents (Elt F)) (x_v45 A) (x_v48 A)
def x_v53 (A : Args F) : (⟨S256x32, .f32⟩ : BufTy).Contents (Elt F) :=
  (mulf : (⟨S256x32, .f32⟩ : BufTy).Contents (Elt F) → (⟨S256x32, .f32⟩ : BufTy).Contents (Elt F) → (⟨S256x32, .f32⟩ : BufTy).Contents (Elt F)) (x_v46 A) (x_v47 A)
def x_v54 (A : Args F) : (⟨S256x32, .f32⟩ : BufTy).Contents (Elt F) :=
  (subf : (⟨S256x32, .f32⟩ : BufTy).Contents (Elt F) → (⟨S256x32, .f32⟩ : BufTy).Contents (Elt F) → (⟨S256x32, .f32⟩ : BufTy).Contents (Elt F)) (x_v52 A) (x_v53 A)
def x_v55 (A : Args F) : (⟨S256x64, .f32⟩ : BufTy).Contents (Elt F) :=
  ((fun a b => concatenate S256x64 1 [⟨S256x32, a⟩, ⟨S256x32, b⟩] concatenates_S256x32_S256x32_S256x64_d1) : (⟨S256x32, .f32⟩ : BufTy).Contents (Elt F) → (⟨S256x32, .f32⟩ : BufTy).Contents (Elt F) → (⟨S256x64, .f32⟩ : BufTy).Contents (Elt F)) (x_v51 A) (x_v54 A)
def x_v56 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v17 A) (x_v55 A)
def x_cst (A : Args F) : (⟨S_, .f32⟩ : BufTy).Contents (Elt F) :=
  (constant S_ .f32 0x00000000#32)
def x_v57 (A : Args F) : (⟨S256x64, .f32⟩ : BufTy).Contents (Elt F) :=
  (broadcastInDim S256x64 ![] bcast_S_S256x64 : (⟨S_, .f32⟩ : BufTy).Contents (Elt F) → (⟨S256x64, .f32⟩ : BufTy).Contents (Elt F)) (x_cst A)
def x_v58 (A : Args F) : (⟨S256x256, .f32⟩ : BufTy).Contents (Elt F) :=
  concatenate S256x256 1 [⟨S256x64, x_v8 A⟩, ⟨S256x64, x_v8 A⟩, ⟨S256x64, x_v26 A⟩, ⟨S256x64, x_v26 A⟩] concatenates_S256x64_S256x64_S256x64_S256x64_S256x256_d1
def x_v59 (A : Args F) : (⟨S256x256, .f32⟩ : BufTy).Contents (Elt F) :=
  concatenate S256x256 1 [⟨S256x64, x_v56 A⟩, ⟨S256x64, x_v56 A⟩, ⟨S256x64, x_v35 A⟩, ⟨S256x64, x_v35 A⟩] concatenates_S256x64_S256x64_S256x64_S256x64_S256x256_d1
def x_v60 (A : Args F) : (⟨S256x64, .f32⟩ : BufTy).Contents (Elt F) :=
  ((extractStridedSlice S256x64 ![0, 0] · slices_S256x256_S256x64_0_0) : (⟨S256x256, .f32⟩ : BufTy).Contents (Elt F) → (⟨S256x64, .f32⟩ : BufTy).Contents (Elt F)) (x_v58 A)
def x_v61 (A : Args F) : (⟨S256x64, .f32⟩ : BufTy).Contents (Elt F) :=
  ((extractStridedSlice S256x64 ![0, 64] · slices_S256x256_S256x64_0_64) : (⟨S256x256, .f32⟩ : BufTy).Contents (Elt F) → (⟨S256x64, .f32⟩ : BufTy).Contents (Elt F)) (x_v58 A)
def x_v62 (A : Args F) : (⟨S256x64, .f32⟩ : BufTy).Contents (Elt F) :=
  ((extractStridedSlice S256x64 ![0, 128] · slices_S256x256_S256x64_0_128) : (⟨S256x256, .f32⟩ : BufTy).Contents (Elt F) → (⟨S256x64, .f32⟩ : BufTy).Contents (Elt F)) (x_v58 A)
def x_v63 (A : Args F) : (⟨S256x64, .f32⟩ : BufTy).Contents (Elt F) :=
  ((extractStridedSlice S256x64 ![0, 192] · slices_S256x256_S256x64_0_192) : (⟨S256x256, .f32⟩ : BufTy).Contents (Elt F) → (⟨S256x64, .f32⟩ : BufTy).Contents (Elt F)) (x_v58 A)
def x_v64 (A : Args F) : (⟨S256x64, .f32⟩ : BufTy).Contents (Elt F) :=
  ((extractStridedSlice S256x64 ![0, 0] · slices_S256x256_S256x64_0_0) : (⟨S256x256, .f32⟩ : BufTy).Contents (Elt F) → (⟨S256x64, .f32⟩ : BufTy).Contents (Elt F)) (x_v59 A)
def x_v65 (A : Args F) : (⟨S256x64, .f32⟩ : BufTy).Contents (Elt F) :=
  ((extractStridedSlice S256x64 ![0, 64] · slices_S256x256_S256x64_0_64) : (⟨S256x256, .f32⟩ : BufTy).Contents (Elt F) → (⟨S256x64, .f32⟩ : BufTy).Contents (Elt F)) (x_v59 A)
def x_v66 (A : Args F) : (⟨S256x64, .f32⟩ : BufTy).Contents (Elt F) :=
  ((extractStridedSlice S256x64 ![0, 128] · slices_S256x256_S256x64_0_128) : (⟨S256x256, .f32⟩ : BufTy).Contents (Elt F) → (⟨S256x64, .f32⟩ : BufTy).Contents (Elt F)) (x_v59 A)
def x_v67 (A : Args F) : (⟨S256x64, .f32⟩ : BufTy).Contents (Elt F) :=
  ((extractStridedSlice S256x64 ![0, 192] · slices_S256x256_S256x64_0_192) : (⟨S256x256, .f32⟩ : BufTy).Contents (Elt F) → (⟨S256x64, .f32⟩ : BufTy).Contents (Elt F)) (x_v59 A)
def x_v68 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v60 A) (x_v64 A)
def x_v69 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v61 A) (x_v65 A)
def x_v70 (A : Args F) : (⟨S256x64, .f32⟩ : BufTy).Contents (Elt F) :=
  (subf : (⟨S256x64, .f32⟩ : BufTy).Contents (Elt F) → (⟨S256x64, .f32⟩ : BufTy).Contents (Elt F) → (⟨S256x64, .f32⟩ : BufTy).Contents (Elt F)) (x_v68 A) (x_v69 A)
def x_v71 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v62 A) (x_v66 A)
def x_v72 (A : Args F) : (⟨S256x64, .f32⟩ : BufTy).Contents (Elt F) :=
  (subf : (⟨S256x64, .f32⟩ : BufTy).Contents (Elt F) → (⟨S256x64, .f32⟩ : BufTy).Contents (Elt F) → (⟨S256x64, .f32⟩ : BufTy).Contents (Elt F)) (x_v70 A) (x_v71 A)
def x_v73 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v63 A) (x_v67 A)
def x_v74 (A : Args F) : (⟨S256x64, .f32⟩ : BufTy).Contents (Elt F) :=
  (subf : (⟨S256x64, .f32⟩ : BufTy).Contents (Elt F) → (⟨S256x64, .f32⟩ : BufTy).Contents (Elt F) → (⟨S256x64, .f32⟩ : BufTy).Contents (Elt F)) (x_v72 A) (x_v73 A)
def x_v75 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v61 A) (x_v64 A)
def x_v76 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v60 A) (x_v65 A)
def x_v77 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v75 A) (x_v76 A)
def x_v78 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v62 A) (x_v67 A)
def x_v79 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v77 A) (x_v78 A)
def x_v80 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v63 A) (x_v66 A)
def x_v81 (A : Args F) : (⟨S256x64, .f32⟩ : BufTy).Contents (Elt F) :=
  (subf : (⟨S256x64, .f32⟩ : BufTy).Contents (Elt F) → (⟨S256x64, .f32⟩ : BufTy).Contents (Elt F) → (⟨S256x64, .f32⟩ : BufTy).Contents (Elt F)) (x_v79 A) (x_v80 A)
def x_v82 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v62 A) (x_v64 A)
def x_v83 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v60 A) (x_v66 A)
def x_v84 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v82 A) (x_v83 A)
def x_v85 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v63 A) (x_v65 A)
def x_v86 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v84 A) (x_v85 A)
def x_v87 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v61 A) (x_v67 A)
def x_v88 (A : Args F) : (⟨S256x64, .f32⟩ : BufTy).Contents (Elt F) :=
  (subf : (⟨S256x64, .f32⟩ : BufTy).Contents (Elt F) → (⟨S256x64, .f32⟩ : BufTy).Contents (Elt F) → (⟨S256x64, .f32⟩ : BufTy).Contents (Elt F)) (x_v86 A) (x_v87 A)
def x_v89 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v63 A) (x_v64 A)
def x_v90 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v60 A) (x_v67 A)
def x_v91 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v89 A) (x_v90 A)
def x_v92 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v61 A) (x_v66 A)
def x_v93 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v91 A) (x_v92 A)
def x_v94 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v62 A) (x_v65 A)
def x_v95 (A : Args F) : (⟨S256x64, .f32⟩ : BufTy).Contents (Elt F) :=
  (subf : (⟨S256x64, .f32⟩ : BufTy).Contents (Elt F) → (⟨S256x64, .f32⟩ : BufTy).Contents (Elt F) → (⟨S256x64, .f32⟩ : BufTy).Contents (Elt F)) (x_v93 A) (x_v94 A)
def x_v96 (A : Args F) : (⟨S256x256, .f32⟩ : BufTy).Contents (Elt F) :=
  concatenate S256x256 1 [⟨S256x64, x_v74 A⟩, ⟨S256x64, x_v81 A⟩, ⟨S256x64, x_v88 A⟩, ⟨S256x64, x_v95 A⟩] concatenates_S256x64_S256x64_S256x64_S256x64_S256x256_d1
def x_v97 (A : Args F) : (⟨S256x64, .f32⟩ : BufTy).Contents (Elt F) :=
  ((extractStridedSlice S256x64 ![0, 0] · slices_S256x256_S256x64_0_0) : (⟨S256x256, .f32⟩ : BufTy).Contents (Elt F) → (⟨S256x64, .f32⟩ : BufTy).Contents (Elt F)) (x_v96 A)
def x_v98 (A : Args F) : (⟨S256x64, .f32⟩ : BufTy).Contents (Elt F) :=
  ((extractStridedSlice S256x64 ![0, 64] · slices_S256x256_S256x64_0_64) : (⟨S256x256, .f32⟩ : BufTy).Contents (Elt F) → (⟨S256x64, .f32⟩ : BufTy).Contents (Elt F)) (x_v96 A)
def x_v99 (A : Args F) : (⟨S256x64, .f32⟩ : BufTy).Contents (Elt F) :=
  ((extractStridedSlice S256x64 ![0, 128] · slices_S256x256_S256x64_0_128) : (⟨S256x256, .f32⟩ : BufTy).Contents (Elt F) → (⟨S256x64, .f32⟩ : BufTy).Contents (Elt F)) (x_v96 A)
def x_v100 (A : Args F) : (⟨S256x64, .f32⟩ : BufTy).Contents (Elt F) :=
  ((extractStridedSlice S256x64 ![0, 192] · slices_S256x256_S256x64_0_192) : (⟨S256x256, .f32⟩ : BufTy).Contents (Elt F) → (⟨S256x64, .f32⟩ : BufTy).Contents (Elt F)) (x_v96 A)
def x_v101 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v99 A) (x_v57 A)
def x_cst_9 (A : Args F) : (⟨S_, .f32⟩ : BufTy).Contents (Elt F) :=
  (constant S_ .f32 0x00000000#32)
def x_v102 (A : Args F) : (⟨S256, .f32⟩ : BufTy).Contents (Elt F) :=
  ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)) (x_v101 A) (x_cst_9 A)
def x_v103 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v100 A) (x_v26 A)
def x_cst_10 (A : Args F) : (⟨S_, .f32⟩ : BufTy).Contents (Elt F) :=
  (constant S_ .f32 0x00000000#32)
def x_v104 (A : Args F) : (⟨S256, .f32⟩ : BufTy).Contents (Elt F) :=
  ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)) (x_v103 A) (x_cst_10 A)
def x_v105 (A : Args F) : (⟨S256, .f32⟩ : BufTy).Contents (Elt F) :=
  (addf : (⟨S256, .f32⟩ : BufTy).Contents (Elt F) → (⟨S256, .f32⟩ : BufTy).Contents (Elt F) → (⟨S256, .f32⟩ : BufTy).Contents (Elt F)) (x_v102 A) (x_v104 A)
def x_v106 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v100 A) (x_v57 A)
def x_cst_11 (A : Args F) : (⟨S_, .f32⟩ : BufTy).Contents (Elt F) :=
  (constant S_ .f32 0x00000000#32)
def x_v107 (A : Args F) : (⟨S256, .f32⟩ : BufTy).Contents (Elt F) :=
  ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)) (x_v106 A) (x_cst_11 A)
def x_v108 (A : Args F) : (⟨S256, .f32⟩ : BufTy).Contents (Elt F) :=
  (addf : (⟨S256, .f32⟩ : BufTy).Contents (Elt F) → (⟨S256, .f32⟩ : BufTy).Contents (Elt F) → (⟨S256, .f32⟩ : BufTy).Contents (Elt F)) (x_v105 A) (x_v107 A)
def x_v109 (A : Args F) : (⟨S256x64, .f32⟩ : BufTy).Contents (Elt F) :=
  (mulf : (⟨S256x64, .f32⟩ : BufTy).Contents (Elt F) → (⟨S256x64, .f32⟩ : BufTy).Contents (Elt F) → (⟨S256x64, .f32⟩ : BufTy).Contents (Elt F)) (x_v99 A) (x_v26 A)
def x_cst_12 (A : Args F) : (⟨S_, .f32⟩ : BufTy).Contents (Elt F) :=
  (constant S_ .f32 0x00000000#32)
def x_v110 (A : Args F) : (⟨S256, .f32⟩ : BufTy).Contents (Elt F) :=
  ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)) (x_v109 A) (x_cst_12 A)
def x_v111 (A : Args F) : (⟨S256, .f32⟩ : BufTy).Contents (Elt F) :=
  (addf : (⟨S256, .f32⟩ : BufTy).Contents (Elt F) → (⟨S256, .f32⟩ : BufTy).Contents (Elt F) → (⟨S256, .f32⟩ : BufTy).Contents (Elt F)) (x_v108 A) (x_v110 A)
def x_v112 (A : Args F) : (⟨S256x64, .f32⟩ : BufTy).Contents (Elt F) :=
  (addf : (⟨S256x64, .f32⟩ : BufTy).Contents (Elt F) → (⟨S256x64, .f32⟩ : BufTy).Contents (Elt F) → (⟨S256x64, .f32⟩ : BufTy).Contents (Elt F)) (x_v97 A) (x_v98 A)
def x_v113 (A : Args F) : (⟨S256x64, .bf16⟩ : BufTy).Contents (Elt F) :=
  ((truncf .bf16 · bitsLt_bf16_f32) : (⟨S256x64, .f32⟩ : BufTy).Contents (Elt F) → (⟨S256x64, .bf16⟩ : BufTy).Contents (Elt F)) (x_v112 A)
def x_v114 (A : Args F) : (⟨S256x1, .f32⟩ : BufTy).Contents (Elt F) :=
  shapeCast _ (x_v111 A) shapeCasts_S256_S256x1

end Cert.KernelIdeal.Prefix

end
-- ==== Proof.ScoreFn.lean ====
/-
  The scoring function both programs compute, and the one re-indexing its two products share.

  For a left factor X : [256, 64], the entity table E : [400000, 64] and a bias b : [256], the score of row p
  against entity n is Σ_k X[p, k] · E[n, k] + b[p]: the product of X with the transpose of E, plus the row's bias
  in every column. Only associativity-free facts are used anywhere: both programs form the SAME 64-term sum in the
  same order, so nothing here asks the entries to be finite.
-/
import Idealize.ShloMosaic.PureOps.Ideal.Laws
import Idealize.ShloMosaic.Lib.ValueIdx

noncomputable section

namespace Cert.ScoreFn

open Idealize.ShloMosaic Idealize.ShloMosaic.ValueIdx

abbrev SX : Shape := ⟨2, ![256, 64]⟩
abbrev SE : Shape := ⟨2, ![400000, 64]⟩
abbrev SB : Shape := ⟨1, ![256]⟩
abbrev SO : Shape := ⟨2, ![256, 400000]⟩

/-- The score of row `p` against entity `n`. -/
def scoreAt (X : SX.Idx → EReal) (E : SE.Idx → EReal) (b : SB.Idx → EReal) (p : Fin 256) (n : Fin 400000) : EReal :=
  (∑ k : Fin 64, X (ix2 p k) * E (ix2 n k)) + b (ix1 p)

/-- All scores, as one [256, 400000] array. -/
def scoreFn (X : SX.Idx → EReal) (E : SE.Idx → EReal) (b : SB.Idx → EReal) : SO.Idx → EReal :=
  fun i => scoreAt X E b (i 0) (i 1)

theorem scoreFn_ix2 (X : SX.Idx → EReal) (E : SE.Idx → EReal) (b : SB.Idx → EReal) (p : Fin 256) (n : Fin 400000) :
    scoreFn X E b (ix2 p n) = scoreAt X E b p n := rfl

/-- A sum over the index set of a one-axis contraction of extent `K` is the sum over `Fin K` of the summand at the
    index whose one coordinate is `a`. -/
theorem sum_contr1 {sl sr so : Shape} (d : DotDims sl sr so) (K : Nat) (hr : d.contr.rank = 1)
    (hs : d.contr.size ⟨0, by omega⟩ = K) (f : d.contr.Idx → EReal) :
    ∑ q, f q = ∑ a : Fin K, f ((contrEquiv1 d K hr hs).symm a) :=
  (Equiv.sum_comp (contrEquiv1 d K hr hs).symm f).symm

end Cert.ScoreFn

end
-- ==== Proof.KernelScore.lean ====
/-
  What the scoring program's launch leaves in its result array, at the ideal instance.

  One tile's step stores, at row p and column q of the tile, Σ_k left[p, k] · rows[q, k] + bias[p, 0]: the product
  contracts the 64 features of the left factor's row p against those of the tile's entity row q (`tile_apply`).
  Tile t reads entity rows 3200 t … 3200 t + 3199 and writes columns 3200 t … 3200 t + 3199 of the result; the left
  factor and the bias column are the same whole arrays at every tile. So what tile t writes back is block t of the one
  array `scoreFn left E bias` (`flushed_eq`), the 125 tiles' blocks cover all 400000 columns (`cover`), and the
  result array ends as `scoreFn` of the launch-time left factor, entity table and bias (`final`).

  The left factor and the bias are then named by the host operations that made them (`V_left`, `V_bias`): the
  rounding of a + b to the narrower float format is the identity on extended reals, and the [256] → [256, 1] reshape
  reads entry p at (p, 0).
-/
import proofs.«136334_j55559696941650_2_alg».proof.Proof.AroundKernelIdeal
import proofs.«136334_j55559696941650_2_alg».proof.Proof.Prefix
import proofs.«136334_j55559696941650_2_alg».proof.Proof.ScoreFn
import Idealize.ShloMosaic.Lib.Pipeline.Value
import Idealize.ShloMosaic.Lib.StableHlo.Run

set_option maxRecDepth 16384

noncomputable section

namespace Cert.KernelIdeal.Score

open Cert.KernelIdeal Cert.KernelIdeal.Gen Cert.KernelIdeal.Around Cert.KernelIdeal.Prefix Cert.ScoreFn
open Idealize.ShloMosaic Idealize.ShloMosaic.TcCoe Idealize.ShloMosaic.ValueIdx Idealize.SL.Sem
open Idealize.ShloMosaic.Pipeline (Dat)

/-! ## One tile -/

/-- The product-plus-bias of one tile at row `p`, column `q`. -/
theorem tile_apply (x0 : S256x64.Idx → EReal) (x1 : S3200x64.Idx → EReal) (x2 : S256x1.Idx → EReal) (p : Fin 256) (q : Fin 3200) :
    k0_pay1 (F := Ideal) x0 x1 x2 (ix2 p q) = (∑ k : Fin 64, x0 (ix2 p k) * x1 (ix2 q k)) + x2 (ix2 p 0) := by
  show (matmul (F := Ideal) dot_S256x64_S3200x64_S256x3200_1_1_0_0_n_n none (shapeCast S256x64 x0 shapeCasts_S256x64_S256x64) (truncf (F := Ideal) .bf16 x1 bitsLt_bf16_f32) (constant (F := Ideal) S256x3200 .f32 0x00000000#32) (ix2 p q) : EReal)
      + (broadcastTo S256x3200 (shapeCast S256x1 x2 shapeCasts_S256x1_S256x1) broadcasts_S256x1_S256x3200 (ix2 p q) : EReal) = _
  refine congrArg₂ (· + ·) ?_ ?_
  · show FloatOps.matmul (F := Ideal) dot_S256x64_S3200x64_S256x3200_1_1_0_0_n_n none (shapeCast S256x64 x0 shapeCasts_S256x64_S256x64) (truncf (F := Ideal) .bf16 x1 bitsLt_bf16_f32) (constant (F := Ideal) S256x3200 .f32 0x00000000#32) (ix2 p q) = _
    refine (Ideal.matmul_constant_zero_apply dot_S256x64_S3200x64_S256x3200_1_1_0_0_n_n none (shapeCast S256x64 x0 shapeCasts_S256x64_S256x64) (truncf (F := Ideal) .bf16 x1 bitsLt_bf16_f32) (ix2 p q)).trans ?_
    rw [sum_contr1 dot_S256x64_S3200x64_S256x3200_1_1_0_0_n_n 64 rfl rfl]
    refine Finset.sum_congr rfl fun a _ => ?_
    have hk := contrEquiv1_symm_val dot_S256x64_S3200x64_S256x3200_1_1_0_0_n_n 64 rfl rfl a
    have el : dot_S256x64_S3200x64_S256x3200_1_1_0_0_n_n.lhsIdx (ix2 p q) ((contrEquiv1 dot_S256x64_S3200x64_S256x3200_1_1_0_0_n_n 64 rfl rfl).symm a) = ix2 p a := funext fun x => Fin.ext (by
      match x with
      | ⟨0, _⟩ => rfl
      | ⟨1, _⟩ => exact (DotDims.lhsIdx_val_of_single _ rfl _ _).trans hk)
    have er : dot_S256x64_S3200x64_S256x3200_1_1_0_0_n_n.rhsIdx (ix2 p q) ((contrEquiv1 dot_S256x64_S3200x64_S256x3200_1_1_0_0_n_n 64 rfl rfl).symm a) = ix2 q a := funext fun x => Fin.ext (by
      match x with
      | ⟨0, _⟩ => rfl
      | ⟨1, _⟩ => exact (DotDims.rhsIdx_val_of_single _ rfl _ _).trans hk)
    rw [el, er, shapeCast_self]
    rfl
  · refine (broadcastTo_apply _ _ _ (ix2 p 0) (fun a => by match a with | ⟨0, _⟩ => rfl | ⟨1, _⟩ => rfl)).trans ?_
    rw [shapeCast_self]

variable (m : (ℓ : Loc nD τ sig) → Buf (Elt Ideal) ℓ) (ρ : Dev nD → PrngReg)

/-! ## Which rows and columns a tile touches -/

theorem hz : (![0, 0] : Fin 2 → Nat) = fun _ => 0 := funext fun a => by fin_cases a <;> rfl

/-- The left factor and the bias column are read whole at every tile; tile `t` reads block `t` of the entity rows and
    writes block `t` of the result's columns. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

theorem lt_N (t : Fin cfg0.N) : t.val < 125 := lt_of_lt_of_eq t.isLt N_0

/-- The launch-time bias column read as a vector: entry `p` is the column's (p, 0). -/
def biasVec (c : Dev nD) : SB.Idx → EReal := fun i => V m c main_v114 (ix2 (i 0) 0)

/-- What tile `t` writes back is block `t` of the scores of the launch-time left factor, entity table and bias. -/
theorem flushed_eq (c : Dev nD) (t : Fin cfg0.N) :
    (dats m 0 c).flushed 3 t = ((cfg0.win 3).blk t).view.read (Elt Ideal)
      (scoreFn (V m c main_v113) (V m c main_arg0) (biasVec m c)) := by
  show (cfg0.win 3).cut (grid0.coords t) ((dats m 0 c).after 3 t) = _
  rw [after_3]
  unfold outBlock
  rw [View.canon_unit_zero hz]
  simp only [View.ld_unit_zero (S := S256x64) hz, View.ld_unit_zero (S := S3200x64) hz, View.ld_unit_zero (S := S256x1) hz]
  obtain ⟨e0, e1, e2, e3, e4, e5, e6, e7⟩ := idx_facts t
  have ht := lt_N t
  funext j
  obtain ⟨p, q, rfl⟩ : ∃ (p : Fin 256) (q : Fin 3200), j = ix2 p q := ⟨j 0, j 1, eq_ix2 j⟩
  show k0_pay1 (F := Ideal) (iblk m c 0 t) (iblk m c 1 t) (iblk m c 2 t) (ix2 p q)
    = scoreFn (V m c main_v113) (V m c main_arg0) (biasVec m c) (((cfg0.win 3).blk t).view.emb (ix2 p q))
  refine (tile_apply (iblk m c 0 t) (iblk m c 1 t) (iblk m c 2 t) p q).trans ?_
  have hq : q.val < 3200 := q.isLt
  have hp : p.val < 256 := p.isLt
  have hn : t.val * 3200 + q.val < 400000 := by omega
  have h3 : ((cfg0.win 3).blk t).view.emb (ix2 p q) = ix2 p (⟨t.val * 3200 + q.val, hn⟩ : Fin 400000) := by
    funext a; apply Fin.ext
    match a with
    | ⟨0, _⟩ => show win0_3.index t (0 : Fin 2) * 256 + 1 * p.val = p.val; omega
    | ⟨1, _⟩ => show win0_3.index t (1 : Fin 2) * 3200 + 1 * q.val = t.val * 3200 + q.val; omega
  have r0 : ∀ k : Fin 64, iblk m c 0 t (ix2 p k) = V m c main_v113 (ix2 p k) := fun k => by
    show V m c main_v113 (((cfg0.win 0).blk t).view.emb (ix2 p k)) = _
    refine congrArg _ (funext fun a => Fin.ext ?_)
    have hk : k.val < 64 := k.isLt
    match a with
    | ⟨0, _⟩ => show win0_0.index t (0 : Fin 2) * 256 + 1 * p.val = p.val; omega
    | ⟨1, _⟩ => show win0_0.index t (1 : Fin 2) * 64 + 1 * k.val = k.val; omega
  have r1 : ∀ k : Fin 64, iblk m c 1 t (ix2 q k) = V m c main_arg0 (ix2 (⟨t.val * 3200 + q.val, hn⟩ : Fin 400000) k) := fun k => by
    show V m c main_arg0 (((cfg0.win 1).blk t).view.emb (ix2 q k)) = _
    refine congrArg _ (funext fun a => Fin.ext ?_)
    match a with
    | ⟨0, _⟩ => show win0_1.index t (0 : Fin 2) * 3200 + 1 * q.val = t.val * 3200 + q.val; omega
    | ⟨1, _⟩ => show win0_1.index t (1 : Fin 2) * 64 + 1 * k.val = k.val; omega
  have r2 : iblk m c 2 t (ix2 p 0) = V m c main_v114 (ix2 p 0) := by
    show V m c main_v114 (((cfg0.win 2).blk t).view.emb (ix2 p 0)) = _
    refine congrArg _ (funext fun a => Fin.ext ?_)
    match a with
    | ⟨0, _⟩ => show win0_2.index t (0 : Fin 2) * 256 + 1 * p.val = p.val; omega
    | ⟨1, _⟩ => show win0_2.index t (1 : Fin 2) * 1 + 1 * 0 = 0; omega
  rw [h3, scoreFn_ix2]
  unfold scoreAt
  refine congrArg₂ (· + ·) (Finset.sum_congr rfl fun k _ => ?_) r2
  exact congrArg₂ (· * ·) (r0 k) (r1 k)

/-- An index of the result lies in tile `t`'s block iff each coordinate lies in the block's range. -/
theorem mem_blk (t : Fin cfg0.N) (i : S256x400000.Idx) :
    i ∈ ((cfg0.win 3).blk t).view.set ↔ ∀ a : Fin 2, win0_3.index t a * S256x3200.size a ≤ (i a).val ∧ (i a).val < win0_3.index t a * S256x3200.size a + S256x3200.size a := by
  show i ∈ ((View.whole main_v115).slice (win0_3.rect t)).set ↔ _
  rw [View.set_slice_whole, Rect.mem_set_unit]
  exact Iff.rfl

/-- Column n lies in tile n / 3200: the tiles' blocks cover the result. -/
theorem cover (i : S256x400000.Idx) : ∃ t : Fin cfg0.N, (cfg0.win 3).flush t = true ∧ i ∈ ((cfg0.win 3).blk t).view.set := by
  have hi0 : (i 0).val < 256 := (i 0).isLt
  have hi1 : (i 1).val < 400000 := (i 1).isLt
  have hlt : (i 1).val / 3200 < cfg0.N := by rw [show cfg0.N = 125 from N_0]; omega
  obtain ⟨e0, e1, e2, e3, e4, e5, e6, e7⟩ := idx_facts ⟨(i 1).val / 3200, hlt⟩
  refine ⟨⟨(i 1).val / 3200, hlt⟩, flush0_3 _, ?_⟩
  rw [mem_blk]
  intro a
  match a with
  | ⟨0, _⟩ =>
    show win0_3.index ⟨(i 1).val / 3200, hlt⟩ (0 : Fin 2) * 256 ≤ (i 0).val ∧ (i 0).val < win0_3.index ⟨(i 1).val / 3200, hlt⟩ (0 : Fin 2) * 256 + 256
    omega
  | ⟨1, _⟩ =>
    show win0_3.index ⟨(i 1).val / 3200, hlt⟩ (1 : Fin 2) * 3200 ≤ (i 1).val ∧ (i 1).val < win0_3.index ⟨(i 1).val / 3200, hlt⟩ (1 : Fin 2) * 3200 + 3200
    have e7' : win0_3.index ⟨(i 1).val / 3200, hlt⟩ (1 : Fin 2) = (i 1).val / 3200 := e7
    omega

/-- The result array after the launch: the scores of the launch-time left factor, entity table and bias. -/
theorem final (c : Dev nD) :
    (dats m 0 c).arrAt 3 cfg0.N = scoreFn (V m c main_v113) (V m c main_arg0) (biasVec m c) :=
  (dats m 0 c).arrAt_eq_of_cover 3 _ (fun t _ => flushed_eq m c t) cover

end Cert.KernelIdeal.Score

end
-- ==== Proof.LibSsaLocal.lean ====
/-
  Straight lines of host operations that write every buffer once.

  A line of operations is run by folding each operation's result over a valuation of the buffers (`after`). When no
  later operation writes a buffer again, what the buffer holds at the end is what its own operation left there, and
  what an operand holds at the end is what it held when the operation read it. So at the end of such a line every
  buffer holds its operation's function of what the operands hold at the end — an equation per operation, each
  mentioning only that operation, however long the line and however often a value is used.

  `not_written` turns "no operation from position K on writes r" into a decidable statement about the list of the
  references the operations write, in order (each operation of Lib/StableHlo.lean writes exactly one).
-/
import Idealize.ShloMosaic.Lib.StableHlo.Run

noncomputable section

namespace Cert.LibSsaLocal

open Idealize.ShloMosaic Idealize.ShloMosaic.TcCoe Idealize.SL.Sem Idealize.ShloMosaic.StableHlo

variable {sig : RefSig} {τ : Topo} {Val : EltTy → Type}

/-- Running two lines one after the other. -/
theorem after_append (l₁ l₂ : List (HloOp τ sig Val)) (F : Valuation τ sig Val) :
    after (l₁ ++ l₂) F = after l₂ (after l₁ F) := by
  induction l₁ generalizing F with
  | nil => rfl
  | cons op l ih => rw [List.cons_append, after_cons, after_cons, ih]

/-- A line cut at any position. -/
theorem after_take_drop (ops : List (HloOp τ sig Val)) (K : Nat) (F : Valuation τ sig Val) :
    after ops F = after (ops.drop K) (after (ops.take K) F) := by
  rw [← after_append, List.take_append_drop]

/-- A buffer no operation writes from position `K` on ends at what it held after the first `K` operations. -/
theorem after_eq_take (ops : List (HloOp τ sig Val)) (K : Nat) (F : Valuation τ sig Val) (b : DevRef τ sig)
    (h : ∀ o ∈ ops.drop K, b ∉ o.writes) : after ops F b = after (ops.take K) F b := by
  rw [after_take_drop ops K F]
  exact after_of_forall_not_mem _ _ h

/-- A buffer written by the operation at position `K` and by none after it ends at that operation's result, computed
    from the valuation the first `K` operations leave. -/
theorem after_at (ops : List (HloOp τ sig Val)) (K : Nat) (op : HloOp τ sig Val)
    (hop : ops.drop K = op :: ops.drop (K + 1)) (F : Valuation τ sig Val) (y : DevRef τ sig)
    (hy : ∀ o ∈ ops.drop (K + 1), y ∉ o.writes) :
    after ops F y = op.result (after (ops.take K) F) y := by
  rw [after_take_drop ops K F, hop, after_cons]
  exact after_of_forall_not_mem _ _ hy

/-- When the operations write, in order, exactly the references `ws`, a reference absent from `ws` past position `K`
    is written by no operation from position `K` on. -/
theorem not_written (ops : List (HloOp τ sig Val)) (ws : List (Ref sig .tc))
    (hws : ops.map (fun o => o.writes) = ws.map (fun r => ({Proc.devRef .tc r} : Finset (DevRef τ sig))))
    (K : Nat) (r : Ref sig .tc) (h : r ∉ ws.drop K) : ∀ o ∈ ops.drop K, Proc.devRef .tc r ∉ o.writes := by
  intro o ho hmem
  have h1 : o.writes ∈ (ops.drop K).map (fun o => o.writes) := List.mem_map.mpr ⟨o, ho, rfl⟩
  rw [List.map_drop, hws, ← List.map_drop] at h1
  obtain ⟨r', hr', e⟩ := List.mem_map.mp h1
  rw [← e, Finset.mem_singleton] at hmem
  exact h (Proc.devRef_injective _ hmem ▸ hr')

end Cert.LibSsaLocal

end
-- ==== Proof.KernelVals.lean ====
/-
  What each buffer of the kernel program's host prefix holds when the launch starts: buffer by buffer, the prefix
  value of Prefix.lean at the six argument arrays.

  Every buffer is written once, so at the end of the 130 operations a buffer holds its operation's function of what the
  operands hold at the end; taking the operations in order, each equation uses the ones before it and unfolds one
  definition.
-/
import proofs.«136334_j55559696941650_2_alg».proof.Proof.Prefix
import proofs.«136334_j55559696941650_2_alg».proof.Proof.Gen.KernelIdeal.Launch
import proofs.«136334_j55559696941650_2_alg».proof.Proof.LibSsaLocal

set_option maxRecDepth 16384

noncomputable section

namespace Cert.KernelIdeal.Vals

open Cert.KernelIdeal Cert.KernelIdeal.Gen Cert.KernelIdeal.Prefix Cert.LibSsaLocal
open Idealize.ShloMosaic Idealize.ShloMosaic.TcCoe Idealize.SL.Sem Idealize.ShloMosaic.StableHlo

variable {F : FTy → Type} [FloatOps F]

/-- The references the 130 operations write, in order. -/
def ws : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_c_3, main_v20, main_v21, main_c_4, main_v22, main_v23, main_v24, main_v25, main_v26, main_v27, main_v28, main_c_5, main_v29, main_v30, main_c_6, main_v31, main_v32, main_v33, main_v34, main_v35, main_v36, main_v37, main_c_7, main_v38, main_v39, main_c_8, main_v40, main_v41, main_v42, main_v43, main_v44, main_v45, main_v46, main_v47, main_v48, main_v49, main_v50, main_v51, main_v52, main_v53, main_v54, main_v55, main_v56, main_cst, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_cst_9, main_v102, main_v103, main_cst_10, main_v104, main_v105, main_v106, main_cst_11, main_v107, main_v108, main_v109, main_cst_12, main_v110, main_v111, main_v112, main_v113, main_v114]

/-- Each operation writes exactly its own result buffer. -/
theorem hws : (hostOps0 (F := F)).map (fun o => o.writes) = ws.map (fun r => ({Proc.devRef .tc r} : Finset (DevRef τ sig))) := rfl

variable (m : (ℓ : Loc nD τ sig) → Buf (Elt F) ℓ) (c : Dev nD)

/-- The six argument arrays of core `c`. -/
def args : Args F :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5)⟩

local notation "AF" => StableHlo.after hostOps0 (fun b => m (c, b))

theorem nw (K : Nat) (r : Ref sig .tc) (h : r ∉ ws.drop K) :
    ∀ o ∈ (hostOps0 (F := F)).drop K, Proc.devRef .tc r ∉ o.writes := not_written hostOps0 ws hws K r h

theorem pre (K : Nat) (r : Ref sig .tc) (h : r ∉ ws.drop K) {X : (Proc.devRef .tc r : DevRef τ sig).ty.Contents (Elt F)}
    (hv : AF (Proc.devRef .tc r) = X) :
    StableHlo.after ((hostOps0 (F := F)).take K) (fun b => m (c, b)) (Proc.devRef .tc r) = X :=
  (after_eq_take hostOps0 K _ _ (nw K r h)).symm.trans hv

theorem val_arg0 : AF (Proc.devRef .tc main_arg0) = (args m c).arg0 :=
  after_of_forall_not_mem _ _ (nw 0 main_arg0 (by decide))
theorem val_arg1 : AF (Proc.devRef .tc main_arg1) = (args m c).arg1 :=
  after_of_forall_not_mem _ _ (nw 0 main_arg1 (by decide))
theorem val_arg2 : AF (Proc.devRef .tc main_arg2) = (args m c).arg2 :=
  after_of_forall_not_mem _ _ (nw 0 main_arg2 (by decide))
theorem val_arg3 : AF (Proc.devRef .tc main_arg3) = (args m c).arg3 :=
  after_of_forall_not_mem _ _ (nw 0 main_arg3 (by decide))
theorem val_arg4 : AF (Proc.devRef .tc main_arg4) = (args m c).arg4 :=
  after_of_forall_not_mem _ _ (nw 0 main_arg4 (by decide))
theorem val_arg5 : AF (Proc.devRef .tc main_arg5) = (args m c).arg5 :=
  after_of_forall_not_mem _ _ (nw 0 main_arg5 (by decide))

theorem val_v0 : AF (Proc.devRef .tc main_v0) = x_v0 (args m c) := by
  refine (after_at hostOps0 0 _ rfl _ _ (nw 1 main_v0 (by decide))).trans ?_
  rw [unary_result, pre m c 0 main_arg5 (by decide) (val_arg5 m c)]
  rfl

theorem val_v1 : AF (Proc.devRef .tc main_v1) = x_v1 (args m c) := by
  refine (after_at hostOps0 1 _ rfl _ _ (nw 2 main_v1 (by decide))).trans ?_
  rw [reshape_result, pre m c 1 main_v0 (by decide) (val_v0 m c)]
  rfl

theorem val_c : AF (Proc.devRef .tc main_c) = x_c (args m c) := by
  refine (after_at hostOps0 2 _ rfl _ _ (nw 3 main_c (by decide))).trans ?_
  rw [nullary_result]
  rfl

theorem val_v2 : AF (Proc.devRef .tc main_v2) = x_v2 (args m c) := by
  refine (after_at hostOps0 3 _ rfl _ _ (nw 4 main_v2 (by decide))).trans ?_
  rw [unary_result, pre m c 3 main_c (by decide) (val_c m c)]
  rfl

theorem val_v3 : AF (Proc.devRef .tc main_v3) = x_v3 (args m c) := by
  refine (after_at hostOps0 4 _ rfl _ _ (nw 5 main_v3 (by decide))).trans ?_
  rw [binary_result, pre m c 4 main_v1 (by decide) (val_v1 m c), pre m c 4 main_v2 (by decide) (val_v2 m c)]
  rfl

theorem val_c_0 : AF (Proc.devRef .tc main_c_0) = x_c_0 (args m c) := by
  refine (after_at hostOps0 5 _ rfl _ _ (nw 6 main_c_0 (by decide))).trans ?_
  rw [nullary_result]
  rfl

theorem val_v4 : AF (Proc.devRef .tc main_v4) = x_v4 (args m c) := by
  refine (after_at hostOps0 6 _ rfl _ _ (nw 7 main_v4 (by decide))).trans ?_
  rw [unary_result, pre m c 6 main_c_0 (by decide) (val_c_0 m c)]
  rfl

theorem val_v5 : AF (Proc.devRef .tc main_v5) = x_v5 (args m c) := by
  refine (after_at hostOps0 7 _ rfl _ _ (nw 8 main_v5 (by decide))).trans ?_
  rw [binary_result, pre m c 7 main_v1 (by decide) (val_v1 m c), pre m c 7 main_v4 (by decide) (val_v4 m c)]
  rfl

theorem val_v6 : AF (Proc.devRef .tc main_v6) = x_v6 (args m c) := by
  refine (after_at hostOps0 8 _ rfl _ _ (nw 9 main_v6 (by decide))).trans ?_
  rw [ternary_result, pre m c 8 main_v3 (by decide) (val_v3 m c), pre m c 8 main_v5 (by decide) (val_v5 m c), pre m c 8 main_v1 (by decide) (val_v1 m c)]
  rfl

theorem val_v7 : AF (Proc.devRef .tc main_v7) = x_v7 (args m c) := by
  refine (after_at hostOps0 9 _ rfl _ _ (nw 10 main_v7 (by decide))).trans ?_
  rw [unary_result, pre m c 9 main_v6 (by decide) (val_v6 m c)]
  rfl

theorem val_v8 : AF (Proc.devRef .tc main_v8) = x_v8 (args m c) := by
  refine (after_at hostOps0 10 _ rfl _ _ (nw 11 main_v8 (by decide))).trans ?_
  rw [binary_result, pre m c 10 main_arg0 (by decide) (val_arg0 m c), pre m c 10 main_v7 (by decide) (val_v7 m c)]
  rfl

theorem val_v9 : AF (Proc.devRef .tc main_v9) = x_v9 (args m c) := by
  refine (after_at hostOps0 11 _ rfl _ _ (nw 12 main_v9 (by decide))).trans ?_
  rw [unary_result, pre m c 11 main_arg5 (by decide) (val_arg5 m c)]
  rfl

theorem val_v10 : AF (Proc.devRef .tc main_v10) = x_v10 (args m c) := by
  refine (after_at hostOps0 12 _ rfl _ _ (nw 13 main_v10 (by decide))).trans ?_
  rw [reshape_result, pre m c 12 main_v9 (by decide) (val_v9 m c)]
  rfl

theorem val_c_1 : AF (Proc.devRef .tc main_c_1) = x_c_1 (args m c) := by
  refine (after_at hostOps0 13 _ rfl _ _ (nw 14 main_c_1 (by decide))).trans ?_
  rw [nullary_result]
  rfl

theorem val_v11 : AF (Proc.devRef .tc main_v11) = x_v11 (args m c) := by
  refine (after_at hostOps0 14 _ rfl _ _ (nw 15 main_v11 (by decide))).trans ?_
  rw [unary_result, pre m c 14 main_c_1 (by decide) (val_c_1 m c)]
  rfl

theorem val_v12 : AF (Proc.devRef .tc main_v12) = x_v12 (args m c) := by
  refine (after_at hostOps0 15 _ rfl _ _ (nw 16 main_v12 (by decide))).trans ?_
  rw [binary_result, pre m c 15 main_v10 (by decide) (val_v10 m c), pre m c 15 main_v11 (by decide) (val_v11 m c)]
  rfl

theorem val_c_2 : AF (Proc.devRef .tc main_c_2) = x_c_2 (args m c) := by
  refine (after_at hostOps0 16 _ rfl _ _ (nw 17 main_c_2 (by decide))).trans ?_
  rw [nullary_result]
  rfl

theorem val_v13 : AF (Proc.devRef .tc main_v13) = x_v13 (args m c) := by
  refine (after_at hostOps0 17 _ rfl _ _ (nw 18 main_v13 (by decide))).trans ?_
  rw [unary_result, pre m c 17 main_c_2 (by decide) (val_c_2 m c)]
  rfl

theorem val_v14 : AF (Proc.devRef .tc main_v14) = x_v14 (args m c) := by
  refine (after_at hostOps0 18 _ rfl _ _ (nw 19 main_v14 (by decide))).trans ?_
  rw [binary_result, pre m c 18 main_v10 (by decide) (val_v10 m c), pre m c 18 main_v13 (by decide) (val_v13 m c)]
  rfl

theorem val_v15 : AF (Proc.devRef .tc main_v15) = x_v15 (args m c) := by
  refine (after_at hostOps0 19 _ rfl _ _ (nw 20 main_v15 (by decide))).trans ?_
  rw [ternary_result, pre m c 19 main_v12 (by decide) (val_v12 m c), pre m c 19 main_v14 (by decide) (val_v14 m c), pre m c 19 main_v10 (by decide) (val_v10 m c)]
  rfl

theorem val_v16 : AF (Proc.devRef .tc main_v16) = x_v16 (args m c) := by
  refine (after_at hostOps0 20 _ rfl _ _ (nw 21 main_v16 (by decide))).trans ?_
  rw [unary_result, pre m c 20 main_v15 (by decide) (val_v15 m c)]
  rfl

theorem val_v17 : AF (Proc.devRef .tc main_v17) = x_v17 (args m c) := by
  refine (after_at hostOps0 21 _ rfl _ _ (nw 22 main_v17 (by decide))).trans ?_
  rw [binary_result, pre m c 21 main_arg1 (by decide) (val_arg1 m c), pre m c 21 main_v16 (by decide) (val_v16 m c)]
  rfl

theorem val_v18 : AF (Proc.devRef .tc main_v18) = x_v18 (args m c) := by
  refine (after_at hostOps0 22 _ rfl _ _ (nw 23 main_v18 (by decide))).trans ?_
  rw [unary_result, pre m c 22 main_arg5 (by decide) (val_arg5 m c)]
  rfl

theorem val_v19 : AF (Proc.devRef .tc main_v19) = x_v19 (args m c) := by
  refine (after_at hostOps0 23 _ rfl _ _ (nw 24 main_v19 (by decide))).trans ?_
  rw [reshape_result, pre m c 23 main_v18 (by decide) (val_v18 m c)]
  rfl

theorem val_c_3 : AF (Proc.devRef .tc main_c_3) = x_c_3 (args m c) := by
  refine (after_at hostOps0 24 _ rfl _ _ (nw 25 main_c_3 (by decide))).trans ?_
  rw [nullary_result]
  rfl

theorem val_v20 : AF (Proc.devRef .tc main_v20) = x_v20 (args m c) := by
  refine (after_at hostOps0 25 _ rfl _ _ (nw 26 main_v20 (by decide))).trans ?_
  rw [unary_result, pre m c 25 main_c_3 (by decide) (val_c_3 m c)]
  rfl

theorem val_v21 : AF (Proc.devRef .tc main_v21) = x_v21 (args m c) := by
  refine (after_at hostOps0 26 _ rfl _ _ (nw 27 main_v21 (by decide))).trans ?_
  rw [binary_result, pre m c 26 main_v19 (by decide) (val_v19 m c), pre m c 26 main_v20 (by decide) (val_v20 m c)]
  rfl

theorem val_c_4 : AF (Proc.devRef .tc main_c_4) = x_c_4 (args m c) := by
  refine (after_at hostOps0 27 _ rfl _ _ (nw 28 main_c_4 (by decide))).trans ?_
  rw [nullary_result]
  rfl

theorem val_v22 : AF (Proc.devRef .tc main_v22) = x_v22 (args m c) := by
  refine (after_at hostOps0 28 _ rfl _ _ (nw 29 main_v22 (by decide))).trans ?_
  rw [unary_result, pre m c 28 main_c_4 (by decide) (val_c_4 m c)]
  rfl

theorem val_v23 : AF (Proc.devRef .tc main_v23) = x_v23 (args m c) := by
  refine (after_at hostOps0 29 _ rfl _ _ (nw 30 main_v23 (by decide))).trans ?_
  rw [binary_result, pre m c 29 main_v19 (by decide) (val_v19 m c), pre m c 29 main_v22 (by decide) (val_v22 m c)]
  rfl

theorem val_v24 : AF (Proc.devRef .tc main_v24) = x_v24 (args m c) := by
  refine (after_at hostOps0 30 _ rfl _ _ (nw 31 main_v24 (by decide))).trans ?_
  rw [ternary_result, pre m c 30 main_v21 (by decide) (val_v21 m c), pre m c 30 main_v23 (by decide) (val_v23 m c), pre m c 30 main_v19 (by decide) (val_v19 m c)]
  rfl

theorem val_v25 : AF (Proc.devRef .tc main_v25) = x_v25 (args m c) := by
  refine (after_at hostOps0 31 _ rfl _ _ (nw 32 main_v25 (by decide))).trans ?_
  rw [unary_result, pre m c 31 main_v24 (by decide) (val_v24 m c)]
  rfl

theorem val_v26 : AF (Proc.devRef .tc main_v26) = x_v26 (args m c) := by
  refine (after_at hostOps0 32 _ rfl _ _ (nw 33 main_v26 (by decide))).trans ?_
  rw [binary_result, pre m c 32 main_arg2 (by decide) (val_arg2 m c), pre m c 32 main_v25 (by decide) (val_v25 m c)]
  rfl

theorem val_v27 : AF (Proc.devRef .tc main_v27) = x_v27 (args m c) := by
  refine (after_at hostOps0 33 _ rfl _ _ (nw 34 main_v27 (by decide))).trans ?_
  rw [unary_result, pre m c 33 main_arg5 (by decide) (val_arg5 m c)]
  rfl

theorem val_v28 : AF (Proc.devRef .tc main_v28) = x_v28 (args m c) := by
  refine (after_at hostOps0 34 _ rfl _ _ (nw 35 main_v28 (by decide))).trans ?_
  rw [reshape_result, pre m c 34 main_v27 (by decide) (val_v27 m c)]
  rfl

theorem val_c_5 : AF (Proc.devRef .tc main_c_5) = x_c_5 (args m c) := by
  refine (after_at hostOps0 35 _ rfl _ _ (nw 36 main_c_5 (by decide))).trans ?_
  rw [nullary_result]
  rfl

theorem val_v29 : AF (Proc.devRef .tc main_v29) = x_v29 (args m c) := by
  refine (after_at hostOps0 36 _ rfl _ _ (nw 37 main_v29 (by decide))).trans ?_
  rw [unary_result, pre m c 36 main_c_5 (by decide) (val_c_5 m c)]
  rfl

theorem val_v30 : AF (Proc.devRef .tc main_v30) = x_v30 (args m c) := by
  refine (after_at hostOps0 37 _ rfl _ _ (nw 38 main_v30 (by decide))).trans ?_
  rw [binary_result, pre m c 37 main_v28 (by decide) (val_v28 m c), pre m c 37 main_v29 (by decide) (val_v29 m c)]
  rfl

theorem val_c_6 : AF (Proc.devRef .tc main_c_6) = x_c_6 (args m c) := by
  refine (after_at hostOps0 38 _ rfl _ _ (nw 39 main_c_6 (by decide))).trans ?_
  rw [nullary_result]
  rfl

theorem val_v31 : AF (Proc.devRef .tc main_v31) = x_v31 (args m c) := by
  refine (after_at hostOps0 39 _ rfl _ _ (nw 40 main_v31 (by decide))).trans ?_
  rw [unary_result, pre m c 39 main_c_6 (by decide) (val_c_6 m c)]
  rfl

theorem val_v32 : AF (Proc.devRef .tc main_v32) = x_v32 (args m c) := by
  refine (after_at hostOps0 40 _ rfl _ _ (nw 41 main_v32 (by decide))).trans ?_
  rw [binary_result, pre m c 40 main_v28 (by decide) (val_v28 m c), pre m c 40 main_v31 (by decide) (val_v31 m c)]
  rfl

theorem val_v33 : AF (Proc.devRef .tc main_v33) = x_v33 (args m c) := by
  refine (after_at hostOps0 41 _ rfl _ _ (nw 42 main_v33 (by decide))).trans ?_
  rw [ternary_result, pre m c 41 main_v30 (by decide) (val_v30 m c), pre m c 41 main_v32 (by decide) (val_v32 m c), pre m c 41 main_v28 (by decide) (val_v28 m c)]
  rfl

theorem val_v34 : AF (Proc.devRef .tc main_v34) = x_v34 (args m c) := by
  refine (after_at hostOps0 42 _ rfl _ _ (nw 43 main_v34 (by decide))).trans ?_
  rw [unary_result, pre m c 42 main_v33 (by decide) (val_v33 m c)]
  rfl

theorem val_v35 : AF (Proc.devRef .tc main_v35) = x_v35 (args m c) := by
  refine (after_at hostOps0 43 _ rfl _ _ (nw 44 main_v35 (by decide))).trans ?_
  rw [binary_result, pre m c 43 main_arg3 (by decide) (val_arg3 m c), pre m c 43 main_v34 (by decide) (val_v34 m c)]
  rfl

theorem val_v36 : AF (Proc.devRef .tc main_v36) = x_v36 (args m c) := by
  refine (after_at hostOps0 44 _ rfl _ _ (nw 45 main_v36 (by decide))).trans ?_
  rw [unary_result, pre m c 44 main_arg5 (by decide) (val_arg5 m c)]
  rfl

theorem val_v37 : AF (Proc.devRef .tc main_v37) = x_v37 (args m c) := by
  refine (after_at hostOps0 45 _ rfl _ _ (nw 46 main_v37 (by decide))).trans ?_
  rw [reshape_result, pre m c 45 main_v36 (by decide) (val_v36 m c)]
  rfl

theorem val_c_7 : AF (Proc.devRef .tc main_c_7) = x_c_7 (args m c) := by
  refine (after_at hostOps0 46 _ rfl _ _ (nw 47 main_c_7 (by decide))).trans ?_
  rw [nullary_result]
  rfl

theorem val_v38 : AF (Proc.devRef .tc main_v38) = x_v38 (args m c) := by
  refine (after_at hostOps0 47 _ rfl _ _ (nw 48 main_v38 (by decide))).trans ?_
  rw [unary_result, pre m c 47 main_c_7 (by decide) (val_c_7 m c)]
  rfl

theorem val_v39 : AF (Proc.devRef .tc main_v39) = x_v39 (args m c) := by
  refine (after_at hostOps0 48 _ rfl _ _ (nw 49 main_v39 (by decide))).trans ?_
  rw [binary_result, pre m c 48 main_v37 (by decide) (val_v37 m c), pre m c 48 main_v38 (by decide) (val_v38 m c)]
  rfl

theorem val_c_8 : AF (Proc.devRef .tc main_c_8) = x_c_8 (args m c) := by
  refine (after_at hostOps0 49 _ rfl _ _ (nw 50 main_c_8 (by decide))).trans ?_
  rw [nullary_result]
  rfl

theorem val_v40 : AF (Proc.devRef .tc main_v40) = x_v40 (args m c) := by
  refine (after_at hostOps0 50 _ rfl _ _ (nw 51 main_v40 (by decide))).trans ?_
  rw [unary_result, pre m c 50 main_c_8 (by decide) (val_c_8 m c)]
  rfl

theorem val_v41 : AF (Proc.devRef .tc main_v41) = x_v41 (args m c) := by
  refine (after_at hostOps0 51 _ rfl _ _ (nw 52 main_v41 (by decide))).trans ?_
  rw [binary_result, pre m c 51 main_v37 (by decide) (val_v37 m c), pre m c 51 main_v40 (by decide) (val_v40 m c)]
  rfl

theorem val_v42 : AF (Proc.devRef .tc main_v42) = x_v42 (args m c) := by
  refine (after_at hostOps0 52 _ rfl _ _ (nw 53 main_v42 (by decide))).trans ?_
  rw [ternary_result, pre m c 52 main_v39 (by decide) (val_v39 m c), pre m c 52 main_v41 (by decide) (val_v41 m c), pre m c 52 main_v37 (by decide) (val_v37 m c)]
  rfl

theorem val_v43 : AF (Proc.devRef .tc main_v43) = x_v43 (args m c) := by
  refine (after_at hostOps0 53 _ rfl _ _ (nw 54 main_v43 (by decide))).trans ?_
  rw [unary_result, pre m c 53 main_v42 (by decide) (val_v42 m c)]
  rfl

theorem val_v44 : AF (Proc.devRef .tc main_v44) = x_v44 (args m c) := by
  refine (after_at hostOps0 54 _ rfl _ _ (nw 55 main_v44 (by decide))).trans ?_
  rw [binary_result, pre m c 54 main_arg4 (by decide) (val_arg4 m c), pre m c 54 main_v43 (by decide) (val_v43 m c)]
  rfl

theorem val_v45 : AF (Proc.devRef .tc main_v45) = x_v45 (args m c) := by
  refine (after_at hostOps0 55 _ rfl _ _ (nw 56 main_v45 (by decide))).trans ?_
  rw [unary_result, pre m c 55 main_v17 (by decide) (val_v17 m c)]
  rfl

theorem val_v46 : AF (Proc.devRef .tc main_v46) = x_v46 (args m c) := by
  refine (after_at hostOps0 56 _ rfl _ _ (nw 57 main_v46 (by decide))).trans ?_
  rw [unary_result, pre m c 56 main_v17 (by decide) (val_v17 m c)]
  rfl

theorem val_v47 : AF (Proc.devRef .tc main_v47) = x_v47 (args m c) := by
  refine (after_at hostOps0 57 _ rfl _ _ (nw 58 main_v47 (by decide))).trans ?_
  rw [unary_result, pre m c 57 main_v44 (by decide) (val_v44 m c)]
  rfl

theorem val_v48 : AF (Proc.devRef .tc main_v48) = x_v48 (args m c) := by
  refine (after_at hostOps0 58 _ rfl _ _ (nw 59 main_v48 (by decide))).trans ?_
  rw [unary_result, pre m c 58 main_v44 (by decide) (val_v44 m c)]
  rfl

theorem val_v49 : AF (Proc.devRef .tc main_v49) = x_v49 (args m c) := by
  refine (after_at hostOps0 59 _ rfl _ _ (nw 60 main_v49 (by decide))).trans ?_
  rw [binary_result, pre m c 59 main_v45 (by decide) (val_v45 m c), pre m c 59 main_v47 (by decide) (val_v47 m c)]
  rfl

theorem val_v50 : AF (Proc.devRef .tc main_v50) = x_v50 (args m c) := by
  refine (after_at hostOps0 60 _ rfl _ _ (nw 61 main_v50 (by decide))).trans ?_
  rw [binary_result, pre m c 60 main_v46 (by decide) (val_v46 m c), pre m c 60 main_v48 (by decide) (val_v48 m c)]
  rfl

theorem val_v51 : AF (Proc.devRef .tc main_v51) = x_v51 (args m c) := by
  refine (after_at hostOps0 61 _ rfl _ _ (nw 62 main_v51 (by decide))).trans ?_
  rw [binary_result, pre m c 61 main_v49 (by decide) (val_v49 m c), pre m c 61 main_v50 (by decide) (val_v50 m c)]
  rfl

theorem val_v52 : AF (Proc.devRef .tc main_v52) = x_v52 (args m c) := by
  refine (after_at hostOps0 62 _ rfl _ _ (nw 63 main_v52 (by decide))).trans ?_
  rw [binary_result, pre m c 62 main_v45 (by decide) (val_v45 m c), pre m c 62 main_v48 (by decide) (val_v48 m c)]
  rfl

theorem val_v53 : AF (Proc.devRef .tc main_v53) = x_v53 (args m c) := by
  refine (after_at hostOps0 63 _ rfl _ _ (nw 64 main_v53 (by decide))).trans ?_
  rw [binary_result, pre m c 63 main_v46 (by decide) (val_v46 m c), pre m c 63 main_v47 (by decide) (val_v47 m c)]
  rfl

theorem val_v54 : AF (Proc.devRef .tc main_v54) = x_v54 (args m c) := by
  refine (after_at hostOps0 64 _ rfl _ _ (nw 65 main_v54 (by decide))).trans ?_
  rw [binary_result, pre m c 64 main_v52 (by decide) (val_v52 m c), pre m c 64 main_v53 (by decide) (val_v53 m c)]
  rfl

theorem val_v55 : AF (Proc.devRef .tc main_v55) = x_v55 (args m c) := by
  refine (after_at hostOps0 65 _ rfl _ _ (nw 66 main_v55 (by decide))).trans ?_
  rw [binary_result, pre m c 65 main_v51 (by decide) (val_v51 m c), pre m c 65 main_v54 (by decide) (val_v54 m c)]
  rfl

theorem val_v56 : AF (Proc.devRef .tc main_v56) = x_v56 (args m c) := by
  refine (after_at hostOps0 66 _ rfl _ _ (nw 67 main_v56 (by decide))).trans ?_
  rw [binary_result, pre m c 66 main_v17 (by decide) (val_v17 m c), pre m c 66 main_v55 (by decide) (val_v55 m c)]
  rfl

theorem val_cst : AF (Proc.devRef .tc main_cst) = x_cst (args m c) := by
  refine (after_at hostOps0 67 _ rfl _ _ (nw 68 main_cst (by decide))).trans ?_
  rw [nullary_result]
  rfl

theorem val_v57 : AF (Proc.devRef .tc main_v57) = x_v57 (args m c) := by
  refine (after_at hostOps0 68 _ rfl _ _ (nw 69 main_v57 (by decide))).trans ?_
  rw [unary_result, pre m c 68 main_cst (by decide) (val_cst m c)]
  rfl

theorem val_v58 : AF (Proc.devRef .tc main_v58) = x_v58 (args m c) := by
  refine (after_at hostOps0 69 _ rfl _ _ (nw 70 main_v58 (by decide))).trans ?_
  rw [nary4_result, pre m c 69 main_v8 (by decide) (val_v8 m c), pre m c 69 main_v26 (by decide) (val_v26 m c)]
  rfl

theorem val_v59 : AF (Proc.devRef .tc main_v59) = x_v59 (args m c) := by
  refine (after_at hostOps0 70 _ rfl _ _ (nw 71 main_v59 (by decide))).trans ?_
  rw [nary4_result, pre m c 70 main_v56 (by decide) (val_v56 m c), pre m c 70 main_v35 (by decide) (val_v35 m c)]
  rfl

theorem val_v60 : AF (Proc.devRef .tc main_v60) = x_v60 (args m c) := by
  refine (after_at hostOps0 71 _ rfl _ _ (nw 72 main_v60 (by decide))).trans ?_
  rw [unary_result, pre m c 71 main_v58 (by decide) (val_v58 m c)]
  rfl

theorem val_v61 : AF (Proc.devRef .tc main_v61) = x_v61 (args m c) := by
  refine (after_at hostOps0 72 _ rfl _ _ (nw 73 main_v61 (by decide))).trans ?_
  rw [unary_result, pre m c 72 main_v58 (by decide) (val_v58 m c)]
  rfl

theorem val_v62 : AF (Proc.devRef .tc main_v62) = x_v62 (args m c) := by
  refine (after_at hostOps0 73 _ rfl _ _ (nw 74 main_v62 (by decide))).trans ?_
  rw [unary_result, pre m c 73 main_v58 (by decide) (val_v58 m c)]
  rfl

theorem val_v63 : AF (Proc.devRef .tc main_v63) = x_v63 (args m c) := by
  refine (after_at hostOps0 74 _ rfl _ _ (nw 75 main_v63 (by decide))).trans ?_
  rw [unary_result, pre m c 74 main_v58 (by decide) (val_v58 m c)]
  rfl

theorem val_v64 : AF (Proc.devRef .tc main_v64) = x_v64 (args m c) := by
  refine (after_at hostOps0 75 _ rfl _ _ (nw 76 main_v64 (by decide))).trans ?_
  rw [unary_result, pre m c 75 main_v59 (by decide) (val_v59 m c)]
  rfl

theorem val_v65 : AF (Proc.devRef .tc main_v65) = x_v65 (args m c) := by
  refine (after_at hostOps0 76 _ rfl _ _ (nw 77 main_v65 (by decide))).trans ?_
  rw [unary_result, pre m c 76 main_v59 (by decide) (val_v59 m c)]
  rfl

theorem val_v66 : AF (Proc.devRef .tc main_v66) = x_v66 (args m c) := by
  refine (after_at hostOps0 77 _ rfl _ _ (nw 78 main_v66 (by decide))).trans ?_
  rw [unary_result, pre m c 77 main_v59 (by decide) (val_v59 m c)]
  rfl

theorem val_v67 : AF (Proc.devRef .tc main_v67) = x_v67 (args m c) := by
  refine (after_at hostOps0 78 _ rfl _ _ (nw 79 main_v67 (by decide))).trans ?_
  rw [unary_result, pre m c 78 main_v59 (by decide) (val_v59 m c)]
  rfl

theorem val_v68 : AF (Proc.devRef .tc main_v68) = x_v68 (args m c) := by
  refine (after_at hostOps0 79 _ rfl _ _ (nw 80 main_v68 (by decide))).trans ?_
  rw [binary_result, pre m c 79 main_v60 (by decide) (val_v60 m c), pre m c 79 main_v64 (by decide) (val_v64 m c)]
  rfl

theorem val_v69 : AF (Proc.devRef .tc main_v69) = x_v69 (args m c) := by
  refine (after_at hostOps0 80 _ rfl _ _ (nw 81 main_v69 (by decide))).trans ?_
  rw [binary_result, pre m c 80 main_v61 (by decide) (val_v61 m c), pre m c 80 main_v65 (by decide) (val_v65 m c)]
  rfl

theorem val_v70 : AF (Proc.devRef .tc main_v70) = x_v70 (args m c) := by
  refine (after_at hostOps0 81 _ rfl _ _ (nw 82 main_v70 (by decide))).trans ?_
  rw [binary_result, pre m c 81 main_v68 (by decide) (val_v68 m c), pre m c 81 main_v69 (by decide) (val_v69 m c)]
  rfl

theorem val_v71 : AF (Proc.devRef .tc main_v71) = x_v71 (args m c) := by
  refine (after_at hostOps0 82 _ rfl _ _ (nw 83 main_v71 (by decide))).trans ?_
  rw [binary_result, pre m c 82 main_v62 (by decide) (val_v62 m c), pre m c 82 main_v66 (by decide) (val_v66 m c)]
  rfl

theorem val_v72 : AF (Proc.devRef .tc main_v72) = x_v72 (args m c) := by
  refine (after_at hostOps0 83 _ rfl _ _ (nw 84 main_v72 (by decide))).trans ?_
  rw [binary_result, pre m c 83 main_v70 (by decide) (val_v70 m c), pre m c 83 main_v71 (by decide) (val_v71 m c)]
  rfl

theorem val_v73 : AF (Proc.devRef .tc main_v73) = x_v73 (args m c) := by
  refine (after_at hostOps0 84 _ rfl _ _ (nw 85 main_v73 (by decide))).trans ?_
  rw [binary_result, pre m c 84 main_v63 (by decide) (val_v63 m c), pre m c 84 main_v67 (by decide) (val_v67 m c)]
  rfl

theorem val_v74 : AF (Proc.devRef .tc main_v74) = x_v74 (args m c) := by
  refine (after_at hostOps0 85 _ rfl _ _ (nw 86 main_v74 (by decide))).trans ?_
  rw [binary_result, pre m c 85 main_v72 (by decide) (val_v72 m c), pre m c 85 main_v73 (by decide) (val_v73 m c)]
  rfl

theorem val_v75 : AF (Proc.devRef .tc main_v75) = x_v75 (args m c) := by
  refine (after_at hostOps0 86 _ rfl _ _ (nw 87 main_v75 (by decide))).trans ?_
  rw [binary_result, pre m c 86 main_v61 (by decide) (val_v61 m c), pre m c 86 main_v64 (by decide) (val_v64 m c)]
  rfl

theorem val_v76 : AF (Proc.devRef .tc main_v76) = x_v76 (args m c) := by
  refine (after_at hostOps0 87 _ rfl _ _ (nw 88 main_v76 (by decide))).trans ?_
  rw [binary_result, pre m c 87 main_v60 (by decide) (val_v60 m c), pre m c 87 main_v65 (by decide) (val_v65 m c)]
  rfl

theorem val_v77 : AF (Proc.devRef .tc main_v77) = x_v77 (args m c) := by
  refine (after_at hostOps0 88 _ rfl _ _ (nw 89 main_v77 (by decide))).trans ?_
  rw [binary_result, pre m c 88 main_v75 (by decide) (val_v75 m c), pre m c 88 main_v76 (by decide) (val_v76 m c)]
  rfl

theorem val_v78 : AF (Proc.devRef .tc main_v78) = x_v78 (args m c) := by
  refine (after_at hostOps0 89 _ rfl _ _ (nw 90 main_v78 (by decide))).trans ?_
  rw [binary_result, pre m c 89 main_v62 (by decide) (val_v62 m c), pre m c 89 main_v67 (by decide) (val_v67 m c)]
  rfl

theorem val_v79 : AF (Proc.devRef .tc main_v79) = x_v79 (args m c) := by
  refine (after_at hostOps0 90 _ rfl _ _ (nw 91 main_v79 (by decide))).trans ?_
  rw [binary_result, pre m c 90 main_v77 (by decide) (val_v77 m c), pre m c 90 main_v78 (by decide) (val_v78 m c)]
  rfl

theorem val_v80 : AF (Proc.devRef .tc main_v80) = x_v80 (args m c) := by
  refine (after_at hostOps0 91 _ rfl _ _ (nw 92 main_v80 (by decide))).trans ?_
  rw [binary_result, pre m c 91 main_v63 (by decide) (val_v63 m c), pre m c 91 main_v66 (by decide) (val_v66 m c)]
  rfl

theorem val_v81 : AF (Proc.devRef .tc main_v81) = x_v81 (args m c) := by
  refine (after_at hostOps0 92 _ rfl _ _ (nw 93 main_v81 (by decide))).trans ?_
  rw [binary_result, pre m c 92 main_v79 (by decide) (val_v79 m c), pre m c 92 main_v80 (by decide) (val_v80 m c)]
  rfl

theorem val_v82 : AF (Proc.devRef .tc main_v82) = x_v82 (args m c) := by
  refine (after_at hostOps0 93 _ rfl _ _ (nw 94 main_v82 (by decide))).trans ?_
  rw [binary_result, pre m c 93 main_v62 (by decide) (val_v62 m c), pre m c 93 main_v64 (by decide) (val_v64 m c)]
  rfl

theorem val_v83 : AF (Proc.devRef .tc main_v83) = x_v83 (args m c) := by
  refine (after_at hostOps0 94 _ rfl _ _ (nw 95 main_v83 (by decide))).trans ?_
  rw [binary_result, pre m c 94 main_v60 (by decide) (val_v60 m c), pre m c 94 main_v66 (by decide) (val_v66 m c)]
  rfl

theorem val_v84 : AF (Proc.devRef .tc main_v84) = x_v84 (args m c) := by
  refine (after_at hostOps0 95 _ rfl _ _ (nw 96 main_v84 (by decide))).trans ?_
  rw [binary_result, pre m c 95 main_v82 (by decide) (val_v82 m c), pre m c 95 main_v83 (by decide) (val_v83 m c)]
  rfl

theorem val_v85 : AF (Proc.devRef .tc main_v85) = x_v85 (args m c) := by
  refine (after_at hostOps0 96 _ rfl _ _ (nw 97 main_v85 (by decide))).trans ?_
  rw [binary_result, pre m c 96 main_v63 (by decide) (val_v63 m c), pre m c 96 main_v65 (by decide) (val_v65 m c)]
  rfl

theorem val_v86 : AF (Proc.devRef .tc main_v86) = x_v86 (args m c) := by
  refine (after_at hostOps0 97 _ rfl _ _ (nw 98 main_v86 (by decide))).trans ?_
  rw [binary_result, pre m c 97 main_v84 (by decide) (val_v84 m c), pre m c 97 main_v85 (by decide) (val_v85 m c)]
  rfl

theorem val_v87 : AF (Proc.devRef .tc main_v87) = x_v87 (args m c) := by
  refine (after_at hostOps0 98 _ rfl _ _ (nw 99 main_v87 (by decide))).trans ?_
  rw [binary_result, pre m c 98 main_v61 (by decide) (val_v61 m c), pre m c 98 main_v67 (by decide) (val_v67 m c)]
  rfl

theorem val_v88 : AF (Proc.devRef .tc main_v88) = x_v88 (args m c) := by
  refine (after_at hostOps0 99 _ rfl _ _ (nw 100 main_v88 (by decide))).trans ?_
  rw [binary_result, pre m c 99 main_v86 (by decide) (val_v86 m c), pre m c 99 main_v87 (by decide) (val_v87 m c)]
  rfl

theorem val_v89 : AF (Proc.devRef .tc main_v89) = x_v89 (args m c) := by
  refine (after_at hostOps0 100 _ rfl _ _ (nw 101 main_v89 (by decide))).trans ?_
  rw [binary_result, pre m c 100 main_v63 (by decide) (val_v63 m c), pre m c 100 main_v64 (by decide) (val_v64 m c)]
  rfl

theorem val_v90 : AF (Proc.devRef .tc main_v90) = x_v90 (args m c) := by
  refine (after_at hostOps0 101 _ rfl _ _ (nw 102 main_v90 (by decide))).trans ?_
  rw [binary_result, pre m c 101 main_v60 (by decide) (val_v60 m c), pre m c 101 main_v67 (by decide) (val_v67 m c)]
  rfl

theorem val_v91 : AF (Proc.devRef .tc main_v91) = x_v91 (args m c) := by
  refine (after_at hostOps0 102 _ rfl _ _ (nw 103 main_v91 (by decide))).trans ?_
  rw [binary_result, pre m c 102 main_v89 (by decide) (val_v89 m c), pre m c 102 main_v90 (by decide) (val_v90 m c)]
  rfl

theorem val_v92 : AF (Proc.devRef .tc main_v92) = x_v92 (args m c) := by
  refine (after_at hostOps0 103 _ rfl _ _ (nw 104 main_v92 (by decide))).trans ?_
  rw [binary_result, pre m c 103 main_v61 (by decide) (val_v61 m c), pre m c 103 main_v66 (by decide) (val_v66 m c)]
  rfl

theorem val_v93 : AF (Proc.devRef .tc main_v93) = x_v93 (args m c) := by
  refine (after_at hostOps0 104 _ rfl _ _ (nw 105 main_v93 (by decide))).trans ?_
  rw [binary_result, pre m c 104 main_v91 (by decide) (val_v91 m c), pre m c 104 main_v92 (by decide) (val_v92 m c)]
  rfl

theorem val_v94 : AF (Proc.devRef .tc main_v94) = x_v94 (args m c) := by
  refine (after_at hostOps0 105 _ rfl _ _ (nw 106 main_v94 (by decide))).trans ?_
  rw [binary_result, pre m c 105 main_v62 (by decide) (val_v62 m c), pre m c 105 main_v65 (by decide) (val_v65 m c)]
  rfl

theorem val_v95 : AF (Proc.devRef .tc main_v95) = x_v95 (args m c) := by
  refine (after_at hostOps0 106 _ rfl _ _ (nw 107 main_v95 (by decide))).trans ?_
  rw [binary_result, pre m c 106 main_v93 (by decide) (val_v93 m c), pre m c 106 main_v94 (by decide) (val_v94 m c)]
  rfl

theorem val_v96 : AF (Proc.devRef .tc main_v96) = x_v96 (args m c) := by
  refine (after_at hostOps0 107 _ rfl _ _ (nw 108 main_v96 (by decide))).trans ?_
  rw [nary4_result, pre m c 107 main_v74 (by decide) (val_v74 m c), pre m c 107 main_v81 (by decide) (val_v81 m c), pre m c 107 main_v88 (by decide) (val_v88 m c), pre m c 107 main_v95 (by decide) (val_v95 m c)]
  rfl

theorem val_v97 : AF (Proc.devRef .tc main_v97) = x_v97 (args m c) := by
  refine (after_at hostOps0 108 _ rfl _ _ (nw 109 main_v97 (by decide))).trans ?_
  rw [unary_result, pre m c 108 main_v96 (by decide) (val_v96 m c)]
  rfl

theorem val_v98 : AF (Proc.devRef .tc main_v98) = x_v98 (args m c) := by
  refine (after_at hostOps0 109 _ rfl _ _ (nw 110 main_v98 (by decide))).trans ?_
  rw [unary_result, pre m c 109 main_v96 (by decide) (val_v96 m c)]
  rfl

theorem val_v99 : AF (Proc.devRef .tc main_v99) = x_v99 (args m c) := by
  refine (after_at hostOps0 110 _ rfl _ _ (nw 111 main_v99 (by decide))).trans ?_
  rw [unary_result, pre m c 110 main_v96 (by decide) (val_v96 m c)]
  rfl

theorem val_v100 : AF (Proc.devRef .tc main_v100) = x_v100 (args m c) := by
  refine (after_at hostOps0 111 _ rfl _ _ (nw 112 main_v100 (by decide))).trans ?_
  rw [unary_result, pre m c 111 main_v96 (by decide) (val_v96 m c)]
  rfl

theorem val_v101 : AF (Proc.devRef .tc main_v101) = x_v101 (args m c) := by
  refine (after_at hostOps0 112 _ rfl _ _ (nw 113 main_v101 (by decide))).trans ?_
  rw [binary_result, pre m c 112 main_v99 (by decide) (val_v99 m c), pre m c 112 main_v57 (by decide) (val_v57 m c)]
  rfl

theorem val_cst_9 : AF (Proc.devRef .tc main_cst_9) = x_cst_9 (args m c) := by
  refine (after_at hostOps0 113 _ rfl _ _ (nw 114 main_cst_9 (by decide))).trans ?_
  rw [nullary_result]
  rfl

theorem val_v102 : AF (Proc.devRef .tc main_v102) = x_v102 (args m c) := by
  refine (after_at hostOps0 114 _ rfl _ _ (nw 115 main_v102 (by decide))).trans ?_
  rw [binary_result, pre m c 114 main_v101 (by decide) (val_v101 m c), pre m c 114 main_cst_9 (by decide) (val_cst_9 m c)]
  rfl

theorem val_v103 : AF (Proc.devRef .tc main_v103) = x_v103 (args m c) := by
  refine (after_at hostOps0 115 _ rfl _ _ (nw 116 main_v103 (by decide))).trans ?_
  rw [binary_result, pre m c 115 main_v100 (by decide) (val_v100 m c), pre m c 115 main_v26 (by decide) (val_v26 m c)]
  rfl

theorem val_cst_10 : AF (Proc.devRef .tc main_cst_10) = x_cst_10 (args m c) := by
  refine (after_at hostOps0 116 _ rfl _ _ (nw 117 main_cst_10 (by decide))).trans ?_
  rw [nullary_result]
  rfl

theorem val_v104 : AF (Proc.devRef .tc main_v104) = x_v104 (args m c) := by
  refine (after_at hostOps0 117 _ rfl _ _ (nw 118 main_v104 (by decide))).trans ?_
  rw [binary_result, pre m c 117 main_v103 (by decide) (val_v103 m c), pre m c 117 main_cst_10 (by decide) (val_cst_10 m c)]
  rfl

theorem val_v105 : AF (Proc.devRef .tc main_v105) = x_v105 (args m c) := by
  refine (after_at hostOps0 118 _ rfl _ _ (nw 119 main_v105 (by decide))).trans ?_
  rw [binary_result, pre m c 118 main_v102 (by decide) (val_v102 m c), pre m c 118 main_v104 (by decide) (val_v104 m c)]
  rfl

theorem val_v106 : AF (Proc.devRef .tc main_v106) = x_v106 (args m c) := by
  refine (after_at hostOps0 119 _ rfl _ _ (nw 120 main_v106 (by decide))).trans ?_
  rw [binary_result, pre m c 119 main_v100 (by decide) (val_v100 m c), pre m c 119 main_v57 (by decide) (val_v57 m c)]
  rfl

theorem val_cst_11 : AF (Proc.devRef .tc main_cst_11) = x_cst_11 (args m c) := by
  refine (after_at hostOps0 120 _ rfl _ _ (nw 121 main_cst_11 (by decide))).trans ?_
  rw [nullary_result]
  rfl

theorem val_v107 : AF (Proc.devRef .tc main_v107) = x_v107 (args m c) := by
  refine (after_at hostOps0 121 _ rfl _ _ (nw 122 main_v107 (by decide))).trans ?_
  rw [binary_result, pre m c 121 main_v106 (by decide) (val_v106 m c), pre m c 121 main_cst_11 (by decide) (val_cst_11 m c)]
  rfl

theorem val_v108 : AF (Proc.devRef .tc main_v108) = x_v108 (args m c) := by
  refine (after_at hostOps0 122 _ rfl _ _ (nw 123 main_v108 (by decide))).trans ?_
  rw [binary_result, pre m c 122 main_v105 (by decide) (val_v105 m c), pre m c 122 main_v107 (by decide) (val_v107 m c)]
  rfl

theorem val_v109 : AF (Proc.devRef .tc main_v109) = x_v109 (args m c) := by
  refine (after_at hostOps0 123 _ rfl _ _ (nw 124 main_v109 (by decide))).trans ?_
  rw [binary_result, pre m c 123 main_v99 (by decide) (val_v99 m c), pre m c 123 main_v26 (by decide) (val_v26 m c)]
  rfl

theorem val_cst_12 : AF (Proc.devRef .tc main_cst_12) = x_cst_12 (args m c) := by
  refine (after_at hostOps0 124 _ rfl _ _ (nw 125 main_cst_12 (by decide))).trans ?_
  rw [nullary_result]
  rfl

theorem val_v110 : AF (Proc.devRef .tc main_v110) = x_v110 (args m c) := by
  refine (after_at hostOps0 125 _ rfl _ _ (nw 126 main_v110 (by decide))).trans ?_
  rw [binary_result, pre m c 125 main_v109 (by decide) (val_v109 m c), pre m c 125 main_cst_12 (by decide) (val_cst_12 m c)]
  rfl

theorem val_v111 : AF (Proc.devRef .tc main_v111) = x_v111 (args m c) := by
  refine (after_at hostOps0 126 _ rfl _ _ (nw 127 main_v111 (by decide))).trans ?_
  rw [binary_result, pre m c 126 main_v108 (by decide) (val_v108 m c), pre m c 126 main_v110 (by decide) (val_v110 m c)]
  rfl

theorem val_v112 : AF (Proc.devRef .tc main_v112) = x_v112 (args m c) := by
  refine (after_at hostOps0 127 _ rfl _ _ (nw 128 main_v112 (by decide))).trans ?_
  rw [binary_result, pre m c 127 main_v97 (by decide) (val_v97 m c), pre m c 127 main_v98 (by decide) (val_v98 m c)]
  rfl

theorem val_v113 : AF (Proc.devRef .tc main_v113) = x_v113 (args m c) := by
  refine (after_at hostOps0 128 _ rfl _ _ (nw 129 main_v113 (by decide))).trans ?_
  rw [unary_result, pre m c 128 main_v112 (by decide) (val_v112 m c)]
  rfl

theorem val_v114 : AF (Proc.devRef .tc main_v114) = x_v114 (args m c) := by
  refine (after_at hostOps0 129 _ rfl _ _ (nw 130 main_v114 (by decide))).trans ?_
  rw [reshape_result, pre m c 129 main_v111 (by decide) (val_v111 m c)]
  rfl

end Cert.KernelIdeal.Vals

end
-- ==== Proof.KernelRun.lean ====
/-
  The scoring program's run with every result named, at the ideal instance.

  The launch-time left factor is the rounding of a + b (the identity on extended reals) and the launch-time bias
  column is the [256] bias vector reshaped to [256, 1], whose entry (p, 0) is the vector's entry p; so the result
  array ends as the scores of a + b, the entity table and the bias vector, all three functions of the six argument
  arrays alone. The four closing operations leave the first 364 rows of the three time tables and a zero scalar.
-/
import proofs.«136334_j55559696941650_2_alg».proof.Proof.KernelScore
import proofs.«136334_j55559696941650_2_alg».proof.Proof.KernelVals

set_option maxRecDepth 16384

noncomputable section

namespace Cert.KernelIdeal.Score

open Cert.KernelIdeal Cert.KernelIdeal.Gen Cert.KernelIdeal.Around Cert.KernelIdeal.Prefix Cert.KernelIdeal.Vals Cert.ScoreFn
open Idealize.ShloMosaic Idealize.ShloMosaic.TcCoe Idealize.ShloMosaic.ValueIdx Idealize.SL.Sem Idealize.ShloMosaic.StableHlo
open Idealize.ShloMosaic.Pipeline (Dat)

section AnyInstance

variable {F : FTy → Type} [FloatOps F] (m : (ℓ : Loc nD τ sig) → Buf (Elt F) ℓ)

/-- The launch finds the left factor at its defining term of the arguments. -/
theorem V_left (c : Dev nD) : V m c main_v113 = x_v113 (args m c) := by
  show StableHlo.after hostOps0 (fun b => m (c, b)) (Proc.devRef .tc main_v113) = _
  exact val_v113 m c

/-- The launch finds the bias column at its defining term of the arguments. -/
theorem V_bias (c : Dev nD) : V m c main_v114 = x_v114 (args m c) := by
  show StableHlo.after hostOps0 (fun b => m (c, b)) (Proc.devRef .tc main_v114) = _
  exact val_v114 m c

/-- The closing slice of time table 1: its first 364 rows. -/
theorem tail_v116 (c : Dev nD) : Pipeline.afterTail₀ cfgs (dats m) 0 (V0 m) [hostOps1] c main_v116
    = extractStridedSlice S364x64 ![0, 0] (m ((c : Thread nD τ).loc main_arg2)) slices_S365x64_S364x64_0_0 := by
  unfold Pipeline.afterTail₀
  show StableHlo.after hostOps1 _ (Proc.devRef .tc main_v116) = _
  after_results
  rw [Pipeline.withArrays_of_ne _ c (V0 m c) _ main_arg2 (by exact (by decide : ∀ w, Pipeline.arrRef spec0 w ≠ main_arg2))]
  exact congrArg (fun z => extractStridedSlice S364x64 ![0, 0] z slices_S365x64_S364x64_0_0) (V_main_arg2 m c)

/-- The closing slice of time table 2: its first 364 rows. -/
theorem tail_v117 (c : Dev nD) : Pipeline.afterTail₀ cfgs (dats m) 0 (V0 m) [hostOps1] c main_v117
    = extractStridedSlice S364x64 ![0, 0] (m ((c : Thread nD τ).loc main_arg3)) slices_S365x64_S364x64_0_0 := by
  unfold Pipeline.afterTail₀
  show StableHlo.after hostOps1 _ (Proc.devRef .tc main_v117) = _
  after_results
  rw [Pipeline.withArrays_of_ne _ c (V0 m c) _ main_arg3 (by exact (by decide : ∀ w, Pipeline.arrRef spec0 w ≠ main_arg3))]
  exact congrArg (fun z => extractStridedSlice S364x64 ![0, 0] z slices_S365x64_S364x64_0_0) (V_main_arg3 m c)

/-- The closing slice of time table 3: its first 364 rows. -/
theorem tail_v118 (c : Dev nD) : Pipeline.afterTail₀ cfgs (dats m) 0 (V0 m) [hostOps1] c main_v118
    = extractStridedSlice S364x64 ![0, 0] (m ((c : Thread nD τ).loc main_arg4)) slices_S365x64_S364x64_0_0 := by
  unfold Pipeline.afterTail₀
  show StableHlo.after hostOps1 _ (Proc.devRef .tc main_v118) = _
  after_results
  rw [Pipeline.withArrays_of_ne _ c (V0 m c) _ main_arg4 (by exact (by decide : ∀ w, Pipeline.arrRef spec0 w ≠ main_arg4))]
  exact congrArg (fun z => extractStridedSlice S364x64 ![0, 0] z slices_S365x64_S364x64_0_0) (V_main_arg4 m c)

/-- The closing zero scalar. -/
theorem tail_cst (c : Dev nD) : Pipeline.afterTail₀ cfgs (dats m) 0 (V0 m) [hostOps1] c main_cst_13
    = constant S_ .f32 0x00000000#32 := by
  unfold Pipeline.afterTail₀
  show StableHlo.after hostOps1 _ (Proc.devRef .tc main_cst_13) = _
  after_results

end AnyInstance

variable (m : (ℓ : Loc nD τ sig) → Buf (Elt Ideal) ℓ) (ρ : Dev nD → PrngReg)

/-- The result array after the launch, as a function of the arguments: the scores of a + b against the entity table,
    plus the bias vector. -/
theorem final_args (c : Dev nD) :
    (dats m 0 c).arrAt 3 cfg0.N = scoreFn (x_v112 (args m c)) (args m c).arg0 (x_v111 (args m c)) := by
  rw [final]
  have hl : V m c main_v113 = x_v112 (args m c) := (V_left m c).trans rfl
  have he : V m c main_arg0 = (args m c).arg0 := V_main_arg0 m c
  have hb : biasVec m c = x_v111 (args m c) := by
    funext i
    obtain ⟨p, rfl⟩ : ∃ p : Fin 256, i = ix1 p := ⟨i 0, eq_ix1 i⟩
    show V m c main_v114 (ix2 p 0) = _
    rw [V_bias]
    exact shapeCast_apply _ _ _ _ (by rw [Shape.rowMajor_val_one, Shape.rowMajor_val_two]; show p.val = p.val * 1 + 0; omega)
  rw [hl, he, hb]

/-- Every weakly fair execution of the scoring program terminates with its five results at these functions of the
    arguments and the arguments unchanged. -/
theorem run : θ_run defs (onTc (τ := τ) (main (F := Ideal))) ⟨m, fun _ => 0, ρ⟩ (fun r => ∀ c : Dev nD,
      r.2.mem ((c.tc : Thread nD τ).loc main_v115) = scoreFn (x_v112 (args m c)) (args m c).arg0 (x_v111 (args m c))
      ∧ r.2.mem ((c.tc : Thread nD τ).loc main_cst_13) = constant (F := Ideal) S_ .f32 0x00000000#32
      ∧ r.2.mem ((c.tc : Thread nD τ).loc main_v116) = extractStridedSlice S364x64 ![0, 0] (m ((c : Thread nD τ).loc main_arg2)) slices_S365x64_S364x64_0_0
      ∧ r.2.mem ((c.tc : Thread nD τ).loc main_v117) = extractStridedSlice S364x64 ![0, 0] (m ((c : Thread nD τ).loc main_arg3)) slices_S365x64_S364x64_0_0
      ∧ r.2.mem ((c.tc : Thread nD τ).loc main_v118) = extractStridedSlice S364x64 ![0, 0] (m ((c : Thread nD τ).loc main_arg4)) slices_S365x64_S364x64_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 3).trans (final_args m c),
      ((h c).2 main_cst_13 (Pipeline.mem_restRefs_of main_cst_13 (by decide) (by decide))).trans (tail_cst m c),
      ((h c).2 main_v116 (Pipeline.mem_restRefs_of main_v116 (by decide) (by decide))).trans (tail_v116 m c),
      ((h c).2 main_v117 (Pipeline.mem_restRefs_of main_v117 (by decide) (by decide))).trans (tail_v117 m c),
      ((h c).2 main_v118 (Pipeline.mem_restRefs_of main_v118 (by decide) (by decide))).trans (tail_v118 m c),
      ((h c).1 1).trans ((((dats m) 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Score

end
-- ==== Proof.RefScore.lean ====
/-
  The reference's last five operations, read index by index at the ideal instance.

  The reference multiplies the left factor X : [256, 64] by the transposed entity table ([64, 400000]) and adds the
  bias vector broadcast along the columns. At row p and column n the product is Σ_k X[p, k] · Eᵀ[k, n], the transpose
  reads Eᵀ[k, n] = E[n, k], and the two broadcasts read b[p]: the score of row p against entity n.
-/
import proofs.«136334_j55559696941650_2_alg».proof.Proof.Gen.ReferenceIdeal
import proofs.«136334_j55559696941650_2_alg».proof.Proof.ScoreFn
import Idealize.ShloMosaic.Lib.Pipeline.Value

set_option maxRecDepth 16384

noncomputable section

namespace Cert.ReferenceIdeal.Score

open Cert.ReferenceIdeal Cert.ReferenceIdeal.Gen Cert.ScoreFn
open Idealize.ShloMosaic Idealize.ShloMosaic.ValueIdx Idealize.SL.Sem

/-- The reference's product-plus-bias is the scoring function. -/
theorem host_scores (X : FVec Ideal S256x64 .f32) (E : FVec Ideal S400000x64 .f32) (b : FVec Ideal S256 .f32) :
    addf (F := Ideal) (Host.dotGeneral (F := Ideal) dot_S256x64_S64x400000_S256x400000_1_0_0_1_n_n none X (transpose S64x400000 [1, 0] E transposes_S400000x64_S64x400000_1_0))
      (broadcastInDim S256x400000 ![0, 1] bcast_S256x1_S256x400000_0_1 (broadcastInDim S256x1 ![0] bcast_S256_S256x1_0 b))
    = scoreFn X E b := by
  funext i
  obtain ⟨p, n, rfl⟩ : ∃ (p : Fin 256) (n : Fin 400000), i = ix2 p n := ⟨i 0, i 1, eq_ix2 i⟩
  rw [scoreFn_ix2]
  unfold scoreAt
  show (Host.dotGeneral (F := Ideal) dot_S256x64_S64x400000_S256x400000_1_0_0_1_n_n none X (transpose S64x400000 [1, 0] E transposes_S400000x64_S64x400000_1_0) (ix2 p n) : EReal)
      + (broadcastInDim S256x400000 ![0, 1] bcast_S256x1_S256x400000_0_1 (broadcastInDim S256x1 ![0] bcast_S256_S256x1_0 b) (ix2 p n) : EReal) = _
  refine congrArg₂ (· + ·) ?_ ?_
  · refine (Ideal.dotGeneral_apply _ _ _ _ _ _).trans ?_
    rw [sum_contr1 dot_S256x64_S64x400000_S256x400000_1_0_0_1_n_n 64 rfl rfl]
    refine Finset.sum_congr rfl fun a _ => ?_
    have hk := contrEquiv1_symm_val dot_S256x64_S64x400000_S256x400000_1_0_0_1_n_n 64 rfl rfl a
    have el : dot_S256x64_S64x400000_S256x400000_1_0_0_1_n_n.lhsIdx (ix2 p n) ((contrEquiv1 dot_S256x64_S64x400000_S256x400000_1_0_0_1_n_n 64 rfl rfl).symm a) = ix2 p a := funext fun x => Fin.ext (by
      match x with
      | ⟨0, _⟩ => rfl
      | ⟨1, _⟩ => exact (DotDims.lhsIdx_val_of_single _ rfl _ _).trans hk)
    have er : transpose S64x400000 [1, 0] E transposes_S400000x64_S64x400000_1_0
        (dot_S256x64_S64x400000_S256x400000_1_0_0_1_n_n.rhsIdx (ix2 p n) ((contrEquiv1 dot_S256x64_S64x400000_S256x400000_1_0_0_1_n_n 64 rfl rfl).symm a)) = E (ix2 n a) :=
      transpose_apply _ _ _ _ (ix2 n a) (fun bb => by
        match bb with
        | ⟨0, _⟩ => exact ((DotDims.rhsIdx_val_of_single _ rfl _ _).trans hk).symm
        | ⟨1, _⟩ => rfl)
    rw [el, er]
  · refine (broadcastInDim_apply _ _ _ _ (ix2 p 0) (fun a => by match a with | ⟨0, _⟩ => rfl | ⟨1, _⟩ => rfl)).trans ?_
    exact broadcastInDim_apply _ _ _ _ (ix1 p) (fun a => by match a with | ⟨0, _⟩ => rfl)

end Cert.ReferenceIdeal.Score

end
-- ==== Proof.RefVals.lean ====
/-
  The reference program read back: its 137 host operations as a list, its run, and what each buffer holds at the
  end — for the 128 operations it shares with the kernel program the same prefix values (Prefix.lean) at the
  reference's own six argument arrays, for the last nine the operation applied to those.

  Every buffer is written once, so each buffer ends at its operation's function of what the operands end at; the
  equations are taken in order, each unfolding one definition.
-/
import proofs.«136334_j55559696941650_2_alg».proof.Proof.Prefix
import proofs.«136334_j55559696941650_2_alg».proof.Proof.Gen.ReferenceIdeal
import proofs.«136334_j55559696941650_2_alg».proof.Proof.LibSsaLocal
import Idealize.ShloMosaic.Lib.StableHlo.Run

set_option maxRecDepth 16384

noncomputable section

namespace Cert.ReferenceIdeal.Vals

open Cert.ReferenceIdeal Cert.ReferenceIdeal.Gen Cert.LibSsaLocal
open Idealize.ShloMosaic Idealize.ShloMosaic.TcCoe Idealize.SL.Sem Idealize.ShloMosaic.StableHlo

variable {F : FTy → Type} [FloatOps F]

/-- The reference's 137 operations, in order. -/
abbrev ops : List (HloOp τ sig (Elt F)) :=
  [ StableHlo.unary main_arg5 main_v0 ((extractStridedSlice S256x1 ![0, 0] · slices_S256x4_S256x1_0_0) : (⟨S256x4, .i32⟩ : BufTy).Contents (Elt F) → (⟨S256x1, .i32⟩ : BufTy).Contents (Elt F)),
    StableHlo.reshape main_v0 main_v1 rfl shapeCasts_S256x1_S256,
    StableHlo.nullary main_c (constantI S_ 32 0#32),
    StableHlo.unary main_c main_v2 (broadcastInDim S256 ![] bcast_S_S256 : (⟨S_, .i32⟩ : BufTy).Contents (Elt F) → (⟨S256, .i32⟩ : BufTy).Contents (Elt F)),
    StableHlo.binary main_v1 main_v2 main_v3 (cmpi .slt : (⟨S256, .i32⟩ : BufTy).Contents (Elt F) → (⟨S256, .i32⟩ : BufTy).Contents (Elt F) → (⟨S256, .i1⟩ : BufTy).Contents (Elt F)),
    StableHlo.nullary main_c_0 (constantI S_ 32 400000#32),
    StableHlo.unary main_c_0 main_v4 (broadcastInDim S256 ![] bcast_S_S256 : (⟨S_, .i32⟩ : BufTy).Contents (Elt F) → (⟨S256, .i32⟩ : BufTy).Contents (Elt F)),
    StableHlo.binary main_v1 main_v4 main_v5 (addi : (⟨S256, .i32⟩ : BufTy).Contents (Elt F) → (⟨S256, .i32⟩ : BufTy).Contents (Elt F) → (⟨S256, .i32⟩ : BufTy).Contents (Elt F)),
    StableHlo.ternary main_v3 main_v5 main_v1 main_v6 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v6 main_v7 (broadcastInDim S256x1 ![0] bcast_S256_S256x1_0 : (⟨S256, .i32⟩ : BufTy).Contents (Elt F) → (⟨S256x1, .i32⟩ : BufTy).Contents (Elt F)),
    StableHlo.binary main_arg0 main_v7 main_v8 ((fun x i => Host.gather gather_S400000x64_S256x1_S256x64_1_0_n_n_0_1_164 x i) : (⟨S400000x64, .f32⟩ : BufTy).Contents (Elt F) → (⟨S256x1, .i32⟩ : BufTy).Contents (Elt F) → (⟨S256x64, .f32⟩ : BufTy).Contents (Elt F)),
    StableHlo.unary main_arg5 main_v9 ((extractStridedSlice S256x1 ![0, 1] · slices_S256x4_S256x1_0_1) : (⟨S256x4, .i32⟩ : BufTy).Contents (Elt F) → (⟨S256x1, .i32⟩ : BufTy).Contents (Elt F)),
    StableHlo.reshape main_v9 main_v10 rfl shapeCasts_S256x1_S256,
    StableHlo.nullary main_c_1 (constantI S_ 32 0#32),
    StableHlo.unary main_c_1 main_v11 (broadcastInDim S256 ![] bcast_S_S256 : (⟨S_, .i32⟩ : BufTy).Contents (Elt F) → (⟨S256, .i32⟩ : BufTy).Contents (Elt F)),
    StableHlo.binary main_v10 main_v11 main_v12 (cmpi .slt : (⟨S256, .i32⟩ : BufTy).Contents (Elt F) → (⟨S256, .i32⟩ : BufTy).Contents (Elt F) → (⟨S256, .i1⟩ : BufTy).Contents (Elt F)),
    StableHlo.nullary main_c_2 (constantI S_ 32 500#32),
    StableHlo.unary main_c_2 main_v13 (broadcastInDim S256 ![] bcast_S_S256 : (⟨S_, .i32⟩ : BufTy).Contents (Elt F) → (⟨S256, .i32⟩ : BufTy).Contents (Elt F)),
    StableHlo.binary main_v10 main_v13 main_v14 (addi : (⟨S256, .i32⟩ : BufTy).Contents (Elt F) → (⟨S256, .i32⟩ : BufTy).Contents (Elt F) → (⟨S256, .i32⟩ : BufTy).Contents (Elt F)),
    StableHlo.ternary main_v12 main_v14 main_v10 main_v15 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v15 main_v16 (broadcastInDim S256x1 ![0] bcast_S256_S256x1_0 : (⟨S256, .i32⟩ : BufTy).Contents (Elt F) → (⟨S256x1, .i32⟩ : BufTy).Contents (Elt F)),
    StableHlo.binary main_arg1 main_v16 main_v17 ((fun x i => Host.gather gather_S500x64_S256x1_S256x64_1_0_n_n_0_1_164 x i) : (⟨S500x64, .f32⟩ : BufTy).Contents (Elt F) → (⟨S256x1, .i32⟩ : BufTy).Contents (Elt F) → (⟨S256x64, .f32⟩ : BufTy).Contents (Elt F)),
    StableHlo.unary main_arg5 main_v18 ((extractStridedSlice S256x1 ![0, 3] · slices_S256x4_S256x1_0_3) : (⟨S256x4, .i32⟩ : BufTy).Contents (Elt F) → (⟨S256x1, .i32⟩ : BufTy).Contents (Elt F)),
    StableHlo.reshape main_v18 main_v19 rfl shapeCasts_S256x1_S256,
    StableHlo.nullary main_c_3 (constantI S_ 32 0#32),
    StableHlo.unary main_c_3 main_v20 (broadcastInDim S256 ![] bcast_S_S256 : (⟨S_, .i32⟩ : BufTy).Contents (Elt F) → (⟨S256, .i32⟩ : BufTy).Contents (Elt F)),
    StableHlo.binary main_v19 main_v20 main_v21 (cmpi .slt : (⟨S256, .i32⟩ : BufTy).Contents (Elt F) → (⟨S256, .i32⟩ : BufTy).Contents (Elt F) → (⟨S256, .i1⟩ : BufTy).Contents (Elt F)),
    StableHlo.nullary main_c_4 (constantI S_ 32 365#32),
    StableHlo.unary main_c_4 main_v22 (broadcastInDim S256 ![] bcast_S_S256 : (⟨S_, .i32⟩ : BufTy).Contents (Elt F) → (⟨S256, .i32⟩ : BufTy).Contents (Elt F)),
    StableHlo.binary main_v19 main_v22 main_v23 (addi : (⟨S256, .i32⟩ : BufTy).Contents (Elt F) → (⟨S256, .i32⟩ : BufTy).Contents (Elt F) → (⟨S256, .i32⟩ : BufTy).Contents (Elt F)),
    StableHlo.ternary main_v21 main_v23 main_v19 main_v24 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v24 main_v25 (broadcastInDim S256x1 ![0] bcast_S256_S256x1_0 : (⟨S256, .i32⟩ : BufTy).Contents (Elt F) → (⟨S256x1, .i32⟩ : BufTy).Contents (Elt F)),
    StableHlo.binary main_arg2 main_v25 main_v26 ((fun x i => Host.gather gather_S365x64_S256x1_S256x64_1_0_n_n_0_1_164 x i) : (⟨S365x64, .f32⟩ : BufTy).Contents (Elt F) → (⟨S256x1, .i32⟩ : BufTy).Contents (Elt F) → (⟨S256x64, .f32⟩ : BufTy).Contents (Elt F)),
    StableHlo.unary main_arg5 main_v27 ((extractStridedSlice S256x1 ![0, 3] · slices_S256x4_S256x1_0_3) : (⟨S256x4, .i32⟩ : BufTy).Contents (Elt F) → (⟨S256x1, .i32⟩ : BufTy).Contents (Elt F)),
    StableHlo.reshape main_v27 main_v28 rfl shapeCasts_S256x1_S256,
    StableHlo.nullary main_c_5 (constantI S_ 32 0#32),
    StableHlo.unary main_c_5 main_v29 (broadcastInDim S256 ![] bcast_S_S256 : (⟨S_, .i32⟩ : BufTy).Contents (Elt F) → (⟨S256, .i32⟩ : BufTy).Contents (Elt F)),
    StableHlo.binary main_v28 main_v29 main_v30 (cmpi .slt : (⟨S256, .i32⟩ : BufTy).Contents (Elt F) → (⟨S256, .i32⟩ : BufTy).Contents (Elt F) → (⟨S256, .i1⟩ : BufTy).Contents (Elt F)),
    StableHlo.nullary main_c_6 (constantI S_ 32 365#32),
    StableHlo.unary main_c_6 main_v31 (broadcastInDim S256 ![] bcast_S_S256 : (⟨S_, .i32⟩ : BufTy).Contents (Elt F) → (⟨S256, .i32⟩ : BufTy).Contents (Elt F)),
    StableHlo.binary main_v28 main_v31 main_v32 (addi : (⟨S256, .i32⟩ : BufTy).Contents (Elt F) → (⟨S256, .i32⟩ : BufTy).Contents (Elt F) → (⟨S256, .i32⟩ : BufTy).Contents (Elt F)),
    StableHlo.ternary main_v30 main_v32 main_v28 main_v33 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v33 main_v34 (broadcastInDim S256x1 ![0] bcast_S256_S256x1_0 : (⟨S256, .i32⟩ : BufTy).Contents (Elt F) → (⟨S256x1, .i32⟩ : BufTy).Contents (Elt F)),
    StableHlo.binary main_arg3 main_v34 main_v35 ((fun x i => Host.gather gather_S365x64_S256x1_S256x64_1_0_n_n_0_1_164 x i) : (⟨S365x64, .f32⟩ : BufTy).Contents (Elt F) → (⟨S256x1, .i32⟩ : BufTy).Contents (Elt F) → (⟨S256x64, .f32⟩ : BufTy).Contents (Elt F)),
    StableHlo.unary main_arg5 main_v36 ((extractStridedSlice S256x1 ![0, 3] · slices_S256x4_S256x1_0_3) : (⟨S256x4, .i32⟩ : BufTy).Contents (Elt F) → (⟨S256x1, .i32⟩ : BufTy).Contents (Elt F)),
    StableHlo.reshape main_v36 main_v37 rfl shapeCasts_S256x1_S256,
    StableHlo.nullary main_c_7 (constantI S_ 32 0#32),
    StableHlo.unary main_c_7 main_v38 (broadcastInDim S256 ![] bcast_S_S256 : (⟨S_, .i32⟩ : BufTy).Contents (Elt F) → (⟨S256, .i32⟩ : BufTy).Contents (Elt F)),
    StableHlo.binary main_v37 main_v38 main_v39 (cmpi .slt : (⟨S256, .i32⟩ : BufTy).Contents (Elt F) → (⟨S256, .i32⟩ : BufTy).Contents (Elt F) → (⟨S256, .i1⟩ : BufTy).Contents (Elt F)),
    StableHlo.nullary main_c_8 (constantI S_ 32 365#32),
    StableHlo.unary main_c_8 main_v40 (broadcastInDim S256 ![] bcast_S_S256 : (⟨S_, .i32⟩ : BufTy).Contents (Elt F) → (⟨S256, .i32⟩ : BufTy).Contents (Elt F)),
    StableHlo.binary main_v37 main_v40 main_v41 (addi : (⟨S256, .i32⟩ : BufTy).Contents (Elt F) → (⟨S256, .i32⟩ : BufTy).Contents (Elt F) → (⟨S256, .i32⟩ : BufTy).Contents (Elt F)),
    StableHlo.ternary main_v39 main_v41 main_v37 main_v42 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v42 main_v43 (broadcastInDim S256x1 ![0] bcast_S256_S256x1_0 : (⟨S256, .i32⟩ : BufTy).Contents (Elt F) → (⟨S256x1, .i32⟩ : BufTy).Contents (Elt F)),
    StableHlo.binary main_arg4 main_v43 main_v44 ((fun x i => Host.gather gather_S365x64_S256x1_S256x64_1_0_n_n_0_1_164 x i) : (⟨S365x64, .f32⟩ : BufTy).Contents (Elt F) → (⟨S256x1, .i32⟩ : BufTy).Contents (Elt F) → (⟨S256x64, .f32⟩ : BufTy).Contents (Elt F)),
    StableHlo.unary main_v17 main_v45 ((extractStridedSlice S256x32 ![0, 0] · slices_S256x64_S256x32_0_0) : (⟨S256x64, .f32⟩ : BufTy).Contents (Elt F) → (⟨S256x32, .f32⟩ : BufTy).Contents (Elt F)),
    StableHlo.unary main_v17 main_v46 ((extractStridedSlice S256x32 ![0, 32] · slices_S256x64_S256x32_0_32) : (⟨S256x64, .f32⟩ : BufTy).Contents (Elt F) → (⟨S256x32, .f32⟩ : BufTy).Contents (Elt F)),
    StableHlo.unary main_v44 main_v47 ((extractStridedSlice S256x32 ![0, 0] · slices_S256x64_S256x32_0_0) : (⟨S256x64, .f32⟩ : BufTy).Contents (Elt F) → (⟨S256x32, .f32⟩ : BufTy).Contents (Elt F)),
    StableHlo.unary main_v44 main_v48 ((extractStridedSlice S256x32 ![0, 32] · slices_S256x64_S256x32_0_32) : (⟨S256x64, .f32⟩ : BufTy).Contents (Elt F) → (⟨S256x32, .f32⟩ : BufTy).Contents (Elt F)),
    StableHlo.binary main_v45 main_v47 main_v49 (mulf : (⟨S256x32, .f32⟩ : BufTy).Contents (Elt F) → (⟨S256x32, .f32⟩ : BufTy).Contents (Elt F) → (⟨S256x32, .f32⟩ : BufTy).Contents (Elt F)),
    StableHlo.binary main_v46 main_v48 main_v50 (mulf : (⟨S256x32, .f32⟩ : BufTy).Contents (Elt F) → (⟨S256x32, .f32⟩ : BufTy).Contents (Elt F) → (⟨S256x32, .f32⟩ : BufTy).Contents (Elt F)),
    StableHlo.binary main_v49 main_v50 main_v51 (addf : (⟨S256x32, .f32⟩ : BufTy).Contents (Elt F) → (⟨S256x32, .f32⟩ : BufTy).Contents (Elt F) → (⟨S256x32, .f32⟩ : BufTy).Contents (Elt F)),
    StableHlo.binary main_v45 main_v48 main_v52 (mulf : (⟨S256x32, .f32⟩ : BufTy).Contents (Elt F) → (⟨S256x32, .f32⟩ : BufTy).Contents (Elt F) → (⟨S256x32, .f32⟩ : BufTy).Contents (Elt F)),
    StableHlo.binary main_v46 main_v47 main_v53 (mulf : (⟨S256x32, .f32⟩ : BufTy).Contents (Elt F) → (⟨S256x32, .f32⟩ : BufTy).Contents (Elt F) → (⟨S256x32, .f32⟩ : BufTy).Contents (Elt F)),
    StableHlo.binary main_v52 main_v53 main_v54 (subf : (⟨S256x32, .f32⟩ : BufTy).Contents (Elt F) → (⟨S256x32, .f32⟩ : BufTy).Contents (Elt F) → (⟨S256x32, .f32⟩ : BufTy).Contents (Elt F)),
    StableHlo.binary main_v51 main_v54 main_v55 ((fun a b => concatenate S256x64 1 [⟨S256x32, a⟩, ⟨S256x32, b⟩] concatenates_S256x32_S256x32_S256x64_d1) : (⟨S256x32, .f32⟩ : BufTy).Contents (Elt F) → (⟨S256x32, .f32⟩ : BufTy).Contents (Elt F) → (⟨S256x64, .f32⟩ : BufTy).Contents (Elt F)),
    StableHlo.binary main_v17 main_v55 main_v56 (addf : (⟨S256x64, .f32⟩ : BufTy).Contents (Elt F) → (⟨S256x64, .f32⟩ : BufTy).Contents (Elt F) → (⟨S256x64, .f32⟩ : BufTy).Contents (Elt F)),
    StableHlo.nullary main_cst (constant S_ .f32 0x00000000#32),
    StableHlo.unary main_cst main_v57 (broadcastInDim S256x64 ![] bcast_S_S256x64 : (⟨S_, .f32⟩ : BufTy).Contents (Elt F) → (⟨S256x64, .f32⟩ : BufTy).Contents (Elt F)),
    StableHlo.nary ![main_v8, main_v8, main_v26, main_v26] main_v58 (fun u => concatenate S256x256 1 [⟨S256x64, u 0⟩, ⟨S256x64, u 1⟩, ⟨S256x64, u 2⟩, ⟨S256x64, u 3⟩] concatenates_S256x64_S256x64_S256x64_S256x64_S256x256_d1),
    StableHlo.nary ![main_v56, main_v56, main_v35, main_v35] main_v59 (fun u => concatenate S256x256 1 [⟨S256x64, u 0⟩, ⟨S256x64, u 1⟩, ⟨S256x64, u 2⟩, ⟨S256x64, u 3⟩] concatenates_S256x64_S256x64_S256x64_S256x64_S256x256_d1),
    StableHlo.unary main_v58 main_v60 ((extractStridedSlice S256x64 ![0, 0] · slices_S256x256_S256x64_0_0) : (⟨S256x256, .f32⟩ : BufTy).Contents (Elt F) → (⟨S256x64, .f32⟩ : BufTy).Contents (Elt F)),
    StableHlo.unary main_v58 main_v61 ((extractStridedSlice S256x64 ![0, 64] · slices_S256x256_S256x64_0_64) : (⟨S256x256, .f32⟩ : BufTy).Contents (Elt F) → (⟨S256x64, .f32⟩ : BufTy).Contents (Elt F)),
    StableHlo.unary main_v58 main_v62 ((extractStridedSlice S256x64 ![0, 128] · slices_S256x256_S256x64_0_128) : (⟨S256x256, .f32⟩ : BufTy).Contents (Elt F) → (⟨S256x64, .f32⟩ : BufTy).Contents (Elt F)),
    StableHlo.unary main_v58 main_v63 ((extractStridedSlice S256x64 ![0, 192] · slices_S256x256_S256x64_0_192) : (⟨S256x256, .f32⟩ : BufTy).Contents (Elt F) → (⟨S256x64, .f32⟩ : BufTy).Contents (Elt F)),
    StableHlo.unary main_v59 main_v64 ((extractStridedSlice S256x64 ![0, 0] · slices_S256x256_S256x64_0_0) : (⟨S256x256, .f32⟩ : BufTy).Contents (Elt F) → (⟨S256x64, .f32⟩ : BufTy).Contents (Elt F)),
    StableHlo.unary main_v59 main_v65 ((extractStridedSlice S256x64 ![0, 64] · slices_S256x256_S256x64_0_64) : (⟨S256x256, .f32⟩ : BufTy).Contents (Elt F) → (⟨S256x64, .f32⟩ : BufTy).Contents (Elt F)),
    StableHlo.unary main_v59 main_v66 ((extractStridedSlice S256x64 ![0, 128] · slices_S256x256_S256x64_0_128) : (⟨S256x256, .f32⟩ : BufTy).Contents (Elt F) → (⟨S256x64, .f32⟩ : BufTy).Contents (Elt F)),
    StableHlo.unary main_v59 main_v67 ((extractStridedSlice S256x64 ![0, 192] · slices_S256x256_S256x64_0_192) : (⟨S256x256, .f32⟩ : BufTy).Contents (Elt F) → (⟨S256x64, .f32⟩ : BufTy).Contents (Elt F)),
    StableHlo.binary main_v60 main_v64 main_v68 (mulf : (⟨S256x64, .f32⟩ : BufTy).Contents (Elt F) → (⟨S256x64, .f32⟩ : BufTy).Contents (Elt F) → (⟨S256x64, .f32⟩ : BufTy).Contents (Elt F)),
    StableHlo.binary main_v61 main_v65 main_v69 (mulf : (⟨S256x64, .f32⟩ : BufTy).Contents (Elt F) → (⟨S256x64, .f32⟩ : BufTy).Contents (Elt F) → (⟨S256x64, .f32⟩ : BufTy).Contents (Elt F)),
    StableHlo.binary main_v68 main_v69 main_v70 (subf : (⟨S256x64, .f32⟩ : BufTy).Contents (Elt F) → (⟨S256x64, .f32⟩ : BufTy).Contents (Elt F) → (⟨S256x64, .f32⟩ : BufTy).Contents (Elt F)),
    StableHlo.binary main_v62 main_v66 main_v71 (mulf : (⟨S256x64, .f32⟩ : BufTy).Contents (Elt F) → (⟨S256x64, .f32⟩ : BufTy).Contents (Elt F) → (⟨S256x64, .f32⟩ : BufTy).Contents (Elt F)),
    StableHlo.binary main_v70 main_v71 main_v72 (subf : (⟨S256x64, .f32⟩ : BufTy).Contents (Elt F) → (⟨S256x64, .f32⟩ : BufTy).Contents (Elt F) → (⟨S256x64, .f32⟩ : BufTy).Contents (Elt F)),
    StableHlo.binary main_v63 main_v67 main_v73 (mulf : (⟨S256x64, .f32⟩ : BufTy).Contents (Elt F) → (⟨S256x64, .f32⟩ : BufTy).Contents (Elt F) → (⟨S256x64, .f32⟩ : BufTy).Contents (Elt F)),
    StableHlo.binary main_v72 main_v73 main_v74 (subf : (⟨S256x64, .f32⟩ : BufTy).Contents (Elt F) → (⟨S256x64, .f32⟩ : BufTy).Contents (Elt F) → (⟨S256x64, .f32⟩ : BufTy).Contents (Elt F)),
    StableHlo.binary main_v61 main_v64 main_v75 (mulf : (⟨S256x64, .f32⟩ : BufTy).Contents (Elt F) → (⟨S256x64, .f32⟩ : BufTy).Contents (Elt F) → (⟨S256x64, .f32⟩ : BufTy).Contents (Elt F)),
    StableHlo.binary main_v60 main_v65 main_v76 (mulf : (⟨S256x64, .f32⟩ : BufTy).Contents (Elt F) → (⟨S256x64, .f32⟩ : BufTy).Contents (Elt F) → (⟨S256x64, .f32⟩ : BufTy).Contents (Elt F)),
    StableHlo.binary main_v75 main_v76 main_v77 (addf : (⟨S256x64, .f32⟩ : BufTy).Contents (Elt F) → (⟨S256x64, .f32⟩ : BufTy).Contents (Elt F) → (⟨S256x64, .f32⟩ : BufTy).Contents (Elt F)),
    StableHlo.binary main_v62 main_v67 main_v78 (mulf : (⟨S256x64, .f32⟩ : BufTy).Contents (Elt F) → (⟨S256x64, .f32⟩ : BufTy).Contents (Elt F) → (⟨S256x64, .f32⟩ : BufTy).Contents (Elt F)),
    StableHlo.binary main_v77 main_v78 main_v79 (addf : (⟨S256x64, .f32⟩ : BufTy).Contents (Elt F) → (⟨S256x64, .f32⟩ : BufTy).Contents (Elt F) → (⟨S256x64, .f32⟩ : BufTy).Contents (Elt F)),
    StableHlo.binary main_v63 main_v66 main_v80 (mulf : (⟨S256x64, .f32⟩ : BufTy).Contents (Elt F) → (⟨S256x64, .f32⟩ : BufTy).Contents (Elt F) → (⟨S256x64, .f32⟩ : BufTy).Contents (Elt F)),
    StableHlo.binary main_v79 main_v80 main_v81 (subf : (⟨S256x64, .f32⟩ : BufTy).Contents (Elt F) → (⟨S256x64, .f32⟩ : BufTy).Contents (Elt F) → (⟨S256x64, .f32⟩ : BufTy).Contents (Elt F)),
    StableHlo.binary main_v62 main_v64 main_v82 (mulf : (⟨S256x64, .f32⟩ : BufTy).Contents (Elt F) → (⟨S256x64, .f32⟩ : BufTy).Contents (Elt F) → (⟨S256x64, .f32⟩ : BufTy).Contents (Elt F)),
    StableHlo.binary main_v60 main_v66 main_v83 (mulf : (⟨S256x64, .f32⟩ : BufTy).Contents (Elt F) → (⟨S256x64, .f32⟩ : BufTy).Contents (Elt F) → (⟨S256x64, .f32⟩ : BufTy).Contents (Elt F)),
    StableHlo.binary main_v82 main_v83 main_v84 (addf : (⟨S256x64, .f32⟩ : BufTy).Contents (Elt F) → (⟨S256x64, .f32⟩ : BufTy).Contents (Elt F) → (⟨S256x64, .f32⟩ : BufTy).Contents (Elt F)),
    StableHlo.binary main_v63 main_v65 main_v85 (mulf : (⟨S256x64, .f32⟩ : BufTy).Contents (Elt F) → (⟨S256x64, .f32⟩ : BufTy).Contents (Elt F) → (⟨S256x64, .f32⟩ : BufTy).Contents (Elt F)),
    StableHlo.binary main_v84 main_v85 main_v86 (addf : (⟨S256x64, .f32⟩ : BufTy).Contents (Elt F) → (⟨S256x64, .f32⟩ : BufTy).Contents (Elt F) → (⟨S256x64, .f32⟩ : BufTy).Contents (Elt F)),
    StableHlo.binary main_v61 main_v67 main_v87 (mulf : (⟨S256x64, .f32⟩ : BufTy).Contents (Elt F) → (⟨S256x64, .f32⟩ : BufTy).Contents (Elt F) → (⟨S256x64, .f32⟩ : BufTy).Contents (Elt F)),
    StableHlo.binary main_v86 main_v87 main_v88 (subf : (⟨S256x64, .f32⟩ : BufTy).Contents (Elt F) → (⟨S256x64, .f32⟩ : BufTy).Contents (Elt F) → (⟨S256x64, .f32⟩ : BufTy).Contents (Elt F)),
    StableHlo.binary main_v63 main_v64 main_v89 (mulf : (⟨S256x64, .f32⟩ : BufTy).Contents (Elt F) → (⟨S256x64, .f32⟩ : BufTy).Contents (Elt F) → (⟨S256x64, .f32⟩ : BufTy).Contents (Elt F)),
    StableHlo.binary main_v60 main_v67 main_v90 (mulf : (⟨S256x64, .f32⟩ : BufTy).Contents (Elt F) → (⟨S256x64, .f32⟩ : BufTy).Contents (Elt F) → (⟨S256x64, .f32⟩ : BufTy).Contents (Elt F)),
    StableHlo.binary main_v89 main_v90 main_v91 (addf : (⟨S256x64, .f32⟩ : BufTy).Contents (Elt F) → (⟨S256x64, .f32⟩ : BufTy).Contents (Elt F) → (⟨S256x64, .f32⟩ : BufTy).Contents (Elt F)),
    StableHlo.binary main_v61 main_v66 main_v92 (mulf : (⟨S256x64, .f32⟩ : BufTy).Contents (Elt F) → (⟨S256x64, .f32⟩ : BufTy).Contents (Elt F) → (⟨S256x64, .f32⟩ : BufTy).Contents (Elt F)),
    StableHlo.binary main_v91 main_v92 main_v93 (addf : (⟨S256x64, .f32⟩ : BufTy).Contents (Elt F) → (⟨S256x64, .f32⟩ : BufTy).Contents (Elt F) → (⟨S256x64, .f32⟩ : BufTy).Contents (Elt F)),
    StableHlo.binary main_v62 main_v65 main_v94 (mulf : (⟨S256x64, .f32⟩ : BufTy).Contents (Elt F) → (⟨S256x64, .f32⟩ : BufTy).Contents (Elt F) → (⟨S256x64, .f32⟩ : BufTy).Contents (Elt F)),
    StableHlo.binary main_v93 main_v94 main_v95 (subf : (⟨S256x64, .f32⟩ : BufTy).Contents (Elt F) → (⟨S256x64, .f32⟩ : BufTy).Contents (Elt F) → (⟨S256x64, .f32⟩ : BufTy).Contents (Elt F)),
    StableHlo.nary ![main_v74, main_v81, main_v88, main_v95] main_v96 (fun u => concatenate S256x256 1 [⟨S256x64, u 0⟩, ⟨S256x64, u 1⟩, ⟨S256x64, u 2⟩, ⟨S256x64, u 3⟩] concatenates_S256x64_S256x64_S256x64_S256x64_S256x256_d1),
    StableHlo.unary main_v96 main_v97 ((extractStridedSlice S256x64 ![0, 0] · slices_S256x256_S256x64_0_0) : (⟨S256x256, .f32⟩ : BufTy).Contents (Elt F) → (⟨S256x64, .f32⟩ : BufTy).Contents (Elt F)),
    StableHlo.unary main_v96 main_v98 ((extractStridedSlice S256x64 ![0, 64] · slices_S256x256_S256x64_0_64) : (⟨S256x256, .f32⟩ : BufTy).Contents (Elt F) → (⟨S256x64, .f32⟩ : BufTy).Contents (Elt F)),
    StableHlo.unary main_v96 main_v99 ((extractStridedSlice S256x64 ![0, 128] · slices_S256x256_S256x64_0_128) : (⟨S256x256, .f32⟩ : BufTy).Contents (Elt F) → (⟨S256x64, .f32⟩ : BufTy).Contents (Elt F)),
    StableHlo.unary main_v96 main_v100 ((extractStridedSlice S256x64 ![0, 192] · slices_S256x256_S256x64_0_192) : (⟨S256x256, .f32⟩ : BufTy).Contents (Elt F) → (⟨S256x64, .f32⟩ : BufTy).Contents (Elt F)),
    StableHlo.binary main_v99 main_v57 main_v101 (mulf : (⟨S256x64, .f32⟩ : BufTy).Contents (Elt F) → (⟨S256x64, .f32⟩ : BufTy).Contents (Elt F) → (⟨S256x64, .f32⟩ : BufTy).Contents (Elt F)),
    StableHlo.nullary main_cst_9 (constant S_ .f32 0x00000000#32),
    StableHlo.binary main_v101 main_cst_9 main_v102 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    StableHlo.binary main_v100 main_v26 main_v103 (mulf : (⟨S256x64, .f32⟩ : BufTy).Contents (Elt F) → (⟨S256x64, .f32⟩ : BufTy).Contents (Elt F) → (⟨S256x64, .f32⟩ : BufTy).Contents (Elt F)),
    StableHlo.nullary main_cst_10 (constant S_ .f32 0x00000000#32),
    StableHlo.binary main_v103 main_cst_10 main_v104 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    StableHlo.binary main_v102 main_v104 main_v105 (addf : (⟨S256, .f32⟩ : BufTy).Contents (Elt F) → (⟨S256, .f32⟩ : BufTy).Contents (Elt F) → (⟨S256, .f32⟩ : BufTy).Contents (Elt F)),
    StableHlo.binary main_v100 main_v57 main_v106 (mulf : (⟨S256x64, .f32⟩ : BufTy).Contents (Elt F) → (⟨S256x64, .f32⟩ : BufTy).Contents (Elt F) → (⟨S256x64, .f32⟩ : BufTy).Contents (Elt F)),
    StableHlo.nullary main_cst_11 (constant S_ .f32 0x00000000#32),
    StableHlo.binary main_v106 main_cst_11 main_v107 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    StableHlo.binary main_v105 main_v107 main_v108 (addf : (⟨S256, .f32⟩ : BufTy).Contents (Elt F) → (⟨S256, .f32⟩ : BufTy).Contents (Elt F) → (⟨S256, .f32⟩ : BufTy).Contents (Elt F)),
    StableHlo.binary main_v99 main_v26 main_v109 (mulf : (⟨S256x64, .f32⟩ : BufTy).Contents (Elt F) → (⟨S256x64, .f32⟩ : BufTy).Contents (Elt F) → (⟨S256x64, .f32⟩ : BufTy).Contents (Elt F)),
    StableHlo.nullary main_cst_12 (constant S_ .f32 0x00000000#32),
    StableHlo.binary main_v109 main_cst_12 main_v110 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    StableHlo.binary main_v108 main_v110 main_v111 (addf : (⟨S256, .f32⟩ : BufTy).Contents (Elt F) → (⟨S256, .f32⟩ : BufTy).Contents (Elt F) → (⟨S256, .f32⟩ : BufTy).Contents (Elt F)),
    StableHlo.binary main_v97 main_v98 main_v112 (addf : (⟨S256x64, .f32⟩ : BufTy).Contents (Elt F) → (⟨S256x64, .f32⟩ : BufTy).Contents (Elt F) → (⟨S256x64, .f32⟩ : BufTy).Contents (Elt F)),
    StableHlo.unary main_arg0 main_v113 ((transpose S64x400000 [1, 0] · transposes_S400000x64_S64x400000_1_0) : (⟨S400000x64, .f32⟩ : BufTy).Contents (Elt F) → (⟨S64x400000, .f32⟩ : BufTy).Contents (Elt F)),
    StableHlo.binary main_v112 main_v113 main_v114 ((fun l r => Host.dotGeneral dot_S256x64_S64x400000_S256x400000_1_0_0_1_n_n none l r) : (⟨S256x64, .f32⟩ : BufTy).Contents (Elt F) → (⟨S64x400000, .f32⟩ : BufTy).Contents (Elt F) → (⟨S256x400000, .f32⟩ : BufTy).Contents (Elt F)),
    StableHlo.unary main_v111 main_v115 (broadcastInDim S256x1 ![0] bcast_S256_S256x1_0 : (⟨S256, .f32⟩ : BufTy).Contents (Elt F) → (⟨S256x1, .f32⟩ : BufTy).Contents (Elt F)),
    StableHlo.unary main_v115 main_v116 (broadcastInDim S256x400000 ![0, 1] bcast_S256x1_S256x400000_0_1 : (⟨S256x1, .f32⟩ : BufTy).Contents (Elt F) → (⟨S256x400000, .f32⟩ : BufTy).Contents (Elt F)),
    StableHlo.binary main_v114 main_v116 main_v117 (addf : (⟨S256x400000, .f32⟩ : BufTy).Contents (Elt F) → (⟨S256x400000, .f32⟩ : BufTy).Contents (Elt F) → (⟨S256x400000, .f32⟩ : BufTy).Contents (Elt F)),
    StableHlo.unary main_arg2 main_v118 ((extractStridedSlice S364x64 ![0, 0] · slices_S365x64_S364x64_0_0) : (⟨S365x64, .f32⟩ : BufTy).Contents (Elt F) → (⟨S364x64, .f32⟩ : BufTy).Contents (Elt F)),
    StableHlo.unary main_arg3 main_v119 ((extractStridedSlice S364x64 ![0, 0] · slices_S365x64_S364x64_0_0) : (⟨S365x64, .f32⟩ : BufTy).Contents (Elt F) → (⟨S364x64, .f32⟩ : BufTy).Contents (Elt F)),
    StableHlo.unary main_arg4 main_v120 ((extractStridedSlice S364x64 ![0, 0] · slices_S365x64_S364x64_0_0) : (⟨S365x64, .f32⟩ : BufTy).Contents (Elt F) → (⟨S364x64, .f32⟩ : BufTy).Contents (Elt F)),
    StableHlo.nullary main_cst_13 (constant S_ .f32 0x00000000#32) ]

set_option maxHeartbeats 4000000 in
/-- The reference is the line of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Each operation touches device buffers only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., nary_bufs_sub .., nary_bufs_sub .., unary_bufs_sub .., unary_bufs_sub .., unary_bufs_sub .., unary_bufs_sub .., unary_bufs_sub .., unary_bufs_sub .., unary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nary_bufs_sub .., unary_bufs_sub .., unary_bufs_sub .., unary_bufs_sub .., unary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., unary_bufs_sub .., unary_bufs_sub .., binary_bufs_sub .., unary_bufs_sub .., unary_bufs_sub .., unary_bufs_sub .., nullary_bufs_sub ..⟩

/-- Every weakly fair execution of the reference terminates with each buffer at the operations' fold over the launch
    contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

/-- The references the operations write, in order. -/
def ws : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_c_3, main_v20, main_v21, main_c_4, main_v22, main_v23, main_v24, main_v25, main_v26, main_v27, main_v28, main_c_5, main_v29, main_v30, main_c_6, main_v31, main_v32, main_v33, main_v34, main_v35, main_v36, main_v37, main_c_7, main_v38, main_v39, main_c_8, main_v40, main_v41, main_v42, main_v43, main_v44, main_v45, main_v46, main_v47, main_v48, main_v49, main_v50, main_v51, main_v52, main_v53, main_v54, main_v55, main_v56, main_cst, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_cst_9, main_v102, main_v103, main_cst_10, main_v104, main_v105, main_v106, main_cst_11, main_v107, main_v108, main_v109, main_cst_12, main_v110, main_v111, main_v112, main_v113, main_v114, main_v115, main_v116, main_v117, main_v118, main_v119, main_v120, main_cst_13]

/-- Each operation writes exactly its own result buffer. -/
theorem hws : (ops (F := F)).map (fun o => o.writes) = ws.map (fun r => ({Proc.devRef .tc r} : Finset (DevRef τ sig))) := rfl

/-! ## The last nine operations, as functions of the arguments -/

def t_v113 (A : Cert.KernelIdeal.Prefix.Args F) : (⟨S64x400000, .f32⟩ : BufTy).Contents (Elt F) :=
  ((transpose S64x400000 [1, 0] · transposes_S400000x64_S64x400000_1_0) : (⟨S400000x64, .f32⟩ : BufTy).Contents (Elt F) → (⟨S64x400000, .f32⟩ : BufTy).Contents (Elt F)) (A.arg0)
def t_v114 (A : Cert.KernelIdeal.Prefix.Args F) : (⟨S256x400000, .f32⟩ : BufTy).Contents (Elt F) :=
  ((fun l r => Host.dotGeneral dot_S256x64_S64x400000_S256x400000_1_0_0_1_n_n none l r) : (⟨S256x64, .f32⟩ : BufTy).Contents (Elt F) → (⟨S64x400000, .f32⟩ : BufTy).Contents (Elt F) → (⟨S256x400000, .f32⟩ : BufTy).Contents (Elt F)) (Cert.KernelIdeal.Prefix.x_v112 A) (t_v113 A)
def t_v115 (A : Cert.KernelIdeal.Prefix.Args F) : (⟨S256x1, .f32⟩ : BufTy).Contents (Elt F) :=
  (broadcastInDim S256x1 ![0] bcast_S256_S256x1_0 : (⟨S256, .f32⟩ : BufTy).Contents (Elt F) → (⟨S256x1, .f32⟩ : BufTy).Contents (Elt F)) (Cert.KernelIdeal.Prefix.x_v111 A)
def t_v116 (A : Cert.KernelIdeal.Prefix.Args F) : (⟨S256x400000, .f32⟩ : BufTy).Contents (Elt F) :=
  (broadcastInDim S256x400000 ![0, 1] bcast_S256x1_S256x400000_0_1 : (⟨S256x1, .f32⟩ : BufTy).Contents (Elt F) → (⟨S256x400000, .f32⟩ : BufTy).Contents (Elt F)) (t_v115 A)
def t_v117 (A : Cert.KernelIdeal.Prefix.Args F) : (⟨S256x400000, .f32⟩ : BufTy).Contents (Elt F) :=
  (addf : (⟨S256x400000, .f32⟩ : BufTy).Contents (Elt F) → (⟨S256x400000, .f32⟩ : BufTy).Contents (Elt F) → (⟨S256x400000, .f32⟩ : BufTy).Contents (Elt F)) (t_v114 A) (t_v116 A)
def t_v118 (A : Cert.KernelIdeal.Prefix.Args F) : (⟨S364x64, .f32⟩ : BufTy).Contents (Elt F) :=
  ((extractStridedSlice S364x64 ![0, 0] · slices_S365x64_S364x64_0_0) : (⟨S365x64, .f32⟩ : BufTy).Contents (Elt F) → (⟨S364x64, .f32⟩ : BufTy).Contents (Elt F)) (A.arg2)
def t_v119 (A : Cert.KernelIdeal.Prefix.Args F) : (⟨S364x64, .f32⟩ : BufTy).Contents (Elt F) :=
  ((extractStridedSlice S364x64 ![0, 0] · slices_S365x64_S364x64_0_0) : (⟨S365x64, .f32⟩ : BufTy).Contents (Elt F) → (⟨S364x64, .f32⟩ : BufTy).Contents (Elt F)) (A.arg3)
def t_v120 (A : Cert.KernelIdeal.Prefix.Args F) : (⟨S364x64, .f32⟩ : BufTy).Contents (Elt F) :=
  ((extractStridedSlice S364x64 ![0, 0] · slices_S365x64_S364x64_0_0) : (⟨S365x64, .f32⟩ : BufTy).Contents (Elt F) → (⟨S364x64, .f32⟩ : BufTy).Contents (Elt F)) (A.arg4)
def t_cst_13 (A : Cert.KernelIdeal.Prefix.Args F) : (⟨S_, .f32⟩ : BufTy).Contents (Elt F) :=
  (constant S_ .f32 0x00000000#32)

variable (L : Valuation τ sig (Elt F))

/-- The six argument arrays a valuation of the reference's buffers holds. -/
def argsOf : Cert.KernelIdeal.Prefix.Args F :=
  ⟨L (Proc.devRef .tc main_arg0), L (Proc.devRef .tc main_arg1), L (Proc.devRef .tc main_arg2),
   L (Proc.devRef .tc main_arg3), L (Proc.devRef .tc main_arg4), L (Proc.devRef .tc main_arg5)⟩

local notation "AF" => StableHlo.after ops L

theorem nw (K : Nat) (r : Ref sig .tc) (h : r ∉ ws.drop K) :
    ∀ o ∈ (ops (F := F)).drop K, Proc.devRef .tc r ∉ o.writes := not_written ops ws hws K r h

theorem pre (K : Nat) (r : Ref sig .tc) (h : r ∉ ws.drop K) {X : (Proc.devRef .tc r : DevRef τ sig).ty.Contents (Elt F)}
    (hv : AF (Proc.devRef .tc r) = X) :
    StableHlo.after ((ops (F := F)).take K) L (Proc.devRef .tc r) = X :=
  (after_eq_take ops K _ _ (nw K r h)).symm.trans hv

theorem val_arg0 : AF (Proc.devRef .tc main_arg0) = (argsOf L).arg0 :=
  after_of_forall_not_mem _ _ (nw 0 main_arg0 (by decide))
theorem val_arg1 : AF (Proc.devRef .tc main_arg1) = (argsOf L).arg1 :=
  after_of_forall_not_mem _ _ (nw 0 main_arg1 (by decide))
theorem val_arg2 : AF (Proc.devRef .tc main_arg2) = (argsOf L).arg2 :=
  after_of_forall_not_mem _ _ (nw 0 main_arg2 (by decide))
theorem val_arg3 : AF (Proc.devRef .tc main_arg3) = (argsOf L).arg3 :=
  after_of_forall_not_mem _ _ (nw 0 main_arg3 (by decide))
theorem val_arg4 : AF (Proc.devRef .tc main_arg4) = (argsOf L).arg4 :=
  after_of_forall_not_mem _ _ (nw 0 main_arg4 (by decide))
theorem val_arg5 : AF (Proc.devRef .tc main_arg5) = (argsOf L).arg5 :=
  after_of_forall_not_mem _ _ (nw 0 main_arg5 (by decide))

theorem val_v0 : AF (Proc.devRef .tc main_v0) = Cert.KernelIdeal.Prefix.x_v0 (argsOf L) := by
  refine (after_at ops 0 _ rfl _ _ (nw 1 main_v0 (by decide))).trans ?_
  rw [unary_result, pre L 0 main_arg5 (by decide) (val_arg5 L)]
  rfl

theorem val_v1 : AF (Proc.devRef .tc main_v1) = Cert.KernelIdeal.Prefix.x_v1 (argsOf L) := by
  refine (after_at ops 1 _ rfl _ _ (nw 2 main_v1 (by decide))).trans ?_
  rw [reshape_result, pre L 1 main_v0 (by decide) (val_v0 L)]
  rfl

theorem val_c : AF (Proc.devRef .tc main_c) = Cert.KernelIdeal.Prefix.x_c (argsOf L) := by
  refine (after_at ops 2 _ rfl _ _ (nw 3 main_c (by decide))).trans ?_
  rw [nullary_result]
  rfl

theorem val_v2 : AF (Proc.devRef .tc main_v2) = Cert.KernelIdeal.Prefix.x_v2 (argsOf L) := by
  refine (after_at ops 3 _ rfl _ _ (nw 4 main_v2 (by decide))).trans ?_
  rw [unary_result, pre L 3 main_c (by decide) (val_c L)]
  rfl

theorem val_v3 : AF (Proc.devRef .tc main_v3) = Cert.KernelIdeal.Prefix.x_v3 (argsOf L) := by
  refine (after_at ops 4 _ rfl _ _ (nw 5 main_v3 (by decide))).trans ?_
  rw [binary_result, pre L 4 main_v1 (by decide) (val_v1 L), pre L 4 main_v2 (by decide) (val_v2 L)]
  rfl

theorem val_c_0 : AF (Proc.devRef .tc main_c_0) = Cert.KernelIdeal.Prefix.x_c_0 (argsOf L) := by
  refine (after_at ops 5 _ rfl _ _ (nw 6 main_c_0 (by decide))).trans ?_
  rw [nullary_result]
  rfl

theorem val_v4 : AF (Proc.devRef .tc main_v4) = Cert.KernelIdeal.Prefix.x_v4 (argsOf L) := by
  refine (after_at ops 6 _ rfl _ _ (nw 7 main_v4 (by decide))).trans ?_
  rw [unary_result, pre L 6 main_c_0 (by decide) (val_c_0 L)]
  rfl

theorem val_v5 : AF (Proc.devRef .tc main_v5) = Cert.KernelIdeal.Prefix.x_v5 (argsOf L) := by
  refine (after_at ops 7 _ rfl _ _ (nw 8 main_v5 (by decide))).trans ?_
  rw [binary_result, pre L 7 main_v1 (by decide) (val_v1 L), pre L 7 main_v4 (by decide) (val_v4 L)]
  rfl

theorem val_v6 : AF (Proc.devRef .tc main_v6) = Cert.KernelIdeal.Prefix.x_v6 (argsOf L) := by
  refine (after_at ops 8 _ rfl _ _ (nw 9 main_v6 (by decide))).trans ?_
  rw [ternary_result, pre L 8 main_v3 (by decide) (val_v3 L), pre L 8 main_v5 (by decide) (val_v5 L), pre L 8 main_v1 (by decide) (val_v1 L)]
  rfl

theorem val_v7 : AF (Proc.devRef .tc main_v7) = Cert.KernelIdeal.Prefix.x_v7 (argsOf L) := by
  refine (after_at ops 9 _ rfl _ _ (nw 10 main_v7 (by decide))).trans ?_
  rw [unary_result, pre L 9 main_v6 (by decide) (val_v6 L)]
  rfl

theorem val_v8 : AF (Proc.devRef .tc main_v8) = Cert.KernelIdeal.Prefix.x_v8 (argsOf L) := by
  refine (after_at ops 10 _ rfl _ _ (nw 11 main_v8 (by decide))).trans ?_
  rw [binary_result, pre L 10 main_arg0 (by decide) (val_arg0 L), pre L 10 main_v7 (by decide) (val_v7 L)]
  rfl

theorem val_v9 : AF (Proc.devRef .tc main_v9) = Cert.KernelIdeal.Prefix.x_v9 (argsOf L) := by
  refine (after_at ops 11 _ rfl _ _ (nw 12 main_v9 (by decide))).trans ?_
  rw [unary_result, pre L 11 main_arg5 (by decide) (val_arg5 L)]
  rfl

theorem val_v10 : AF (Proc.devRef .tc main_v10) = Cert.KernelIdeal.Prefix.x_v10 (argsOf L) := by
  refine (after_at ops 12 _ rfl _ _ (nw 13 main_v10 (by decide))).trans ?_
  rw [reshape_result, pre L 12 main_v9 (by decide) (val_v9 L)]
  rfl

theorem val_c_1 : AF (Proc.devRef .tc main_c_1) = Cert.KernelIdeal.Prefix.x_c_1 (argsOf L) := by
  refine (after_at ops 13 _ rfl _ _ (nw 14 main_c_1 (by decide))).trans ?_
  rw [nullary_result]
  rfl

theorem val_v11 : AF (Proc.devRef .tc main_v11) = Cert.KernelIdeal.Prefix.x_v11 (argsOf L) := by
  refine (after_at ops 14 _ rfl _ _ (nw 15 main_v11 (by decide))).trans ?_
  rw [unary_result, pre L 14 main_c_1 (by decide) (val_c_1 L)]
  rfl

theorem val_v12 : AF (Proc.devRef .tc main_v12) = Cert.KernelIdeal.Prefix.x_v12 (argsOf L) := by
  refine (after_at ops 15 _ rfl _ _ (nw 16 main_v12 (by decide))).trans ?_
  rw [binary_result, pre L 15 main_v10 (by decide) (val_v10 L), pre L 15 main_v11 (by decide) (val_v11 L)]
  rfl

theorem val_c_2 : AF (Proc.devRef .tc main_c_2) = Cert.KernelIdeal.Prefix.x_c_2 (argsOf L) := by
  refine (after_at ops 16 _ rfl _ _ (nw 17 main_c_2 (by decide))).trans ?_
  rw [nullary_result]
  rfl

theorem val_v13 : AF (Proc.devRef .tc main_v13) = Cert.KernelIdeal.Prefix.x_v13 (argsOf L) := by
  refine (after_at ops 17 _ rfl _ _ (nw 18 main_v13 (by decide))).trans ?_
  rw [unary_result, pre L 17 main_c_2 (by decide) (val_c_2 L)]
  rfl

theorem val_v14 : AF (Proc.devRef .tc main_v14) = Cert.KernelIdeal.Prefix.x_v14 (argsOf L) := by
  refine (after_at ops 18 _ rfl _ _ (nw 19 main_v14 (by decide))).trans ?_
  rw [binary_result, pre L 18 main_v10 (by decide) (val_v10 L), pre L 18 main_v13 (by decide) (val_v13 L)]
  rfl

theorem val_v15 : AF (Proc.devRef .tc main_v15) = Cert.KernelIdeal.Prefix.x_v15 (argsOf L) := by
  refine (after_at ops 19 _ rfl _ _ (nw 20 main_v15 (by decide))).trans ?_
  rw [ternary_result, pre L 19 main_v12 (by decide) (val_v12 L), pre L 19 main_v14 (by decide) (val_v14 L), pre L 19 main_v10 (by decide) (val_v10 L)]
  rfl

theorem val_v16 : AF (Proc.devRef .tc main_v16) = Cert.KernelIdeal.Prefix.x_v16 (argsOf L) := by
  refine (after_at ops 20 _ rfl _ _ (nw 21 main_v16 (by decide))).trans ?_
  rw [unary_result, pre L 20 main_v15 (by decide) (val_v15 L)]
  rfl

theorem val_v17 : AF (Proc.devRef .tc main_v17) = Cert.KernelIdeal.Prefix.x_v17 (argsOf L) := by
  refine (after_at ops 21 _ rfl _ _ (nw 22 main_v17 (by decide))).trans ?_
  rw [binary_result, pre L 21 main_arg1 (by decide) (val_arg1 L), pre L 21 main_v16 (by decide) (val_v16 L)]
  rfl

theorem val_v18 : AF (Proc.devRef .tc main_v18) = Cert.KernelIdeal.Prefix.x_v18 (argsOf L) := by
  refine (after_at ops 22 _ rfl _ _ (nw 23 main_v18 (by decide))).trans ?_
  rw [unary_result, pre L 22 main_arg5 (by decide) (val_arg5 L)]
  rfl

theorem val_v19 : AF (Proc.devRef .tc main_v19) = Cert.KernelIdeal.Prefix.x_v19 (argsOf L) := by
  refine (after_at ops 23 _ rfl _ _ (nw 24 main_v19 (by decide))).trans ?_
  rw [reshape_result, pre L 23 main_v18 (by decide) (val_v18 L)]
  rfl

theorem val_c_3 : AF (Proc.devRef .tc main_c_3) = Cert.KernelIdeal.Prefix.x_c_3 (argsOf L) := by
  refine (after_at ops 24 _ rfl _ _ (nw 25 main_c_3 (by decide))).trans ?_
  rw [nullary_result]
  rfl

theorem val_v20 : AF (Proc.devRef .tc main_v20) = Cert.KernelIdeal.Prefix.x_v20 (argsOf L) := by
  refine (after_at ops 25 _ rfl _ _ (nw 26 main_v20 (by decide))).trans ?_
  rw [unary_result, pre L 25 main_c_3 (by decide) (val_c_3 L)]
  rfl

theorem val_v21 : AF (Proc.devRef .tc main_v21) = Cert.KernelIdeal.Prefix.x_v21 (argsOf L) := by
  refine (after_at ops 26 _ rfl _ _ (nw 27 main_v21 (by decide))).trans ?_
  rw [binary_result, pre L 26 main_v19 (by decide) (val_v19 L), pre L 26 main_v20 (by decide) (val_v20 L)]
  rfl

theorem val_c_4 : AF (Proc.devRef .tc main_c_4) = Cert.KernelIdeal.Prefix.x_c_4 (argsOf L) := by
  refine (after_at ops 27 _ rfl _ _ (nw 28 main_c_4 (by decide))).trans ?_
  rw [nullary_result]
  rfl

theorem val_v22 : AF (Proc.devRef .tc main_v22) = Cert.KernelIdeal.Prefix.x_v22 (argsOf L) := by
  refine (after_at ops 28 _ rfl _ _ (nw 29 main_v22 (by decide))).trans ?_
  rw [unary_result, pre L 28 main_c_4 (by decide) (val_c_4 L)]
  rfl

theorem val_v23 : AF (Proc.devRef .tc main_v23) = Cert.KernelIdeal.Prefix.x_v23 (argsOf L) := by
  refine (after_at ops 29 _ rfl _ _ (nw 30 main_v23 (by decide))).trans ?_
  rw [binary_result, pre L 29 main_v19 (by decide) (val_v19 L), pre L 29 main_v22 (by decide) (val_v22 L)]
  rfl

theorem val_v24 : AF (Proc.devRef .tc main_v24) = Cert.KernelIdeal.Prefix.x_v24 (argsOf L) := by
  refine (after_at ops 30 _ rfl _ _ (nw 31 main_v24 (by decide))).trans ?_
  rw [ternary_result, pre L 30 main_v21 (by decide) (val_v21 L), pre L 30 main_v23 (by decide) (val_v23 L), pre L 30 main_v19 (by decide) (val_v19 L)]
  rfl

theorem val_v25 : AF (Proc.devRef .tc main_v25) = Cert.KernelIdeal.Prefix.x_v25 (argsOf L) := by
  refine (after_at ops 31 _ rfl _ _ (nw 32 main_v25 (by decide))).trans ?_
  rw [unary_result, pre L 31 main_v24 (by decide) (val_v24 L)]
  rfl

theorem val_v26 : AF (Proc.devRef .tc main_v26) = Cert.KernelIdeal.Prefix.x_v26 (argsOf L) := by
  refine (after_at ops 32 _ rfl _ _ (nw 33 main_v26 (by decide))).trans ?_
  rw [binary_result, pre L 32 main_arg2 (by decide) (val_arg2 L), pre L 32 main_v25 (by decide) (val_v25 L)]
  rfl

theorem val_v27 : AF (Proc.devRef .tc main_v27) = Cert.KernelIdeal.Prefix.x_v27 (argsOf L) := by
  refine (after_at ops 33 _ rfl _ _ (nw 34 main_v27 (by decide))).trans ?_
  rw [unary_result, pre L 33 main_arg5 (by decide) (val_arg5 L)]
  rfl

theorem val_v28 : AF (Proc.devRef .tc main_v28) = Cert.KernelIdeal.Prefix.x_v28 (argsOf L) := by
  refine (after_at ops 34 _ rfl _ _ (nw 35 main_v28 (by decide))).trans ?_
  rw [reshape_result, pre L 34 main_v27 (by decide) (val_v27 L)]
  rfl

theorem val_c_5 : AF (Proc.devRef .tc main_c_5) = Cert.KernelIdeal.Prefix.x_c_5 (argsOf L) := by
  refine (after_at ops 35 _ rfl _ _ (nw 36 main_c_5 (by decide))).trans ?_
  rw [nullary_result]
  rfl

theorem val_v29 : AF (Proc.devRef .tc main_v29) = Cert.KernelIdeal.Prefix.x_v29 (argsOf L) := by
  refine (after_at ops 36 _ rfl _ _ (nw 37 main_v29 (by decide))).trans ?_
  rw [unary_result, pre L 36 main_c_5 (by decide) (val_c_5 L)]
  rfl

theorem val_v30 : AF (Proc.devRef .tc main_v30) = Cert.KernelIdeal.Prefix.x_v30 (argsOf L) := by
  refine (after_at ops 37 _ rfl _ _ (nw 38 main_v30 (by decide))).trans ?_
  rw [binary_result, pre L 37 main_v28 (by decide) (val_v28 L), pre L 37 main_v29 (by decide) (val_v29 L)]
  rfl

theorem val_c_6 : AF (Proc.devRef .tc main_c_6) = Cert.KernelIdeal.Prefix.x_c_6 (argsOf L) := by
  refine (after_at ops 38 _ rfl _ _ (nw 39 main_c_6 (by decide))).trans ?_
  rw [nullary_result]
  rfl

theorem val_v31 : AF (Proc.devRef .tc main_v31) = Cert.KernelIdeal.Prefix.x_v31 (argsOf L) := by
  refine (after_at ops 39 _ rfl _ _ (nw 40 main_v31 (by decide))).trans ?_
  rw [unary_result, pre L 39 main_c_6 (by decide) (val_c_6 L)]
  rfl

theorem val_v32 : AF (Proc.devRef .tc main_v32) = Cert.KernelIdeal.Prefix.x_v32 (argsOf L) := by
  refine (after_at ops 40 _ rfl _ _ (nw 41 main_v32 (by decide))).trans ?_
  rw [binary_result, pre L 40 main_v28 (by decide) (val_v28 L), pre L 40 main_v31 (by decide) (val_v31 L)]
  rfl

theorem val_v33 : AF (Proc.devRef .tc main_v33) = Cert.KernelIdeal.Prefix.x_v33 (argsOf L) := by
  refine (after_at ops 41 _ rfl _ _ (nw 42 main_v33 (by decide))).trans ?_
  rw [ternary_result, pre L 41 main_v30 (by decide) (val_v30 L), pre L 41 main_v32 (by decide) (val_v32 L), pre L 41 main_v28 (by decide) (val_v28 L)]
  rfl

theorem val_v34 : AF (Proc.devRef .tc main_v34) = Cert.KernelIdeal.Prefix.x_v34 (argsOf L) := by
  refine (after_at ops 42 _ rfl _ _ (nw 43 main_v34 (by decide))).trans ?_
  rw [unary_result, pre L 42 main_v33 (by decide) (val_v33 L)]
  rfl

theorem val_v35 : AF (Proc.devRef .tc main_v35) = Cert.KernelIdeal.Prefix.x_v35 (argsOf L) := by
  refine (after_at ops 43 _ rfl _ _ (nw 44 main_v35 (by decide))).trans ?_
  rw [binary_result, pre L 43 main_arg3 (by decide) (val_arg3 L), pre L 43 main_v34 (by decide) (val_v34 L)]
  rfl

theorem val_v36 : AF (Proc.devRef .tc main_v36) = Cert.KernelIdeal.Prefix.x_v36 (argsOf L) := by
  refine (after_at ops 44 _ rfl _ _ (nw 45 main_v36 (by decide))).trans ?_
  rw [unary_result, pre L 44 main_arg5 (by decide) (val_arg5 L)]
  rfl

theorem val_v37 : AF (Proc.devRef .tc main_v37) = Cert.KernelIdeal.Prefix.x_v37 (argsOf L) := by
  refine (after_at ops 45 _ rfl _ _ (nw 46 main_v37 (by decide))).trans ?_
  rw [reshape_result, pre L 45 main_v36 (by decide) (val_v36 L)]
  rfl

theorem val_c_7 : AF (Proc.devRef .tc main_c_7) = Cert.KernelIdeal.Prefix.x_c_7 (argsOf L) := by
  refine (after_at ops 46 _ rfl _ _ (nw 47 main_c_7 (by decide))).trans ?_
  rw [nullary_result]
  rfl

theorem val_v38 : AF (Proc.devRef .tc main_v38) = Cert.KernelIdeal.Prefix.x_v38 (argsOf L) := by
  refine (after_at ops 47 _ rfl _ _ (nw 48 main_v38 (by decide))).trans ?_
  rw [unary_result, pre L 47 main_c_7 (by decide) (val_c_7 L)]
  rfl

theorem val_v39 : AF (Proc.devRef .tc main_v39) = Cert.KernelIdeal.Prefix.x_v39 (argsOf L) := by
  refine (after_at ops 48 _ rfl _ _ (nw 49 main_v39 (by decide))).trans ?_
  rw [binary_result, pre L 48 main_v37 (by decide) (val_v37 L), pre L 48 main_v38 (by decide) (val_v38 L)]
  rfl

theorem val_c_8 : AF (Proc.devRef .tc main_c_8) = Cert.KernelIdeal.Prefix.x_c_8 (argsOf L) := by
  refine (after_at ops 49 _ rfl _ _ (nw 50 main_c_8 (by decide))).trans ?_
  rw [nullary_result]
  rfl

theorem val_v40 : AF (Proc.devRef .tc main_v40) = Cert.KernelIdeal.Prefix.x_v40 (argsOf L) := by
  refine (after_at ops 50 _ rfl _ _ (nw 51 main_v40 (by decide))).trans ?_
  rw [unary_result, pre L 50 main_c_8 (by decide) (val_c_8 L)]
  rfl

theorem val_v41 : AF (Proc.devRef .tc main_v41) = Cert.KernelIdeal.Prefix.x_v41 (argsOf L) := by
  refine (after_at ops 51 _ rfl _ _ (nw 52 main_v41 (by decide))).trans ?_
  rw [binary_result, pre L 51 main_v37 (by decide) (val_v37 L), pre L 51 main_v40 (by decide) (val_v40 L)]
  rfl

theorem val_v42 : AF (Proc.devRef .tc main_v42) = Cert.KernelIdeal.Prefix.x_v42 (argsOf L) := by
  refine (after_at ops 52 _ rfl _ _ (nw 53 main_v42 (by decide))).trans ?_
  rw [ternary_result, pre L 52 main_v39 (by decide) (val_v39 L), pre L 52 main_v41 (by decide) (val_v41 L), pre L 52 main_v37 (by decide) (val_v37 L)]
  rfl

theorem val_v43 : AF (Proc.devRef .tc main_v43) = Cert.KernelIdeal.Prefix.x_v43 (argsOf L) := by
  refine (after_at ops 53 _ rfl _ _ (nw 54 main_v43 (by decide))).trans ?_
  rw [unary_result, pre L 53 main_v42 (by decide) (val_v42 L)]
  rfl

theorem val_v44 : AF (Proc.devRef .tc main_v44) = Cert.KernelIdeal.Prefix.x_v44 (argsOf L) := by
  refine (after_at ops 54 _ rfl _ _ (nw 55 main_v44 (by decide))).trans ?_
  rw [binary_result, pre L 54 main_arg4 (by decide) (val_arg4 L), pre L 54 main_v43 (by decide) (val_v43 L)]
  rfl

theorem val_v45 : AF (Proc.devRef .tc main_v45) = Cert.KernelIdeal.Prefix.x_v45 (argsOf L) := by
  refine (after_at ops 55 _ rfl _ _ (nw 56 main_v45 (by decide))).trans ?_
  rw [unary_result, pre L 55 main_v17 (by decide) (val_v17 L)]
  rfl

theorem val_v46 : AF (Proc.devRef .tc main_v46) = Cert.KernelIdeal.Prefix.x_v46 (argsOf L) := by
  refine (after_at ops 56 _ rfl _ _ (nw 57 main_v46 (by decide))).trans ?_
  rw [unary_result, pre L 56 main_v17 (by decide) (val_v17 L)]
  rfl

theorem val_v47 : AF (Proc.devRef .tc main_v47) = Cert.KernelIdeal.Prefix.x_v47 (argsOf L) := by
  refine (after_at ops 57 _ rfl _ _ (nw 58 main_v47 (by decide))).trans ?_
  rw [unary_result, pre L 57 main_v44 (by decide) (val_v44 L)]
  rfl

theorem val_v48 : AF (Proc.devRef .tc main_v48) = Cert.KernelIdeal.Prefix.x_v48 (argsOf L) := by
  refine (after_at ops 58 _ rfl _ _ (nw 59 main_v48 (by decide))).trans ?_
  rw [unary_result, pre L 58 main_v44 (by decide) (val_v44 L)]
  rfl

theorem val_v49 : AF (Proc.devRef .tc main_v49) = Cert.KernelIdeal.Prefix.x_v49 (argsOf L) := by
  refine (after_at ops 59 _ rfl _ _ (nw 60 main_v49 (by decide))).trans ?_
  rw [binary_result, pre L 59 main_v45 (by decide) (val_v45 L), pre L 59 main_v47 (by decide) (val_v47 L)]
  rfl

theorem val_v50 : AF (Proc.devRef .tc main_v50) = Cert.KernelIdeal.Prefix.x_v50 (argsOf L) := by
  refine (after_at ops 60 _ rfl _ _ (nw 61 main_v50 (by decide))).trans ?_
  rw [binary_result, pre L 60 main_v46 (by decide) (val_v46 L), pre L 60 main_v48 (by decide) (val_v48 L)]
  rfl

theorem val_v51 : AF (Proc.devRef .tc main_v51) = Cert.KernelIdeal.Prefix.x_v51 (argsOf L) := by
  refine (after_at ops 61 _ rfl _ _ (nw 62 main_v51 (by decide))).trans ?_
  rw [binary_result, pre L 61 main_v49 (by decide) (val_v49 L), pre L 61 main_v50 (by decide) (val_v50 L)]
  rfl

theorem val_v52 : AF (Proc.devRef .tc main_v52) = Cert.KernelIdeal.Prefix.x_v52 (argsOf L) := by
  refine (after_at ops 62 _ rfl _ _ (nw 63 main_v52 (by decide))).trans ?_
  rw [binary_result, pre L 62 main_v45 (by decide) (val_v45 L), pre L 62 main_v48 (by decide) (val_v48 L)]
  rfl

theorem val_v53 : AF (Proc.devRef .tc main_v53) = Cert.KernelIdeal.Prefix.x_v53 (argsOf L) := by
  refine (after_at ops 63 _ rfl _ _ (nw 64 main_v53 (by decide))).trans ?_
  rw [binary_result, pre L 63 main_v46 (by decide) (val_v46 L), pre L 63 main_v47 (by decide) (val_v47 L)]
  rfl

theorem val_v54 : AF (Proc.devRef .tc main_v54) = Cert.KernelIdeal.Prefix.x_v54 (argsOf L) := by
  refine (after_at ops 64 _ rfl _ _ (nw 65 main_v54 (by decide))).trans ?_
  rw [binary_result, pre L 64 main_v52 (by decide) (val_v52 L), pre L 64 main_v53 (by decide) (val_v53 L)]
  rfl

theorem val_v55 : AF (Proc.devRef .tc main_v55) = Cert.KernelIdeal.Prefix.x_v55 (argsOf L) := by
  refine (after_at ops 65 _ rfl _ _ (nw 66 main_v55 (by decide))).trans ?_
  rw [binary_result, pre L 65 main_v51 (by decide) (val_v51 L), pre L 65 main_v54 (by decide) (val_v54 L)]
  rfl

theorem val_v56 : AF (Proc.devRef .tc main_v56) = Cert.KernelIdeal.Prefix.x_v56 (argsOf L) := by
  refine (after_at ops 66 _ rfl _ _ (nw 67 main_v56 (by decide))).trans ?_
  rw [binary_result, pre L 66 main_v17 (by decide) (val_v17 L), pre L 66 main_v55 (by decide) (val_v55 L)]
  rfl

theorem val_cst : AF (Proc.devRef .tc main_cst) = Cert.KernelIdeal.Prefix.x_cst (argsOf L) := by
  refine (after_at ops 67 _ rfl _ _ (nw 68 main_cst (by decide))).trans ?_
  rw [nullary_result]
  rfl

theorem val_v57 : AF (Proc.devRef .tc main_v57) = Cert.KernelIdeal.Prefix.x_v57 (argsOf L) := by
  refine (after_at ops 68 _ rfl _ _ (nw 69 main_v57 (by decide))).trans ?_
  rw [unary_result, pre L 68 main_cst (by decide) (val_cst L)]
  rfl

theorem val_v58 : AF (Proc.devRef .tc main_v58) = Cert.KernelIdeal.Prefix.x_v58 (argsOf L) := by
  refine (after_at ops 69 _ rfl _ _ (nw 70 main_v58 (by decide))).trans ?_
  rw [nary4_result, pre L 69 main_v8 (by decide) (val_v8 L), pre L 69 main_v26 (by decide) (val_v26 L)]
  rfl

theorem val_v59 : AF (Proc.devRef .tc main_v59) = Cert.KernelIdeal.Prefix.x_v59 (argsOf L) := by
  refine (after_at ops 70 _ rfl _ _ (nw 71 main_v59 (by decide))).trans ?_
  rw [nary4_result, pre L 70 main_v56 (by decide) (val_v56 L), pre L 70 main_v35 (by decide) (val_v35 L)]
  rfl

theorem val_v60 : AF (Proc.devRef .tc main_v60) = Cert.KernelIdeal.Prefix.x_v60 (argsOf L) := by
  refine (after_at ops 71 _ rfl _ _ (nw 72 main_v60 (by decide))).trans ?_
  rw [unary_result, pre L 71 main_v58 (by decide) (val_v58 L)]
  rfl

theorem val_v61 : AF (Proc.devRef .tc main_v61) = Cert.KernelIdeal.Prefix.x_v61 (argsOf L) := by
  refine (after_at ops 72 _ rfl _ _ (nw 73 main_v61 (by decide))).trans ?_
  rw [unary_result, pre L 72 main_v58 (by decide) (val_v58 L)]
  rfl

theorem val_v62 : AF (Proc.devRef .tc main_v62) = Cert.KernelIdeal.Prefix.x_v62 (argsOf L) := by
  refine (after_at ops 73 _ rfl _ _ (nw 74 main_v62 (by decide))).trans ?_
  rw [unary_result, pre L 73 main_v58 (by decide) (val_v58 L)]
  rfl

theorem val_v63 : AF (Proc.devRef .tc main_v63) = Cert.KernelIdeal.Prefix.x_v63 (argsOf L) := by
  refine (after_at ops 74 _ rfl _ _ (nw 75 main_v63 (by decide))).trans ?_
  rw [unary_result, pre L 74 main_v58 (by decide) (val_v58 L)]
  rfl

theorem val_v64 : AF (Proc.devRef .tc main_v64) = Cert.KernelIdeal.Prefix.x_v64 (argsOf L) := by
  refine (after_at ops 75 _ rfl _ _ (nw 76 main_v64 (by decide))).trans ?_
  rw [unary_result, pre L 75 main_v59 (by decide) (val_v59 L)]
  rfl

theorem val_v65 : AF (Proc.devRef .tc main_v65) = Cert.KernelIdeal.Prefix.x_v65 (argsOf L) := by
  refine (after_at ops 76 _ rfl _ _ (nw 77 main_v65 (by decide))).trans ?_
  rw [unary_result, pre L 76 main_v59 (by decide) (val_v59 L)]
  rfl

theorem val_v66 : AF (Proc.devRef .tc main_v66) = Cert.KernelIdeal.Prefix.x_v66 (argsOf L) := by
  refine (after_at ops 77 _ rfl _ _ (nw 78 main_v66 (by decide))).trans ?_
  rw [unary_result, pre L 77 main_v59 (by decide) (val_v59 L)]
  rfl

theorem val_v67 : AF (Proc.devRef .tc main_v67) = Cert.KernelIdeal.Prefix.x_v67 (argsOf L) := by
  refine (after_at ops 78 _ rfl _ _ (nw 79 main_v67 (by decide))).trans ?_
  rw [unary_result, pre L 78 main_v59 (by decide) (val_v59 L)]
  rfl

theorem val_v68 : AF (Proc.devRef .tc main_v68) = Cert.KernelIdeal.Prefix.x_v68 (argsOf L) := by
  refine (after_at ops 79 _ rfl _ _ (nw 80 main_v68 (by decide))).trans ?_
  rw [binary_result, pre L 79 main_v60 (by decide) (val_v60 L), pre L 79 main_v64 (by decide) (val_v64 L)]
  rfl

theorem val_v69 : AF (Proc.devRef .tc main_v69) = Cert.KernelIdeal.Prefix.x_v69 (argsOf L) := by
  refine (after_at ops 80 _ rfl _ _ (nw 81 main_v69 (by decide))).trans ?_
  rw [binary_result, pre L 80 main_v61 (by decide) (val_v61 L), pre L 80 main_v65 (by decide) (val_v65 L)]
  rfl

theorem val_v70 : AF (Proc.devRef .tc main_v70) = Cert.KernelIdeal.Prefix.x_v70 (argsOf L) := by
  refine (after_at ops 81 _ rfl _ _ (nw 82 main_v70 (by decide))).trans ?_
  rw [binary_result, pre L 81 main_v68 (by decide) (val_v68 L), pre L 81 main_v69 (by decide) (val_v69 L)]
  rfl

theorem val_v71 : AF (Proc.devRef .tc main_v71) = Cert.KernelIdeal.Prefix.x_v71 (argsOf L) := by
  refine (after_at ops 82 _ rfl _ _ (nw 83 main_v71 (by decide))).trans ?_
  rw [binary_result, pre L 82 main_v62 (by decide) (val_v62 L), pre L 82 main_v66 (by decide) (val_v66 L)]
  rfl

theorem val_v72 : AF (Proc.devRef .tc main_v72) = Cert.KernelIdeal.Prefix.x_v72 (argsOf L) := by
  refine (after_at ops 83 _ rfl _ _ (nw 84 main_v72 (by decide))).trans ?_
  rw [binary_result, pre L 83 main_v70 (by decide) (val_v70 L), pre L 83 main_v71 (by decide) (val_v71 L)]
  rfl

theorem val_v73 : AF (Proc.devRef .tc main_v73) = Cert.KernelIdeal.Prefix.x_v73 (argsOf L) := by
  refine (after_at ops 84 _ rfl _ _ (nw 85 main_v73 (by decide))).trans ?_
  rw [binary_result, pre L 84 main_v63 (by decide) (val_v63 L), pre L 84 main_v67 (by decide) (val_v67 L)]
  rfl

theorem val_v74 : AF (Proc.devRef .tc main_v74) = Cert.KernelIdeal.Prefix.x_v74 (argsOf L) := by
  refine (after_at ops 85 _ rfl _ _ (nw 86 main_v74 (by decide))).trans ?_
  rw [binary_result, pre L 85 main_v72 (by decide) (val_v72 L), pre L 85 main_v73 (by decide) (val_v73 L)]
  rfl

theorem val_v75 : AF (Proc.devRef .tc main_v75) = Cert.KernelIdeal.Prefix.x_v75 (argsOf L) := by
  refine (after_at ops 86 _ rfl _ _ (nw 87 main_v75 (by decide))).trans ?_
  rw [binary_result, pre L 86 main_v61 (by decide) (val_v61 L), pre L 86 main_v64 (by decide) (val_v64 L)]
  rfl

theorem val_v76 : AF (Proc.devRef .tc main_v76) = Cert.KernelIdeal.Prefix.x_v76 (argsOf L) := by
  refine (after_at ops 87 _ rfl _ _ (nw 88 main_v76 (by decide))).trans ?_
  rw [binary_result, pre L 87 main_v60 (by decide) (val_v60 L), pre L 87 main_v65 (by decide) (val_v65 L)]
  rfl

theorem val_v77 : AF (Proc.devRef .tc main_v77) = Cert.KernelIdeal.Prefix.x_v77 (argsOf L) := by
  refine (after_at ops 88 _ rfl _ _ (nw 89 main_v77 (by decide))).trans ?_
  rw [binary_result, pre L 88 main_v75 (by decide) (val_v75 L), pre L 88 main_v76 (by decide) (val_v76 L)]
  rfl

theorem val_v78 : AF (Proc.devRef .tc main_v78) = Cert.KernelIdeal.Prefix.x_v78 (argsOf L) := by
  refine (after_at ops 89 _ rfl _ _ (nw 90 main_v78 (by decide))).trans ?_
  rw [binary_result, pre L 89 main_v62 (by decide) (val_v62 L), pre L 89 main_v67 (by decide) (val_v67 L)]
  rfl

theorem val_v79 : AF (Proc.devRef .tc main_v79) = Cert.KernelIdeal.Prefix.x_v79 (argsOf L) := by
  refine (after_at ops 90 _ rfl _ _ (nw 91 main_v79 (by decide))).trans ?_
  rw [binary_result, pre L 90 main_v77 (by decide) (val_v77 L), pre L 90 main_v78 (by decide) (val_v78 L)]
  rfl

theorem val_v80 : AF (Proc.devRef .tc main_v80) = Cert.KernelIdeal.Prefix.x_v80 (argsOf L) := by
  refine (after_at ops 91 _ rfl _ _ (nw 92 main_v80 (by decide))).trans ?_
  rw [binary_result, pre L 91 main_v63 (by decide) (val_v63 L), pre L 91 main_v66 (by decide) (val_v66 L)]
  rfl

theorem val_v81 : AF (Proc.devRef .tc main_v81) = Cert.KernelIdeal.Prefix.x_v81 (argsOf L) := by
  refine (after_at ops 92 _ rfl _ _ (nw 93 main_v81 (by decide))).trans ?_
  rw [binary_result, pre L 92 main_v79 (by decide) (val_v79 L), pre L 92 main_v80 (by decide) (val_v80 L)]
  rfl

theorem val_v82 : AF (Proc.devRef .tc main_v82) = Cert.KernelIdeal.Prefix.x_v82 (argsOf L) := by
  refine (after_at ops 93 _ rfl _ _ (nw 94 main_v82 (by decide))).trans ?_
  rw [binary_result, pre L 93 main_v62 (by decide) (val_v62 L), pre L 93 main_v64 (by decide) (val_v64 L)]
  rfl

theorem val_v83 : AF (Proc.devRef .tc main_v83) = Cert.KernelIdeal.Prefix.x_v83 (argsOf L) := by
  refine (after_at ops 94 _ rfl _ _ (nw 95 main_v83 (by decide))).trans ?_
  rw [binary_result, pre L 94 main_v60 (by decide) (val_v60 L), pre L 94 main_v66 (by decide) (val_v66 L)]
  rfl

theorem val_v84 : AF (Proc.devRef .tc main_v84) = Cert.KernelIdeal.Prefix.x_v84 (argsOf L) := by
  refine (after_at ops 95 _ rfl _ _ (nw 96 main_v84 (by decide))).trans ?_
  rw [binary_result, pre L 95 main_v82 (by decide) (val_v82 L), pre L 95 main_v83 (by decide) (val_v83 L)]
  rfl

theorem val_v85 : AF (Proc.devRef .tc main_v85) = Cert.KernelIdeal.Prefix.x_v85 (argsOf L) := by
  refine (after_at ops 96 _ rfl _ _ (nw 97 main_v85 (by decide))).trans ?_
  rw [binary_result, pre L 96 main_v63 (by decide) (val_v63 L), pre L 96 main_v65 (by decide) (val_v65 L)]
  rfl

theorem val_v86 : AF (Proc.devRef .tc main_v86) = Cert.KernelIdeal.Prefix.x_v86 (argsOf L) := by
  refine (after_at ops 97 _ rfl _ _ (nw 98 main_v86 (by decide))).trans ?_
  rw [binary_result, pre L 97 main_v84 (by decide) (val_v84 L), pre L 97 main_v85 (by decide) (val_v85 L)]
  rfl

theorem val_v87 : AF (Proc.devRef .tc main_v87) = Cert.KernelIdeal.Prefix.x_v87 (argsOf L) := by
  refine (after_at ops 98 _ rfl _ _ (nw 99 main_v87 (by decide))).trans ?_
  rw [binary_result, pre L 98 main_v61 (by decide) (val_v61 L), pre L 98 main_v67 (by decide) (val_v67 L)]
  rfl

theorem val_v88 : AF (Proc.devRef .tc main_v88) = Cert.KernelIdeal.Prefix.x_v88 (argsOf L) := by
  refine (after_at ops 99 _ rfl _ _ (nw 100 main_v88 (by decide))).trans ?_
  rw [binary_result, pre L 99 main_v86 (by decide) (val_v86 L), pre L 99 main_v87 (by decide) (val_v87 L)]
  rfl

theorem val_v89 : AF (Proc.devRef .tc main_v89) = Cert.KernelIdeal.Prefix.x_v89 (argsOf L) := by
  refine (after_at ops 100 _ rfl _ _ (nw 101 main_v89 (by decide))).trans ?_
  rw [binary_result, pre L 100 main_v63 (by decide) (val_v63 L), pre L 100 main_v64 (by decide) (val_v64 L)]
  rfl

theorem val_v90 : AF (Proc.devRef .tc main_v90) = Cert.KernelIdeal.Prefix.x_v90 (argsOf L) := by
  refine (after_at ops 101 _ rfl _ _ (nw 102 main_v90 (by decide))).trans ?_
  rw [binary_result, pre L 101 main_v60 (by decide) (val_v60 L), pre L 101 main_v67 (by decide) (val_v67 L)]
  rfl

theorem val_v91 : AF (Proc.devRef .tc main_v91) = Cert.KernelIdeal.Prefix.x_v91 (argsOf L) := by
  refine (after_at ops 102 _ rfl _ _ (nw 103 main_v91 (by decide))).trans ?_
  rw [binary_result, pre L 102 main_v89 (by decide) (val_v89 L), pre L 102 main_v90 (by decide) (val_v90 L)]
  rfl

theorem val_v92 : AF (Proc.devRef .tc main_v92) = Cert.KernelIdeal.Prefix.x_v92 (argsOf L) := by
  refine (after_at ops 103 _ rfl _ _ (nw 104 main_v92 (by decide))).trans ?_
  rw [binary_result, pre L 103 main_v61 (by decide) (val_v61 L), pre L 103 main_v66 (by decide) (val_v66 L)]
  rfl

theorem val_v93 : AF (Proc.devRef .tc main_v93) = Cert.KernelIdeal.Prefix.x_v93 (argsOf L) := by
  refine (after_at ops 104 _ rfl _ _ (nw 105 main_v93 (by decide))).trans ?_
  rw [binary_result, pre L 104 main_v91 (by decide) (val_v91 L), pre L 104 main_v92 (by decide) (val_v92 L)]
  rfl

theorem val_v94 : AF (Proc.devRef .tc main_v94) = Cert.KernelIdeal.Prefix.x_v94 (argsOf L) := by
  refine (after_at ops 105 _ rfl _ _ (nw 106 main_v94 (by decide))).trans ?_
  rw [binary_result, pre L 105 main_v62 (by decide) (val_v62 L), pre L 105 main_v65 (by decide) (val_v65 L)]
  rfl

theorem val_v95 : AF (Proc.devRef .tc main_v95) = Cert.KernelIdeal.Prefix.x_v95 (argsOf L) := by
  refine (after_at ops 106 _ rfl _ _ (nw 107 main_v95 (by decide))).trans ?_
  rw [binary_result, pre L 106 main_v93 (by decide) (val_v93 L), pre L 106 main_v94 (by decide) (val_v94 L)]
  rfl

theorem val_v96 : AF (Proc.devRef .tc main_v96) = Cert.KernelIdeal.Prefix.x_v96 (argsOf L) := by
  refine (after_at ops 107 _ rfl _ _ (nw 108 main_v96 (by decide))).trans ?_
  rw [nary4_result, pre L 107 main_v74 (by decide) (val_v74 L), pre L 107 main_v81 (by decide) (val_v81 L), pre L 107 main_v88 (by decide) (val_v88 L), pre L 107 main_v95 (by decide) (val_v95 L)]
  rfl

theorem val_v97 : AF (Proc.devRef .tc main_v97) = Cert.KernelIdeal.Prefix.x_v97 (argsOf L) := by
  refine (after_at ops 108 _ rfl _ _ (nw 109 main_v97 (by decide))).trans ?_
  rw [unary_result, pre L 108 main_v96 (by decide) (val_v96 L)]
  rfl

theorem val_v98 : AF (Proc.devRef .tc main_v98) = Cert.KernelIdeal.Prefix.x_v98 (argsOf L) := by
  refine (after_at ops 109 _ rfl _ _ (nw 110 main_v98 (by decide))).trans ?_
  rw [unary_result, pre L 109 main_v96 (by decide) (val_v96 L)]
  rfl

theorem val_v99 : AF (Proc.devRef .tc main_v99) = Cert.KernelIdeal.Prefix.x_v99 (argsOf L) := by
  refine (after_at ops 110 _ rfl _ _ (nw 111 main_v99 (by decide))).trans ?_
  rw [unary_result, pre L 110 main_v96 (by decide) (val_v96 L)]
  rfl

theorem val_v100 : AF (Proc.devRef .tc main_v100) = Cert.KernelIdeal.Prefix.x_v100 (argsOf L) := by
  refine (after_at ops 111 _ rfl _ _ (nw 112 main_v100 (by decide))).trans ?_
  rw [unary_result, pre L 111 main_v96 (by decide) (val_v96 L)]
  rfl

theorem val_v101 : AF (Proc.devRef .tc main_v101) = Cert.KernelIdeal.Prefix.x_v101 (argsOf L) := by
  refine (after_at ops 112 _ rfl _ _ (nw 113 main_v101 (by decide))).trans ?_
  rw [binary_result, pre L 112 main_v99 (by decide) (val_v99 L), pre L 112 main_v57 (by decide) (val_v57 L)]
  rfl

theorem val_cst_9 : AF (Proc.devRef .tc main_cst_9) = Cert.KernelIdeal.Prefix.x_cst_9 (argsOf L) := by
  refine (after_at ops 113 _ rfl _ _ (nw 114 main_cst_9 (by decide))).trans ?_
  rw [nullary_result]
  rfl

theorem val_v102 : AF (Proc.devRef .tc main_v102) = Cert.KernelIdeal.Prefix.x_v102 (argsOf L) := by
  refine (after_at ops 114 _ rfl _ _ (nw 115 main_v102 (by decide))).trans ?_
  rw [binary_result, pre L 114 main_v101 (by decide) (val_v101 L), pre L 114 main_cst_9 (by decide) (val_cst_9 L)]
  rfl

theorem val_v103 : AF (Proc.devRef .tc main_v103) = Cert.KernelIdeal.Prefix.x_v103 (argsOf L) := by
  refine (after_at ops 115 _ rfl _ _ (nw 116 main_v103 (by decide))).trans ?_
  rw [binary_result, pre L 115 main_v100 (by decide) (val_v100 L), pre L 115 main_v26 (by decide) (val_v26 L)]
  rfl

theorem val_cst_10 : AF (Proc.devRef .tc main_cst_10) = Cert.KernelIdeal.Prefix.x_cst_10 (argsOf L) := by
  refine (after_at ops 116 _ rfl _ _ (nw 117 main_cst_10 (by decide))).trans ?_
  rw [nullary_result]
  rfl

theorem val_v104 : AF (Proc.devRef .tc main_v104) = Cert.KernelIdeal.Prefix.x_v104 (argsOf L) := by
  refine (after_at ops 117 _ rfl _ _ (nw 118 main_v104 (by decide))).trans ?_
  rw [binary_result, pre L 117 main_v103 (by decide) (val_v103 L), pre L 117 main_cst_10 (by decide) (val_cst_10 L)]
  rfl

theorem val_v105 : AF (Proc.devRef .tc main_v105) = Cert.KernelIdeal.Prefix.x_v105 (argsOf L) := by
  refine (after_at ops 118 _ rfl _ _ (nw 119 main_v105 (by decide))).trans ?_
  rw [binary_result, pre L 118 main_v102 (by decide) (val_v102 L), pre L 118 main_v104 (by decide) (val_v104 L)]
  rfl

theorem val_v106 : AF (Proc.devRef .tc main_v106) = Cert.KernelIdeal.Prefix.x_v106 (argsOf L) := by
  refine (after_at ops 119 _ rfl _ _ (nw 120 main_v106 (by decide))).trans ?_
  rw [binary_result, pre L 119 main_v100 (by decide) (val_v100 L), pre L 119 main_v57 (by decide) (val_v57 L)]
  rfl

theorem val_cst_11 : AF (Proc.devRef .tc main_cst_11) = Cert.KernelIdeal.Prefix.x_cst_11 (argsOf L) := by
  refine (after_at ops 120 _ rfl _ _ (nw 121 main_cst_11 (by decide))).trans ?_
  rw [nullary_result]
  rfl

theorem val_v107 : AF (Proc.devRef .tc main_v107) = Cert.KernelIdeal.Prefix.x_v107 (argsOf L) := by
  refine (after_at ops 121 _ rfl _ _ (nw 122 main_v107 (by decide))).trans ?_
  rw [binary_result, pre L 121 main_v106 (by decide) (val_v106 L), pre L 121 main_cst_11 (by decide) (val_cst_11 L)]
  rfl

theorem val_v108 : AF (Proc.devRef .tc main_v108) = Cert.KernelIdeal.Prefix.x_v108 (argsOf L) := by
  refine (after_at ops 122 _ rfl _ _ (nw 123 main_v108 (by decide))).trans ?_
  rw [binary_result, pre L 122 main_v105 (by decide) (val_v105 L), pre L 122 main_v107 (by decide) (val_v107 L)]
  rfl

theorem val_v109 : AF (Proc.devRef .tc main_v109) = Cert.KernelIdeal.Prefix.x_v109 (argsOf L) := by
  refine (after_at ops 123 _ rfl _ _ (nw 124 main_v109 (by decide))).trans ?_
  rw [binary_result, pre L 123 main_v99 (by decide) (val_v99 L), pre L 123 main_v26 (by decide) (val_v26 L)]
  rfl

theorem val_cst_12 : AF (Proc.devRef .tc main_cst_12) = Cert.KernelIdeal.Prefix.x_cst_12 (argsOf L) := by
  refine (after_at ops 124 _ rfl _ _ (nw 125 main_cst_12 (by decide))).trans ?_
  rw [nullary_result]
  rfl

theorem val_v110 : AF (Proc.devRef .tc main_v110) = Cert.KernelIdeal.Prefix.x_v110 (argsOf L) := by
  refine (after_at ops 125 _ rfl _ _ (nw 126 main_v110 (by decide))).trans ?_
  rw [binary_result, pre L 125 main_v109 (by decide) (val_v109 L), pre L 125 main_cst_12 (by decide) (val_cst_12 L)]
  rfl

theorem val_v111 : AF (Proc.devRef .tc main_v111) = Cert.KernelIdeal.Prefix.x_v111 (argsOf L) := by
  refine (after_at ops 126 _ rfl _ _ (nw 127 main_v111 (by decide))).trans ?_
  rw [binary_result, pre L 126 main_v108 (by decide) (val_v108 L), pre L 126 main_v110 (by decide) (val_v110 L)]
  rfl

theorem val_v112 : AF (Proc.devRef .tc main_v112) = Cert.KernelIdeal.Prefix.x_v112 (argsOf L) := by
  refine (after_at ops 127 _ rfl _ _ (nw 128 main_v112 (by decide))).trans ?_
  rw [binary_result, pre L 127 main_v97 (by decide) (val_v97 L), pre L 127 main_v98 (by decide) (val_v98 L)]
  rfl

theorem val_v113 : AF (Proc.devRef .tc main_v113) = t_v113 (argsOf L) := by
  refine (after_at ops 128 _ rfl _ _ (nw 129 main_v113 (by decide))).trans ?_
  rw [unary_result, pre L 128 main_arg0 (by decide) (val_arg0 L)]
  rfl

theorem val_v114 : AF (Proc.devRef .tc main_v114) = t_v114 (argsOf L) := by
  refine (after_at ops 129 _ rfl _ _ (nw 130 main_v114 (by decide))).trans ?_
  rw [binary_result, pre L 129 main_v112 (by decide) (val_v112 L), pre L 129 main_v113 (by decide) (val_v113 L)]
  rfl

theorem val_v115 : AF (Proc.devRef .tc main_v115) = t_v115 (argsOf L) := by
  refine (after_at ops 130 _ rfl _ _ (nw 131 main_v115 (by decide))).trans ?_
  rw [unary_result, pre L 130 main_v111 (by decide) (val_v111 L)]
  rfl

theorem val_v116 : AF (Proc.devRef .tc main_v116) = t_v116 (argsOf L) := by
  refine (after_at ops 131 _ rfl _ _ (nw 132 main_v116 (by decide))).trans ?_
  rw [unary_result, pre L 131 main_v115 (by decide) (val_v115 L)]
  rfl

theorem val_v117 : AF (Proc.devRef .tc main_v117) = t_v117 (argsOf L) := by
  refine (after_at ops 132 _ rfl _ _ (nw 133 main_v117 (by decide))).trans ?_
  rw [binary_result, pre L 132 main_v114 (by decide) (val_v114 L), pre L 132 main_v116 (by decide) (val_v116 L)]
  rfl

theorem val_v118 : AF (Proc.devRef .tc main_v118) = t_v118 (argsOf L) := by
  refine (after_at ops 133 _ rfl _ _ (nw 134 main_v118 (by decide))).trans ?_
  rw [unary_result, pre L 133 main_arg2 (by decide) (val_arg2 L)]
  rfl

theorem val_v119 : AF (Proc.devRef .tc main_v119) = t_v119 (argsOf L) := by
  refine (after_at ops 134 _ rfl _ _ (nw 135 main_v119 (by decide))).trans ?_
  rw [unary_result, pre L 134 main_arg3 (by decide) (val_arg3 L)]
  rfl

theorem val_v120 : AF (Proc.devRef .tc main_v120) = t_v120 (argsOf L) := by
  refine (after_at ops 135 _ rfl _ _ (nw 136 main_v120 (by decide))).trans ?_
  rw [unary_result, pre L 135 main_arg4 (by decide) (val_arg4 L)]
  rfl

theorem val_cst_13 : AF (Proc.devRef .tc main_cst_13) = t_cst_13 (argsOf L) := by
  refine (after_at ops 136 _ rfl _ _ (nw 137 main_cst_13 (by decide))).trans ?_
  rw [nullary_result]
  rfl

end Cert.ReferenceIdeal.Vals

end
-- ==== Proof.RefRun.lean ====
/-
  The reference's run with its five results named, and its first result as the scoring function.

  The reference ends with: the transposed entity table, the product of a + b with it, the bias vector broadcast to a
  column and then along the columns, their sum; the first 364 rows of the three time tables; a zero scalar. Read at
  the ideal instance the sum is the scoring function of a + b, the entity table and the bias vector.
-/
import proofs.«136334_j55559696941650_2_alg».proof.Proof.RefVals
import proofs.«136334_j55559696941650_2_alg».proof.Proof.RefScore

set_option maxRecDepth 16384

noncomputable section

namespace Cert.ReferenceIdeal.Vals

open Cert.ReferenceIdeal Cert.ReferenceIdeal.Gen Cert.ScoreFn
open Idealize.ShloMosaic Idealize.ShloMosaic.TcCoe Idealize.SL.Sem Idealize.ShloMosaic.StableHlo

/-- The reference's product-plus-bias, as a function of the arguments, is the scoring function. -/
theorem t_v117_eq (A : Cert.KernelIdeal.Prefix.Args Ideal) :
    t_v117 A = scoreFn (Cert.KernelIdeal.Prefix.x_v112 A) A.arg0 (Cert.KernelIdeal.Prefix.x_v111 A) := by
  unfold t_v117 t_v114 t_v116 t_v115 t_v113
  exact Cert.ReferenceIdeal.Score.host_scores _ _ _

variable {F : FTy → Type} [FloatOps F]

/-- Every weakly fair execution of the reference terminates with its five results at these functions of its argument
    arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = t_v117 (argsOf (launchContents m c))
      ∧ r.2.mem ((c.tc : Thread nD τ).loc main_cst_13) = t_cst_13 (argsOf (launchContents m c))
      ∧ r.2.mem ((c.tc : Thread nD τ).loc main_v118) = t_v118 (argsOf (launchContents m c))
      ∧ r.2.mem ((c.tc : Thread nD τ).loc main_v119) = t_v119 (argsOf (launchContents m c))
      ∧ r.2.mem ((c.tc : Thread nD τ).loc main_v120) = t_v120 (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v117).trans (val_v117 _), (h c main_cst_13).trans (val_cst_13 _),
      (h c main_v118).trans (val_v118 _), (h c main_v119).trans (val_v119 _), (h c main_v120).trans (val_v120 _),
      (h c main_arg0).trans (val_arg0 _), (h c main_arg1).trans (val_arg1 _), (h c main_arg2).trans (val_arg2 _),
      (h c main_arg3).trans (val_arg3 _), (h c main_arg4).trans (val_arg4 _), (h c main_arg5).trans (val_arg5 _)⟩)
    (run_after m ρ)

end Cert.ReferenceIdeal.Vals

end
-- ==== Proof.lean ====
/-
  The scoring kernel against its jnp reference: scores[p, n] = Σ_k (a + b)[p, k] · E[n, k] + bias[p].

  Both programs build the left factor a + b : [256, 64] and the bias vector : [256] from the six arguments by the
  same gathers, complex product and quaternion product. The reference then multiplies a + b by the transposed entity
  table and adds the bias along the columns; the kernel program rounds a + b to the narrower float format (the
  identity on extended reals), reshapes the bias to a column, and walks 125 tiles of 3200 entities, each tile storing
  its product-plus-bias into its own 3200 columns of the result. Index by index both results are the same 64-term
  sum plus the same bias entry, with no regrouping: the claim holds for all extended-real inputs and the finiteness of
  the inputs is never used. The other four results (a zero scalar, the first 364 rows of three tables) are computed
  by the same operations in both programs.

  The three frames: the two kernel programs terminate with their arguments unchanged by the run around the launch
  (the same text at either instance); the reference by its run as a line of host operations.
-/
import proofs.«136334_j55559696941650_2_alg».proof.Defs
import proofs.«136334_j55559696941650_2_alg».proof.Proof.Gen.Kernel
import proofs.«136334_j55559696941650_2_alg».proof.Proof.Gen.KernelIdeal
import proofs.«136334_j55559696941650_2_alg».proof.Proof.Gen.ReferenceIdeal
import proofs.«136334_j55559696941650_2_alg».proof.Proof.Gen.Pre_finite_inputs
import proofs.«136334_j55559696941650_2_alg».proof.Proof.AroundKernel
import proofs.«136334_j55559696941650_2_alg».proof.Proof.AroundKernelIdeal
import proofs.«136334_j55559696941650_2_alg».proof.Proof.KernelRun
import proofs.«136334_j55559696941650_2_alg».proof.Proof.RefScore
import proofs.«136334_j55559696941650_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Around.frame m ρ
theorem frame_ki : Cert.frame_KernelIdeal := fun m ρ _ => Cert.KernelIdeal.Around.frame m ρ
theorem frame_ri : Cert.frame_ReferenceIdeal := fun m ρ _ =>
  (θ_run Cert.ReferenceIdeal.defs _ _).mono (fun _ h c => (h c).2.2.2.2.2) (Cert.ReferenceIdeal.Vals.run (F := Ideal) m ρ)

/-- The launch contents of the reference at its argument arrays are the kernel program's arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Vals.argsOf (StableHlo.launchContents m' c) = Cert.KernelIdeal.Vals.args m c := by
  obtain ⟨a0, a1, a2, a3, a4, a5⟩ := h
  unfold Cert.ReferenceIdeal.Vals.argsOf Cert.KernelIdeal.Vals.args
  exact congr (congr (congr (congr (congr (congrArg Cert.KernelIdeal.Prefix.Args.mk a0) a1) a2) a3) a4) a5

theorem algebraic : Cert.algebraic_KernelIdeal_ReferenceIdeal := by
  intro m ρ m' ρ' _ hagree
  refine ⟨_, _, _, _, _, Cert.KernelIdeal.Score.run m ρ, ?_⟩
  refine (θ_run Cert.ReferenceIdeal.defs _ _).mono (fun _ h c => ?_) (Cert.ReferenceIdeal.Vals.run (F := Ideal) m' ρ')
  obtain ⟨h0, h1, h2, h3, h4, hargs⟩ := h c
  have hA := args_agree m m' c (hagree c)
  rw [hA] at h0 h1 h2 h3 h4
  exact ⟨h0.trans (Cert.ReferenceIdeal.Vals.t_v117_eq _), h1, h2, h3, h4, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
